-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S2x2x256 : Shape := ⟨3, ![2, 2, 256]⟩
abbrev S2x256 : Shape := ⟨2, ![2, 256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S2x2x256 : S_.BroadcastsInDim S2x2x256 (![] : Fin 0 → Fin S2x2x256.rank)
  reducesTo_S2x2x256_S_d0_1_2 : S2x2x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S2x2x256 .f32) (main_arg3 : FVec F S2x256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S2x2x256 .f32 := Host.absf main_arg2
  let main_cst_2 : FVec F S_ .f32 := constant S_ .f32 0x7F800000#32
  let main_v10 : FVec F S2x2x256 .f32 := broadcastInDim S2x2x256 ![] bcast_S_S2x2x256 main_cst_2
  let main_v11 : IVec S2x2x256 1 := cmpf .olt main_v9 main_v10
  let main_c_3 : IVec S_ 1 := constantI S_ 1 1#1
  let main_v12 : IVec S_ 1 := (fun x v => Host.reduce IntOp.andi x v reducesTo_S2x2x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_v13 main_v16
-- ==== Kernel.lean ====
abbrev S32x256x64x64 : Shape := ⟨4, ![32, 256, 64, 64]⟩
abbrev S2x2x256 : Shape := ⟨3, ![2, 2, 256]⟩
abbrev S2x256 : Shape := ⟨2, ![2, 256]⟩
abbrev S32x256x4096 : Shape := ⟨3, ![32, 256, 4096]⟩
abbrev S2x5x256 : Shape := ⟨3, ![2, 5, 256]⟩
abbrev S2x256x4096 : Shape := ⟨3, ![2, 256, 4096]⟩
abbrev S1x5x256 : Shape := ⟨3, ![1, 5, 256]⟩
abbrev S5x256 : Shape := ⟨2, ![5, 256]⟩
abbrev S256 : Shape := ⟨1, ![256]⟩
abbrev S1x256 : Shape := ⟨2, ![1, 256]⟩
abbrev S_ : Shape := ⟨0, ![]⟩
abbrev S1x1x256 : Shape := ⟨3, ![1, 1, 256]⟩
abbrev S256x1 : Shape := ⟨2, ![256, 1]⟩
abbrev S256x8 : Shape := ⟨2, ![256, 8]⟩
abbrev S2x32x256x4096 : Shape := ⟨4, ![2, 32, 256, 4096]⟩
abbrev S1x256x4096 : Shape := ⟨3, ![1, 256, 4096]⟩
abbrev S2x1x256x4096 : Shape := ⟨4, ![2, 1, 256, 4096]⟩
abbrev S256x4096 : Shape := ⟨2, ![256, 4096]⟩
abbrev S1x1x256x4096 : Shape := ⟨4, ![1, 1, 256, 4096]⟩
abbrev S2x32x256x64x64 : Shape := ⟨5, ![2, 32, 256, 64, 64]⟩

abbrev nBuf : Space → Nat
  | .hbm => 101
  | .vmem => 13
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S2x2x256, .f32⟩
  | .hbm, ⟨3, _⟩ => ⟨S2x256, .f32⟩
  | .hbm, ⟨4, _⟩ => ⟨S32x256x4096, .f32⟩
  | .hbm, ⟨5, _⟩ => ⟨S32x256x4096, .f32⟩
  | .hbm, ⟨6, _⟩ => ⟨S2x5x256, .f32⟩
  | .hbm, ⟨7, _⟩ => ⟨S_, .f32⟩
  | .hbm, ⟨8, _⟩ => ⟨S5x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S1x1x256, .f32⟩
  | .hbm, ⟨67, _⟩ => ⟨S256, .f32⟩
  | .hbm, ⟨68, _⟩ => ⟨S1x1x256, .f32⟩
  | .hbm, ⟨69, _⟩ => ⟨S256, .f32⟩
  | .hbm, ⟨70, _⟩ => ⟨S1x1x256, .f32⟩
  | .hbm, ⟨71, _⟩ => ⟨S256, .f32⟩
  | .hbm, ⟨72, _⟩ => ⟨S1x1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S256x1, .f32⟩
  | .hbm, ⟨91, _⟩ => ⟨S256x1, .f32⟩
  | .hbm, ⟨92, _⟩ => ⟨S256x1, .f32⟩
  | .hbm, ⟨93, _⟩ => ⟨S256x1, .f32⟩
  | .hbm, ⟨94, _⟩ => ⟨S256x1, .f32⟩
  | .hbm, ⟨95, _⟩ => ⟨S256x1, .f32⟩
  | .hbm, ⟨96, _⟩ => ⟨S256x1, .f32⟩
  | .hbm, ⟨97, _⟩ => ⟨S256x1, .f32⟩
  | .hbm, ⟨98, _⟩ => ⟨S256x8, .f32⟩
  | .hbm, ⟨99, _⟩ => ⟨S2x32x256x4096, .f32⟩
  | .hbm, ⟨100, _⟩ => ⟨S2x32x256x64x64, .f32⟩
  | .local _ .vmem, ⟨0, _⟩ => ⟨S2x256x4096, .f32⟩
  | .local _ .vmem, ⟨1, _⟩ => ⟨S2x256x4096, .f32⟩
  | .local _ .vmem, ⟨2, _⟩ => ⟨S2x256x4096, .f32⟩
  | .local _ .vmem, ⟨3, _⟩ => ⟨S2x256x4096, .f32⟩
  | .local _ .vmem, ⟨4, _⟩ => ⟨S1x5x256, .f32⟩
  | .local _ .vmem, ⟨5, _⟩ => ⟨S1x5x256, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S256x8, .f32⟩
  | .local _ .vmem, ⟨11, _⟩ => ⟨S2x1x256x4096, .f32⟩
  | .local _ .vmem, ⟨12, _⟩ => ⟨S2x1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x256x64x64_S32x256x4096 : S32x256x64x64.ShapeCasts S32x256x4096
  inb_S1x5x256_S1x5x256_0_0_0 : ∀ a, (![0, 0, 0] : Fin 3 → Nat) a + S1x5x256.size a ≤ S1x5x256.size a
  h_S1x5x256 : 0 < S1x5x256.numel
  shapeCasts_S1x5x256_S5x256 : S1x5x256.ShapeCasts S5x256
  shapeCasts_S5x256_S1x5x256 : S5x256.ShapeCasts S1x5x256
  inb_S2x256x4096_S2x256x4096_0_0_0 : ∀ a, (![0, 0, 0] : Fin 3 → Nat) a + S2x256x4096.size a ≤ S2x256x4096.size a
  h_S2x256x4096 : 0 < S2x256x4096.numel
  shapeCasts_S2x256x4096_S2x256x4096 : S2x256x4096.ShapeCasts S2x256x4096
  reduces_S2x256x4096_S256 : S2x256x4096.Reduces [0, 2] S256
  shapeCasts_S256_S1x256 : S256.ShapeCasts S1x256
  concatenates_S1x256_S1x256_S1x256_S1x256_S1x256_S5x256_d0 : Shape.Concatenates [S1x256, S1x256, S1x256, S1x256, S1x256] S5x256 0
  reducesTo_S2x5x256_S5x256_d0 : S2x5x256.ReducesTo [0] S5x256
  h_S_ : 0 < S_.numel
  slices_S5x256_S1x256_0_0 : S5x256.Slices ![0, 0] S1x256
  shapeCasts_S1x256_S256 : S1x256.ShapeCasts S256
  slices_S5x256_S1x256_1_0 : S5x256.Slices ![1, 0] S1x256
  slices_S5x256_S1x256_2_0 : S5x256.Slices ![2, 0] S1x256
  slices_S5x256_S1x256_3_0 : S5x256.Slices ![3, 0] S1x256
  slices_S5x256_S1x256_4_0 : S5x256.Slices ![4, 0] S1x256
  bcast_S_S256 : S_.BroadcastsInDim S256 (![] : Fin 0 → Fin S256.rank)
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  slices_S2x2x256_S1x1x256_1_0_0 : S2x2x256.Slices ![1, 0, 0] S1x1x256
  slices_S2x2x256_S1x1x256_1_1_0 : S2x2x256.Slices ![1, 1, 0] S1x1x256
  slices_S2x256_S1x256_0_0 : S2x256.Slices ![0, 0] S1x256
  slices_S2x256_S1x256_1_0 : S2x256.Slices ![1, 0] S1x256
  bcast_S256_S256x1_0 : S256.BroadcastsInDim S256x1 (![0] : Fin 1 → Fin S256x1.rank)
  concatenates_S256x1_S256x1_S256x1_S256x1_S256x1_S256x1_S256x1_S256x1_S256x8_d1 : Shape.Concatenates [S256x1, S256x1, S256x1, S256x1, S256x1, S256x1, S256x1, S256x1] S256x8 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S256x8_S256x1_0_0 : ∀ a, (![0, 0] : Fin 2 → Nat) a + S256x1.size a ≤ S256x8.size a
  h_S256x1 : 0 < S256x1.numel
  shapeCasts_S256x1_S256x1 : S256x1.ShapeCasts S256x1
  inb_S256x8_S256x1_0_1 : ∀ a, (![0, 1] : Fin 2 → Nat) a + S256x1.size a ≤ S256x8.size a
  inb_S256x8_S256x1_0_2 : ∀ a, (![0, 2] : Fin 2 → Nat) a + S256x1.size a ≤ S256x8.size a
  inb_S256x8_S256x1_0_3 : ∀ a, (![0, 3] : Fin 2 → Nat) a + S256x1.size a ≤ S256x8.size a
  inb_S256x8_S256x1_0_4 : ∀ a, (![0, 4] : Fin 2 → Nat) a + S256x1.size a ≤ S256x8.size a
  inb_S256x8_S256x1_0_5 : ∀ a, (![0, 5] : Fin 2 → Nat) a + S256x1.size a ≤ S256x8.size a
  inb_S256x8_S256x1_0_6 : ∀ a, (![0, 6] : Fin 2 → Nat) a + S256x1.size a ≤ S256x8.size a
  inb_S256x8_S256x1_0_7 : ∀ a, (![0, 7] : Fin 2 → Nat) a + S256x1.size a ≤ S256x8.size a
  broadcasts_S256x1_S256x4096 : S256x1.Broadcasts S256x4096
  inb_S2x1x256x4096_S1x1x256x4096_0_0_0_0 : ∀ a, (![0, 0, 0, 0] : Fin 4 → Nat) a + S1x1x256x4096.size a ≤ S2x1x256x4096.size a
  h_S1x1x256x4096 : 0 < S1x1x256x4096.numel
  shapeCasts_S1x1x256x4096_S256x4096 : S1x1x256x4096.ShapeCasts S256x4096
  shapeCasts_S256x4096_S1x1x256x4096 : S256x4096.ShapeCasts S1x1x256x4096
  inb_S2x1x256x4096_S1x1x256x4096_1_0_0_0 : ∀ a, (![1, 0, 0, 0] : Fin 4 → Nat) a + S1x1x256x4096.size a ≤ S2x1x256x4096.size a
  shapeCasts_S2x32x256x4096_S2x32x256x64x64 : S2x32x256x4096.ShapeCasts S2x32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S32x256x4096.size a
  hwx0_0 : ∀ i : grid0.Coords, EltTy.bits .f32 = 32 ∨ (Rect.block (s := S32x256x4096) S2x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x4096.size a ≤ S32x256x4096.size a
  hwx0_1 : ∀ i : grid0.Coords, EltTy.bits .f32 = 32 ∨ (Rect.block (s := S32x256x4096) S2x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x256.size a ≤ S2x5x256.size a
  hwx0_2 : ∀ i : grid0.Coords, EltTy.bits .f32 = 32 ∨ (Rect.block (s := S2x5x256) S1x5x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S32x256x4096.size a
  hwx1_0 : ∀ i : grid1.Coords, EltTy.bits .f32 = 32 ∨ (Rect.block (s := S32x256x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S32x256x4096.size a
  hwx1_1 : ∀ i : grid1.Coords, EltTy.bits .f32 = 32 ∨ (Rect.block (s := S32x256x4096) S1x256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x8.size a ≤ S256x8.size a
  hwx1_2 : ∀ i : grid1.Coords, EltTy.bits .f32 = 32 ∨ (Rect.block (s := S256x8) S256x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x1x256x4096.size a ≤ S2x32x256x4096.size a
  hwx1_3 : ∀ i : grid1.Coords, EltTy.bits .f32 = 32 ∨ (Rect.block (s := S2x32x256x4096) S2x1x256x4096.size (cc1_transform_3 i) (hinb1_3 i)).WholeWords (EltTy.packing .f32)

variable [Facts₀]

abbrev win0_0 : Pipeline.Window sig grid0 :=
  Pipeline.Window.ofSpec (Memref.whole main_v0) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S256x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S2x1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S2x2x256 : Shape := ⟨3, ![2, 2, 256]⟩
abbrev S2x256 : Shape := ⟨2, ![2, 256]⟩
abbrev S_ : Shape := ⟨0, ![]⟩
abbrev S256 : Shape := ⟨1, ![256]⟩
abbrev S1x256x1x1 : Shape := ⟨4, ![1, 256, 1, 1]⟩
abbrev S1x1x256 : Shape := ⟨3, ![1, 1, 256]⟩
abbrev S1x256 : Shape := ⟨2, ![1, 256]⟩
abbrev S1x32x256x64x64 : Shape := ⟨5, ![1, 32, 256, 64, 64]⟩
abbrev S2x32x256x64x64 : Shape := ⟨5, ![2, 32, 256, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S2x2x256, .f32⟩
  | .hbm, ⟨3, _⟩ => ⟨S2x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x256x1x1, .f32⟩
  | .hbm, ⟨15, _⟩ => ⟨S32x256x64x64, .f32⟩
  | .hbm, ⟨16, _⟩ => ⟨S32x256x64x64, .f32⟩
  | .hbm, ⟨17, _⟩ => ⟨S1x256x1x1, .f32⟩
  | .hbm, ⟨18, _⟩ => ⟨S32x256x64x64, .f32⟩
  | .hbm, ⟨19, _⟩ => ⟨S32x256x64x64, .f32⟩
  | .hbm, ⟨20, _⟩ => ⟨S32x256x64x64, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S32x256x64x64, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S32x256x64x64, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256x1x1, .f32⟩
  | .hbm, ⟨65, _⟩ => ⟨S32x256x64x64, .f32⟩
  | .hbm, ⟨66, _⟩ => ⟨S32x256x64x64, .f32⟩
  | .hbm, ⟨67, _⟩ => ⟨S1x256x1x1, .f32⟩
  | .hbm, ⟨68, _⟩ => ⟨S32x256x64x64, .f32⟩
  | .hbm, ⟨69, _⟩ => ⟨S32x256x64x64, .f32⟩
  | .hbm, ⟨70, _⟩ => ⟨S32x256x64x64, .f32⟩
  | .hbm, ⟨71, _⟩ => ⟨S1x256x1x1, .f32⟩
  | .hbm, ⟨72, _⟩ => ⟨S32x256x64x64, .f32⟩
  | .hbm, ⟨73, _⟩ => ⟨S32x256x64x64, .f32⟩
  | .hbm, ⟨74, _⟩ => ⟨S1x256x1x1, .f32⟩
  | .hbm, ⟨75, _⟩ => ⟨S32x256x64x64, .f32⟩
  | .hbm, ⟨76, _⟩ => ⟨S32x256x64x64, .f32⟩
  | .hbm, ⟨77, _⟩ => ⟨S32x256x64x64, .f32⟩
  | .hbm, ⟨78, _⟩ => ⟨S1x1x256, .f32⟩
  | .hbm, ⟨79, _⟩ => ⟨S256, .f32⟩
  | .hbm, ⟨80, _⟩ => ⟨S1x256x1x1, .f32⟩
  | .hbm, ⟨81, _⟩ => ⟨S32x256x64x64, .f32⟩
  | .hbm, ⟨82, _⟩ => ⟨S32x256x64x64, .f32⟩
  | .hbm, ⟨83, _⟩ => ⟨S1x1x256, .f32⟩
  | .hbm, ⟨84, _⟩ => ⟨S256, .f32⟩
  | .hbm, ⟨85, _⟩ => ⟨S1x256x1x1, .f32⟩
  | .hbm, ⟨86, _⟩ => ⟨S32x256x64x64, .f32⟩
  | .hbm, ⟨87, _⟩ => ⟨S32x256x64x64, .f32⟩
  | .hbm, ⟨88, _⟩ => ⟨S32x256x64x64, .f32⟩
  | .hbm, ⟨89, _⟩ => ⟨S1x256, .f32⟩
  | .hbm, ⟨90, _⟩ => ⟨S256, .f32⟩
  | .hbm, ⟨91, _⟩ => ⟨S1x256x1x1, .f32⟩
  | .hbm, ⟨92, _⟩ => ⟨S32x256x64x64, .f32⟩
  | .hbm, ⟨93, _⟩ => ⟨S32x256x64x64, .f32⟩
  | .hbm, ⟨94, _⟩ => ⟨S1x1x256, .f32⟩
  | .hbm, ⟨95, _⟩ => ⟨S256, .f32⟩
  | .hbm, ⟨96, _⟩ => ⟨S1x256x1x1, .f32⟩
  | .hbm, ⟨97, _⟩ => ⟨S32x256x64x64, .f32⟩
  | .hbm, ⟨98, _⟩ => ⟨S32x256x64x64, .f32⟩
  | .hbm, ⟨99, _⟩ => ⟨S1x1x256, .f32⟩
  | .hbm, ⟨100, _⟩ => ⟨S256, .f32⟩
  | .hbm, ⟨101, _⟩ => ⟨S1x256x1x1, .f32⟩
  | .hbm, ⟨102, _⟩ => ⟨S32x256x64x64, .f32⟩
  | .hbm, ⟨103, _⟩ => ⟨S32x256x64x64, .f32⟩
  | .hbm, ⟨104, _⟩ => ⟨S32x256x64x64, .f32⟩
  | .hbm, ⟨105, _⟩ => ⟨S1x256, .f32⟩
  | .hbm, ⟨106, _⟩ => ⟨S256, .f32⟩
  | .hbm, ⟨107, _⟩ => ⟨S1x256x1x1, .f32⟩
  | .hbm, ⟨108, _⟩ => ⟨S32x256x64x64, .f32⟩
  | .hbm, ⟨109, _⟩ => ⟨S32x256x64x64, .f32⟩
  | .hbm, ⟨110, _⟩ => ⟨S1x32x256x64x64, .f32⟩
  | .hbm, ⟨111, _⟩ => ⟨S1x32x256x64x64, .f32⟩
  | .hbm, ⟨112, _⟩ => ⟨S2x32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]

class Facts₀ : Prop where
  reducesTo_S32x256x64x64_S256_d0_2_3 : S32x256x64x64.ReducesTo [0, 2, 3] S256
  h_S_ : 0 < S_.numel
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S32x256x64x64_0_1_2_3 : S1x256x1x1.BroadcastsInDim S32x256x64x64 (![0, 1, 2, 3] : Fin 4 → Fin S32x256x64x64.rank)
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  slices_S2x256_S1x256_0_0 : S2x256.Slices ![0, 0] S1x256
  shapeCasts_S1x256_S256 : S1x256.ShapeCasts S256
  slices_S2x2x256_S1x1x256_1_0_0 : S2x2x256.Slices ![1, 0, 0] S1x1x256
  slices_S2x2x256_S1x1x256_1_1_0 : S2x2x256.Slices ![1, 1, 0] S1x1x256
  slices_S2x256_S1x256_1_0 : S2x256.Slices ![1, 0] S1x256
  bcast_S32x256x64x64_S1x32x256x64x64_1_2_3_4 : S32x256x64x64.BroadcastsInDim S1x32x256x64x64 (![1, 2, 3, 4] : Fin 4 → Fin S1x32x256x64x64.rank)
  concatenates_S1x32x256x64x64_S1x32x256x64x64_S2x32x256x64x64_d0 : Shape.Concatenates [S1x32x256x64x64, S1x32x256x64x64] S2x32x256x64x64 0

variable [Facts₀]

class Facts : Prop extends Facts₀ where

variable [Facts]
-- ==== Proof.K.Body0Runs.lean ====
/- Region 0 (the statistics kernel): what its two case runs share. The windows' blocks read off the
   arrays as the region finds them, the inputs' staging buffers at their blocks at every point, the
   branch condition of the body in closed form, and the staging memrefs the body is called on. -/
import proofs.«121567_j27676769255584_2_alg».proof.Proof.Gen.Kernel.Launch
import proofs.«121567_j27676769255584_2_alg».proof.Proof.Gen.Kernel.Skeleton
import proofs.«121567_j27676769255584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's `scf.if`, from the grid coordinates (the skeleton's scalar chain substituted):
    coordinate 1 of the point is zero. -/
abbrev cond0_0 (i : grid0.Coords) : Prop := (Scalar.cmpi .ne (Scalar.extui (Scalar.cmpi .eq (BitVec.ofNat 32 (i 1).val) 0#32)) 0#32) = 1#1
/-- It holds at the first point of each row of the inner axis — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called on -/

/-- One staging buffer of output window 2, through which its contents are stated. -/
abbrev VO0_2 : View sig .tc .vmem S1x5x256 .f32 := (Memref.whole cc0_stg2_0 : Memref sig .tc .vmem S1x5x256 .f32).view
/-- Each window's current staging memref at point `t`, spelled as the pipeline passes it, and its wholeness. -/
abbrev ms0_0 (t : Fin cfg0.N) : Memref sig .tc .vmem S2x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x256 .f32 := win0_2.stage (cfg0.slots t 2)
abbrev hs0_2 (t : Fin cfg0.N) : (ms0_2 t).IsWhole := hstage0_2 ((cfg0.slots t 2).cast nbuf0_2)

end Cert.Kernel.Hand

end
-- ==== Proof.K.Body0RunA.lean ====
/- Region 0 (the statistics kernel): the whole-body run in case A, the points whose coordinate 1 is zero,
   where the body resets the output block to zero before adding the point's five per-channel sums. -/
import proofs.«121567_j27676769255584_2_alg».proof.Proof.K.Body0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 1000000 in
/-- What the body's stores leave in the output's staging memref, as pieces (last first), in case A, with the proof
    that on whole staging memrefs — the inputs' at their contents, the output's at anything — the body runs to the
    continuation holding the inputs' as they were and the output's buffer with its pieces written. The load of the
    output buffer ahead of the zero store reads whatever is there; its value is not used. -/
noncomputable def kernelRun0_A (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) :
    { L2 : List (View.Piece (Elt F) S1x5x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Body0RunB.lean ====
/- Region 0 (the statistics kernel): the whole-body run in case B, the points whose coordinate 1 is not
   zero, where the body adds the point's five per-channel sums to what the output block holds. -/
import proofs.«121567_j27676769255584_2_alg».proof.Proof.K.Body0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large)
set_option maxHeartbeats 1000000 in
/-- What the body's stores leave in the output's staging memref, as pieces (last first), in case B, with the proof
    that on whole staging memrefs — the inputs' at their contents, the output's at its running contents `xo2` — the
    body runs to the continuation holding the inputs' as they were and the output's buffer with its pieces written. -/
noncomputable def kernelRun0_B (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) :
    { L2 : List (View.Piece (Elt F) S1x5x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Body0.lean ====
/- Region 0 (the statistics kernel), at the buffer contents `V` the region is entered with: what its output
   block holds per case and point by point, the pipeline's proof data, and the body obligation; then the two
   value equations of the accumulation (the reset point and the later points of each row of the inner axis). -/
import proofs.«121567_j27676769255584_2_alg».proof.Proof.K.Body0RunB
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in the output's staging buffer -/

/-- Case A's pieces for output 2 tile its block (2 whole-block stores), so they cover it. -/
theorem cover0_A_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) (y : S1x5x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x5x256.size (by sl_kernel_rfl) y

/-- What case A leaves in output 2's staging buffer: its pieces read back over junk. -/
def out0_A_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) : Vec F S1x5x256 .f32 :=
  VO0_2.read (Elt F) (VO0_2.writes (Elt F) VO0_2.junk (kernelRun0_A c i arg2 harg2 arg3 harg3 arg4 harg4 hc0 x0 x1).1)

/-- Case B's pieces for output 2 tile its block (1 whole-block store), so they cover it. -/
theorem cover0_B_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) (y : S1x5x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x5x256.size (by sl_kernel_rfl) y

/-- What case B leaves in output 2's staging buffer: its pieces read back over junk. -/
def out0_B_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) : Vec F S1x5x256 .f32 :=
  VO0_2.read (Elt F) (VO0_2.writes (Elt F) VO0_2.junk (kernelRun0_B c i arg2 harg2 arg3 harg3 arg4 harg4 hc0 x0 x1 xo2).1)

/-! ## What each case leaves, as a value -/

theorem hz3 : (![0, 0, 0] : Fin 3 → Nat) = fun _ => 0 := funext fun a => by fin_cases a <;> rfl

/-- Case B's value: over the output block `xo2` the body leaves the payload of its one covering store, read at
    the whole input blocks and the whole output block. -/
theorem out0_B_2_eq (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero (S := S1x5x256) hz3]
  simp only [View.readAt_eq_ld, harg2.read_unread, harg3.read_unread, harg4.read_unread,
    View.ld_unit_zero (S := S2x256x4096) hz3, View.ld_unit_zero (S := S1x5x256) hz3]

/-- Case A's value: the body stores the zero block, reads it back, and leaves the payload of its last covering
    store read at the whole input blocks and the zero block. -/
theorem out0_A_2_eq (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) :
    out0_A_2 c i arg2 harg2 arg3 harg3 arg4 harg4 hc0 x0 x1 = k0_pay2 x0 x1 k0_pay1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x5x256) hz3, View.readCov_unit_zero (S := S1x5x256) _ hz3]
  simp only [View.readAt_eq_ld, harg2.read_unread, harg3.read_unread,
    View.ld_unit_zero (S := S2x256x4096) hz3]

section Region0
-- the TensorCore's buffer contents when the region is entered
variable (V : (c : Dev nD) → (b : Ref sig .tc) → Buf (Elt F) ((c : Thread nD τ).loc b))

/-! ## What the output holds after each point -/

/-- THE ACCUMULATION. What output window 2's staging buffer holds after the body at position `n`: the case the
    closed form selects at `n`, run at the point's memrefs and input blocks; in case B over what this leaves at
    `n - 1` (the buffer is not written back between). -/
def outsAt0 (c : Dev nD) : (n : ℕ) → n < cfg0.N → Vec F S1x5x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- `outsAt0` at a point of case A: that case's contents. -/
theorem outsAt0_A (c : Dev nD) (t : Fin cfg0.N) (h0 : t.val % 8 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 2's current staging buffer holds what the body left at the point before: the point
    is not the first, the buffer was not written back between (it is written back after the last point of a row of
    the inner axis only), the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: the inputs' memrefs hold their blocks; the closed form says which case the point is in;
    in case B the output's buffer holds what the point before left; so the run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The accumulation's two value equations -/

/-- At a point whose coordinate 1 is zero the output block is reset: it ends holding the point's five sums added to
    the zero block. -/
theorem outsAt0_first (c : Dev nD) (t : Fin cfg0.N) (h : t.val % 8 = 0) :
    outsAt0 V c t.val t.isLt = Gen.k0_pay2 (iblk0 V c 0 t) (iblk0 V c 1 t) Gen.k0_pay1 :=
  (outsAt0_A V c t h).trans (out0_A_2_eq c (grid0.coords t) (ms0_0 t) (hs0_0 t) (ms0_1 t) (hs0_1 t) (ms0_2 t) (hs0_2 t) ((hcond0_0 t).mpr h) (iblk0 V c 0 t) (iblk0 V c 1 t))

/-- At any other point it ends holding the point's five sums added to what the point before left. -/
theorem outsAt0_next (c : Dev nD) (t : Fin cfg0.N) (h : ¬ t.val % 8 = 0) :
    outsAt0 V c t.val t.isLt = Gen.k0_pay2 (iblk0 V c 0 t) (iblk0 V c 1 t) (outsAt0 V c (t.val - 1) (Nat.lt_of_le_of_lt (Nat.sub_le _ _) t.isLt)) :=
  (outsAt0_B V c t h).trans (out0_B_2_eq c (grid0.coords t) (ms0_0 t) (hs0_0 t) (ms0_1 t) (hs0_1 t) (ms0_2 t) (hs0_2 t) (fun h' => h ((hcond0_0 t).mp h')) (iblk0 V c 0 t) (iblk0 V c 1 t) (outsAt0 V c (t.val - 1) (Nat.lt_of_le_of_lt (Nat.sub_le _ _) t.isLt)))

end Region0

end Cert.Kernel.Hand

end
-- ==== Proof.K.Body1.lean ====
/- REGION 1 of @main (pallas_call 1, the transform kernel on its grid of 32 points), at a PARAMETER V — the
   TensorCore's buffer contents when the region is entered: each window's block at a point, what the body leaves
   in the output window's staging buffer as the canon of its two stores over the input blocks, the body's triple,
   the pipeline's proof data, and the body obligation at every point. -/
import proofs.«121567_j27676769255584_2_alg».proof.Proof.Gen.Kernel.Launch
import proofs.«121567_j27676769255584_2_alg».proof.Proof.Gen.Kernel.Skeleton
import proofs.«121567_j27676769255584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have axes of extent 4096: membership of an index in a rectangle unfolds once per
-- coordinate of such an axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2, the coefficient table fetched at the first point only: at every later point its
    block index is the one it had, so its buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A whole activation block. -/
abbrev rX : Rect S1x256x4096 := Rect.unit (s := S1x256x4096) ![0, 0, 0] S1x256x4096.size inb_S1x256x4096_S1x256x4096_0_0_0
/-- The eight columns of the coefficient table. -/
abbrev rC0 : Rect S256x8 := Rect.unit (s := S256x8) ![0, 0] S256x1.size inb_S256x8_S256x1_0_0
abbrev rC1 : Rect S256x8 := Rect.unit (s := S256x8) ![0, 1] S256x1.size inb_S256x8_S256x1_0_1
abbrev rC2 : Rect S256x8 := Rect.unit (s := S256x8) ![0, 2] S256x1.size inb_S256x8_S256x1_0_2
abbrev rC3 : Rect S256x8 := Rect.unit (s := S256x8) ![0, 3] S256x1.size inb_S256x8_S256x1_0_3
abbrev rC4 : Rect S256x8 := Rect.unit (s := S256x8) ![0, 4] S256x1.size inb_S256x8_S256x1_0_4
abbrev rC5 : Rect S256x8 := Rect.unit (s := S256x8) ![0, 5] S256x1.size inb_S256x8_S256x1_0_5
abbrev rC6 : Rect S256x8 := Rect.unit (s := S256x8) ![0, 6] S256x1.size inb_S256x8_S256x1_0_6
abbrev rC7 : Rect S256x8 := Rect.unit (s := S256x8) ![0, 7] S256x1.size inb_S256x8_S256x1_0_7
/-- The two halves of the output block along its leading axis. -/
abbrev rO0 : Rect S2x1x256x4096 := Rect.unit (s := S2x1x256x4096) ![0, 0, 0, 0] S1x1x256x4096.size inb_S2x1x256x4096_S1x1x256x4096_0_0_0_0
abbrev rO1 : Rect S2x1x256x4096 := Rect.unit (s := S2x1x256x4096) ![1, 0, 0, 0] S1x1x256x4096.size inb_S2x1x256x4096_S1x1x256x4096_1_0_0_0

/-! ## What the body leaves in the output window's buffer -/

/-- Window 3's staging buffer after the body, from the input windows' blocks: its 2 stores as pieces, last
    first, over the skeleton's payloads. -/
def out1_3 (x0 x1 : Vec F S1x256x4096 .f32) (x2 : Vec F S256x8 .f32) : Vec F S2x1x256x4096 .f32 :=
  View.canon [
    ⟨rO1, k1_pay2 (k1_pay3 (View.ld x2 rC4)) (k1_pay4 (View.ld x2 rC5)) (k1_pay5 (View.ld x2 rC7))
      (k1_pay6 (View.ld x0 rX) (View.ld x2 rC0)) (k1_pay7 (View.ld x1 rX) (View.ld x2 rC1))⟩,
    ⟨rO0, k1_pay1 (k1_pay8 (View.ld x0 rX) (View.ld x1 rX) (View.ld x2 rC0) (View.ld x2 rC1) (View.ld x2 rC2)
      (View.ld x2 rC3) (View.ld x2 rC6))⟩]

/-- Its stores tile the buffer (checked by evaluation), so they cover it. -/
theorem cover1_3 (p1 p0 : Vec F S1x1x256x4096 .f32) (y : S2x1x256x4096.Idx) :
    ∃ pc ∈ ([⟨rO1, p1⟩, ⟨rO0, p0⟩] : List (View.Piece (Elt F) S2x1x256x4096 .f32)), y ∈ pc.1.set :=
  View.cover_of_tiled [⟨rO1, p1⟩, ⟨rO0, p0⟩] S1x1x256x4096.size (by rfl) y

/-! ## The body's triple -/

set_option maxHeartbeats 1000000 in
/-- The kernel body on whole staging memrefs, the inputs' at read contents x0, x1, x2 and the output's at anything,
    runs to the continuation holding the inputs' as they were and the output's at out1_3 of the inputs': the printed
    functions are their skeletons, which the symbolic run executes through the part call. The two loads of the
    output buffer that precede its stores read values the body never uses. -/
theorem sound_kernel1 (c : Dev nD) (E : Set ℕ) (i : grid1.Coords)
    (arg1 : Memref sig .tc .vmem S1x256x4096 .f32) (harg1 : arg1.IsWhole)
    (arg2 : Memref sig .tc .vmem S1x256x4096 .f32) (harg2 : arg2.IsWhole)
    (arg3 : Memref sig .tc .vmem S256x8 .f32) (harg3 : arg3.IsWhole)
    (arg4 : Memref sig .tc .vmem S2x1x256x4096 .f32) (harg4 : arg4.IsWhole)
    (x0 x1 : Vec F S1x256x4096 .f32) (x2 : Vec F S256x8 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E
          (cc1__transform_kernel i arg1 harg1 arg2 harg2 arg3 harg3 arg4 harg4) K := by
  simp only [cc1__transform_kernel_eq_skeleton]; unfold cc1__transform_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's proof data -/

/-- The proof data of pipeline 1 on core c: the arrays as the region finds them (V); after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The run of the whole program: its @main as six segments — two host reshapes, the statistics kernel, the coefficient
  arithmetic in the two stretches the printed program is cut into, the transform kernel, the closing reshape — over the
  thread state "every unscoped buffer at the boundary's contents, the generator register at some state, nothing owed".
  The contents at the boundaries are a fold from the launch memory: a host stretch applies its operations, a kernel leaves
  its arrays at what its pipeline's write-backs give and every other buffer as it found it.  No host operation and no kernel
  writes an argument array, so the fold read at an argument walks back to the launch memory: the frame.
-/
import proofs.«121567_j27676769255584_2_alg».proof.Proof.K.Body0
import proofs.«121567_j27676769255584_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two host reshapes, the statistics kernel, the coefficient arithmetic (cut where the printed
    program is cut), the transform kernel, the closing reshape.

## The buffer contents at each boundary, folded from the launch memory -/

/-- Core `c`'s buffers at launch. -/
abbrev W0 : Dev nD → Valuation τ sig (Elt F) := fun c b => (s₀ m ρ).mem ((c : Dev nD), b)
/-- After the two reshapes: the statistics kernel's entry. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the statistics kernel's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first stretch of the coefficient arithmetic, -/
abbrev W3 : Dev nD → Valuation τ sig (Elt F) := fun c => StableHlo.after main_part0_ops1 (W2 m ρ c)
/-- and after the second: the transform kernel's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- At the transform kernel's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- After the closing reshape: the contents @main returns with. -/
abbrev W6 : Dev nD → Valuation τ sig (Elt F) := fun c => StableHlo.after main_part1_ops1 (W5 m ρ c)

/-! ### No host operation and no kernel writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The kernels as segments -/

set_option backward.isDefEq.respectTransparency.types false in
/-- Pallas call 0 as a segment: its arrays are split out of the unscoped buffers at entry and put back, at what the
    pipeline's write-backs leave, at exit; the generator register passes through the class invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: its arrays are split out of the unscoped buffers at entry and put back, at what the
    pipeline's write-backs leave, at exit; the generator register passes through the class invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .region (reg1 m ρ),
    .host (hseg main_part1_ops1 main_part1_ops1_sub ops3_fresh (W5 m ρ)) ]
/-- @main is the run of the segments. -/
theorem main_run (c : Dev nD) : main (F := F) c = Pipeline.Seg.run (segs m ρ) := (main_chain_windows c).trans (by chain_rfl)

set_option backward.isDefEq.respectTransparency.types false in
/-- Every weakly fair execution of @main terminates, nothing faulting, and every final state holds every unscoped
    buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_main m ρ)

end Cert.Kernel.Hand

end
-- ==== Proof.KI.Body0Runs.lean ====
/- Region 0 (the statistics kernel): what its two case runs share. The windows' blocks read off the
   arrays as the region finds them, the inputs' staging buffers at their blocks at every point, the
   branch condition of the body in closed form, and the staging memrefs the body is called on. -/
import proofs.«121567_j27676769255584_2_alg».proof.Proof.Gen.KernelIdeal.Launch
import proofs.«121567_j27676769255584_2_alg».proof.Proof.Gen.KernelIdeal.Skeleton
import proofs.«121567_j27676769255584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's `scf.if`, from the grid coordinates (the skeleton's scalar chain substituted):
    coordinate 1 of the point is zero. -/
abbrev cond0_0 (i : grid0.Coords) : Prop := (Scalar.cmpi .ne (Scalar.extui (Scalar.cmpi .eq (BitVec.ofNat 32 (i 1).val) 0#32)) 0#32) = 1#1
/-- It holds at the first point of each row of the inner axis — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called on -/

/-- One staging buffer of output window 2, through which its contents are stated. -/
abbrev VO0_2 : View sig .tc .vmem S1x5x256 .f32 := (Memref.whole cc0_stg2_0 : Memref sig .tc .vmem S1x5x256 .f32).view
/-- Each window's current staging memref at point `t`, spelled as the pipeline passes it, and its wholeness. -/
abbrev ms0_0 (t : Fin cfg0.N) : Memref sig .tc .vmem S2x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x256 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI.Body0RunA.lean ====
/- Region 0 (the statistics kernel): the whole-body run in case A, the points whose coordinate 1 is zero,
   where the body resets the output block to zero before adding the point's five per-channel sums. -/
import proofs.«121567_j27676769255584_2_alg».proof.Proof.KI.Body0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 1000000 in
/-- What the body's stores leave in the output's staging memref, as pieces (last first), in case A, with the proof
    that on whole staging memrefs — the inputs' at their contents, the output's at anything — the body runs to the
    continuation holding the inputs' as they were and the output's buffer with its pieces written. The load of the
    output buffer ahead of the zero store reads whatever is there; its value is not used. -/
noncomputable def kernelRun0_A (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) :
    { L2 : List (View.Piece (Elt F) S1x5x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Body0RunB.lean ====
/- Region 0 (the statistics kernel): the whole-body run in case B, the points whose coordinate 1 is not
   zero, where the body adds the point's five per-channel sums to what the output block holds. -/
import proofs.«121567_j27676769255584_2_alg».proof.Proof.KI.Body0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large)
set_option maxHeartbeats 1000000 in
/-- What the body's stores leave in the output's staging memref, as pieces (last first), in case B, with the proof
    that on whole staging memrefs — the inputs' at their contents, the output's at its running contents `xo2` — the
    body runs to the continuation holding the inputs' as they were and the output's buffer with its pieces written. -/
noncomputable def kernelRun0_B (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) :
    { L2 : List (View.Piece (Elt F) S1x5x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__stats_kernel i arg2 harg2 arg3 harg3 arg4 harg4) K } := by
  refine ⟨?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Body0.lean ====
/- Region 0 (the statistics kernel), at the buffer contents `V` the region is entered with: what its output
   block holds per case and point by point, the pipeline's proof data, and the body obligation; then the two
   value equations of the accumulation (the reset point and the later points of each row of the inner axis). -/
import proofs.«121567_j27676769255584_2_alg».proof.Proof.KI.Body0RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in the output's staging buffer -/

/-- Case A's pieces for output 2 tile its block (2 whole-block stores), so they cover it. -/
theorem cover0_A_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) (y : S1x5x256.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x5x256.size (by sl_kernel_rfl) y

/-- What case A leaves in output 2's staging buffer: its pieces read back over junk. -/
def out0_A_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) : Vec F S1x5x256 .f32 :=
  VO0_2.read (Elt F) (VO0_2.writes (Elt F) VO0_2.junk (kernelRun0_A c i arg2 harg2 arg3 harg3 arg4 harg4 hc0 x0 x1).1)

/-- Case B's pieces for output 2 tile its block (1 whole-block store), so they cover it. -/
theorem cover0_B_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) (y : S1x5x256.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x5x256.size (by sl_kernel_rfl) y

/-- What case B leaves in output 2's staging buffer: its pieces read back over junk. -/
def out0_B_2 (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) : Vec F S1x5x256 .f32 :=
  VO0_2.read (Elt F) (VO0_2.writes (Elt F) VO0_2.junk (kernelRun0_B c i arg2 harg2 arg3 harg3 arg4 harg4 hc0 x0 x1 xo2).1)

/-! ## What each case leaves, as a value -/

theorem hz3 : (![0, 0, 0] : Fin 3 → Nat) = fun _ => 0 := funext fun a => by fin_cases a <;> rfl

/-- Case B's value: over the output block `xo2` the body leaves the payload of its one covering store, read at
    the whole input blocks and the whole output block. -/
theorem out0_B_2_eq (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : ¬cond0_0 i)
    (x0 : Vec F S2x256x4096 .f32) (x1 : Vec F S2x256x4096 .f32) (xo2 : Vec F S1x5x256 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero (S := S1x5x256) hz3]
  simp only [View.readAt_eq_ld, harg2.read_unread, harg3.read_unread, harg4.read_unread,
    View.ld_unit_zero (S := S2x256x4096) hz3, View.ld_unit_zero (S := S1x5x256) hz3]

/-- Case A's value: the body stores the zero block, reads it back, and leaves the payload of its last covering
    store read at the whole input blocks and the zero block. -/
theorem out0_A_2_eq (c : Dev nD) (i : grid0.Coords) (arg2 : Memref sig .tc .vmem S2x256x4096 .f32) (harg2 : arg2.IsWhole) (arg3 : Memref sig .tc .vmem S2x256x4096 .f32) (harg3 : arg3.IsWhole) (arg4 : Memref sig .tc .vmem S1x5x256 .f32) (harg4 : arg4.IsWhole) (hc0 : cond0_0 i)
    (x0 : Vec F S2x256x4096 .f32) (x1 : Vec F S2x256x4096 .f32) :
    out0_A_2 c i arg2 harg2 arg3 harg3 arg4 harg4 hc0 x0 x1 = k0_pay2 x0 x1 k0_pay1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x5x256) hz3, View.readCov_unit_zero (S := S1x5x256) _ hz3]
  simp only [View.readAt_eq_ld, harg2.read_unread, harg3.read_unread,
    View.ld_unit_zero (S := S2x256x4096) hz3]

section Region0
-- the TensorCore's buffer contents when the region is entered
variable (V : (c : Dev nD) → (b : Ref sig .tc) → Buf (Elt F) ((c : Thread nD τ).loc b))

/-! ## What the output holds after each point -/

/-- THE ACCUMULATION. What output window 2's staging buffer holds after the body at position `n`: the case the
    closed form selects at `n`, run at the point's memrefs and input blocks; in case B over what this leaves at
    `n - 1` (the buffer is not written back between). -/
def outsAt0 (c : Dev nD) : (n : ℕ) → n < cfg0.N → Vec F S1x5x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- `outsAt0` at a point of case A: that case's contents. -/
theorem outsAt0_A (c : Dev nD) (t : Fin cfg0.N) (h0 : t.val % 8 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the output's at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 2's current staging buffer holds what the body left at the point before: the point
    is not the first, the buffer was not written back between (it is written back after the last point of a row of
    the inner axis only), the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: the inputs' memrefs hold their blocks; the closed form says which case the point is in;
    in case B the output's buffer holds what the point before left; so the run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The accumulation's two value equations -/

/-- At a point whose coordinate 1 is zero the output block is reset: it ends holding the point's five sums added to
    the zero block. -/
theorem outsAt0_first (c : Dev nD) (t : Fin cfg0.N) (h : t.val % 8 = 0) :
    outsAt0 V c t.val t.isLt = Gen.k0_pay2 (iblk0 V c 0 t) (iblk0 V c 1 t) Gen.k0_pay1 :=
  (outsAt0_A V c t h).trans (out0_A_2_eq c (grid0.coords t) (ms0_0 t) (hs0_0 t) (ms0_1 t) (hs0_1 t) (ms0_2 t) (hs0_2 t) ((hcond0_0 t).mpr h) (iblk0 V c 0 t) (iblk0 V c 1 t))

/-- At any other point it ends holding the point's five sums added to what the point before left. -/
theorem outsAt0_next (c : Dev nD) (t : Fin cfg0.N) (h : ¬ t.val % 8 = 0) :
    outsAt0 V c t.val t.isLt = Gen.k0_pay2 (iblk0 V c 0 t) (iblk0 V c 1 t) (outsAt0 V c (t.val - 1) (Nat.lt_of_le_of_lt (Nat.sub_le _ _) t.isLt)) :=
  (outsAt0_B V c t h).trans (out0_B_2_eq c (grid0.coords t) (ms0_0 t) (hs0_0 t) (ms0_1 t) (hs0_1 t) (ms0_2 t) (hs0_2 t) (fun h' => h ((hcond0_0 t).mp h')) (iblk0 V c 0 t) (iblk0 V c 1 t) (outsAt0 V c (t.val - 1) (Nat.lt_of_le_of_lt (Nat.sub_le _ _) t.isLt)))

end Region0

end Cert.KernelIdeal.Hand

end
-- ==== Proof.KI.Body1.lean ====
/- REGION 1 of @main (pallas_call 1, the transform kernel on its grid of 32 points), at a PARAMETER V — the
   TensorCore's buffer contents when the region is entered: each window's block at a point, what the body leaves
   in the output window's staging buffer as the canon of its two stores over the input blocks, the body's triple,
   the pipeline's proof data, and the body obligation at every point. -/
import proofs.«121567_j27676769255584_2_alg».proof.Proof.Gen.KernelIdeal.Launch
import proofs.«121567_j27676769255584_2_alg».proof.Proof.Gen.KernelIdeal.Skeleton
import proofs.«121567_j27676769255584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have axes of extent 4096: membership of an index in a rectangle unfolds once per
-- coordinate of such an axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2, the coefficient table fetched at the first point only: at every later point its
    block index is the one it had, so its buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A whole activation block. -/
abbrev rX : Rect S1x256x4096 := Rect.unit (s := S1x256x4096) ![0, 0, 0] S1x256x4096.size inb_S1x256x4096_S1x256x4096_0_0_0
/-- The eight columns of the coefficient table. -/
abbrev rC0 : Rect S256x8 := Rect.unit (s := S256x8) ![0, 0] S256x1.size inb_S256x8_S256x1_0_0
abbrev rC1 : Rect S256x8 := Rect.unit (s := S256x8) ![0, 1] S256x1.size inb_S256x8_S256x1_0_1
abbrev rC2 : Rect S256x8 := Rect.unit (s := S256x8) ![0, 2] S256x1.size inb_S256x8_S256x1_0_2
abbrev rC3 : Rect S256x8 := Rect.unit (s := S256x8) ![0, 3] S256x1.size inb_S256x8_S256x1_0_3
abbrev rC4 : Rect S256x8 := Rect.unit (s := S256x8) ![0, 4] S256x1.size inb_S256x8_S256x1_0_4
abbrev rC5 : Rect S256x8 := Rect.unit (s := S256x8) ![0, 5] S256x1.size inb_S256x8_S256x1_0_5
abbrev rC6 : Rect S256x8 := Rect.unit (s := S256x8) ![0, 6] S256x1.size inb_S256x8_S256x1_0_6
abbrev rC7 : Rect S256x8 := Rect.unit (s := S256x8) ![0, 7] S256x1.size inb_S256x8_S256x1_0_7
/-- The two halves of the output block along its leading axis. -/
abbrev rO0 : Rect S2x1x256x4096 := Rect.unit (s := S2x1x256x4096) ![0, 0, 0, 0] S1x1x256x4096.size inb_S2x1x256x4096_S1x1x256x4096_0_0_0_0
abbrev rO1 : Rect S2x1x256x4096 := Rect.unit (s := S2x1x256x4096) ![1, 0, 0, 0] S1x1x256x4096.size inb_S2x1x256x4096_S1x1x256x4096_1_0_0_0

/-! ## What the body leaves in the output window's buffer -/

/-- Window 3's staging buffer after the body, from the input windows' blocks: its 2 stores as pieces, last
    first, over the skeleton's payloads. -/
def out1_3 (x0 x1 : Vec F S1x256x4096 .f32) (x2 : Vec F S256x8 .f32) : Vec F S2x1x256x4096 .f32 :=
  View.canon [
    ⟨rO1, k1_pay2 (k1_pay3 (View.ld x2 rC4)) (k1_pay4 (View.ld x2 rC5)) (k1_pay5 (View.ld x2 rC7))
      (k1_pay6 (View.ld x0 rX) (View.ld x2 rC0)) (k1_pay7 (View.ld x1 rX) (View.ld x2 rC1))⟩,
    ⟨rO0, k1_pay1 (k1_pay8 (View.ld x0 rX) (View.ld x1 rX) (View.ld x2 rC0) (View.ld x2 rC1) (View.ld x2 rC2)
      (View.ld x2 rC3) (View.ld x2 rC6))⟩]

/-- Its stores tile the buffer (checked by evaluation), so they cover it. -/
theorem cover1_3 (p1 p0 : Vec F S1x1x256x4096 .f32) (y : S2x1x256x4096.Idx) :
    ∃ pc ∈ ([⟨rO1, p1⟩, ⟨rO0, p0⟩] : List (View.Piece (Elt F) S2x1x256x4096 .f32)), y ∈ pc.1.set :=
  View.cover_of_tiled [⟨rO1, p1⟩, ⟨rO0, p0⟩] S1x1x256x4096.size (by rfl) y

/-! ## The body's triple -/

set_option maxHeartbeats 1000000 in
/-- The kernel body on whole staging memrefs, the inputs' at read contents x0, x1, x2 and the output's at anything,
    runs to the continuation holding the inputs' as they were and the output's at out1_3 of the inputs': the printed
    functions are their skeletons, which the symbolic run executes through the part call. The two loads of the
    output buffer that precede its stores read values the body never uses. -/
theorem sound_kernel1 (c : Dev nD) (E : Set ℕ) (i : grid1.Coords)
    (arg1 : Memref sig .tc .vmem S1x256x4096 .f32) (harg1 : arg1.IsWhole)
    (arg2 : Memref sig .tc .vmem S1x256x4096 .f32) (harg2 : arg2.IsWhole)
    (arg3 : Memref sig .tc .vmem S256x8 .f32) (harg3 : arg3.IsWhole)
    (arg4 : Memref sig .tc .vmem S2x1x256x4096 .f32) (harg4 : arg4.IsWhole)
    (x0 x1 : Vec F S1x256x4096 .f32) (x2 : Vec F S256x8 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E
          (cc1__transform_kernel i arg1 harg1 arg2 harg2 arg3 harg3 arg4 harg4) K := by
  simp only [cc1__transform_kernel_eq_skeleton]; unfold cc1__transform_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-! ## The pipeline's proof data -/

/-- The proof data of pipeline 1 on core c: the arrays as the region finds them (V); after the body at point t each
    input's buffer at its block and the output's at out1_3 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, so sound_kernel1 applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The run of the whole program: its @main as six segments — two host reshapes, the statistics kernel, the coefficient
  arithmetic in the two stretches the printed program is cut into, the transform kernel, the closing reshape — over the
  thread state "every unscoped buffer at the boundary's contents, the generator register at some state, nothing owed".
  The contents at the boundaries are a fold from the launch memory: a host stretch applies its operations, a kernel leaves
  its arrays at what its pipeline's write-backs give and every other buffer as it found it.  No host operation and no kernel
  writes an argument array, so the fold read at an argument walks back to the launch memory: the frame.
-/
import proofs.«121567_j27676769255584_2_alg».proof.Proof.KI.Body0
import proofs.«121567_j27676769255584_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two host reshapes, the statistics kernel, the coefficient arithmetic (cut where the printed
    program is cut), the transform kernel, the closing reshape.

## The buffer contents at each boundary, folded from the launch memory -/

/-- Core `c`'s buffers at launch. -/
abbrev W0 : Dev nD → Valuation τ sig (Elt F) := fun c b => (s₀ m ρ).mem ((c : Dev nD), b)
/-- After the two reshapes: the statistics kernel's entry. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the statistics kernel's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first stretch of the coefficient arithmetic, -/
abbrev W3 : Dev nD → Valuation τ sig (Elt F) := fun c => StableHlo.after main_part0_ops1 (W2 m ρ c)
/-- and after the second: the transform kernel's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- At the transform kernel's exit. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
/-- After the closing reshape: the contents @main returns with. -/
abbrev W6 : Dev nD → Valuation τ sig (Elt F) := fun c => StableHlo.after main_part1_ops1 (W5 m ρ c)

/-! ### No host operation and no kernel writes an argument array -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [main_part1_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The kernels as segments -/

set_option backward.isDefEq.respectTransparency.types false in
/-- Pallas call 0 as a segment: its arrays are split out of the unscoped buffers at entry and put back, at what the
    pipeline's write-backs leave, at exit; the generator register passes through the class invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: its arrays are split out of the unscoped buffers at entry and put back, at what the
    pipeline's write-backs leave, at exit; the generator register passes through the class invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub ops0_fresh (W0 m ρ)),
    .region (reg0 m ρ),
    .host (hseg main_part0_ops1 main_part0_ops1_sub ops1_fresh (W2 m ρ)),
    .host (hseg main_part1_ops0 main_part1_ops0_sub ops2_fresh (W3 m ρ)),
    .region (reg1 m ρ),
    .host (hseg main_part1_ops1 main_part1_ops1_sub ops3_fresh (W5 m ρ)) ]
/-- @main is the run of the segments. -/
theorem main_run (c : Dev nD) : main (F := F) c = Pipeline.Seg.run (segs m ρ) := (main_chain_windows c).trans (by chain_rfl)

set_option backward.isDefEq.respectTransparency.types false in
/-- Every weakly fair execution of @main terminates, nothing faulting, and every final state holds every unscoped
    buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: every execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_main m ρ)

end Cert.KernelIdeal.Hand

end
-- ==== Proof.KI.Pay.lean ====
/-
  The kernels' payloads read at an index, at the ideal instance: each payload is a chain of layout operations (shape
  casts that add or drop a unit axis, a broadcast of a column over the lanes, a concatenation of rows) around pointwise
  arithmetic and, for the statistics kernel, five sums over the batch and lane axes.  Read at an index with explicit
  coordinates, each is the arithmetic expression of the operands at the matching indices.
-/
import proofs.«121567_j27676769255584_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Idealize.ShloMosaic Idealize.ShloMosaic.ValueIdx Cert.KernelIdeal Cert.KernelIdeal.Gen

/-- The five per-channel statistics of a complex element with parts `x`, `y`: the parts, their squares, their product. -/
def stat (k : Fin 5) (x y : EReal) : EReal :=
  match k with
  | ⟨0, _⟩ => x
  | ⟨1, _⟩ => y
  | ⟨2, _⟩ => x * x
  | ⟨3, _⟩ => y * y
  | ⟨_+4, _⟩ => x * y

/-! ## The sum over the batch and lane axes -/

/-- An index of the block drops to channel `c` exactly when its channel coordinate is `c`. -/
theorem drop02_eq_iff (h : S2x256x4096.Reduces [0, 2] S256) (i : S2x256x4096.Idx) (c : Fin 256) :
    h.drop i = ix1 c ↔ (i 1).val = c.val := by
  constructor
  · intro e
    exact (h.drop_apply_val_of_eq i 0 1).symm.trans (congrArg (fun j : S256.Idx => (j 0).val) e)
  · intro e
    funext b
    match b with
    | ⟨0, _⟩ => exact Fin.ext ((h.drop_apply_val_of_eq i 0 1).trans e)

/-- The sum over the indices that drop to channel `c` is the double sum over the batch and the lanes. -/
theorem reduceAdd02_apply (h : S2x256x4096.Reduces [0, 2] S256) (v : S2x256x4096.Idx → EReal) (c : Fin 256) :
    Ideal.reduceAdd h v (ix1 c) = ∑ bb : Fin 2, ∑ hw : Fin 4096, v (ix3 bb c hw) := by
  unfold Ideal.reduceAdd
  refine Eq.trans ?_ (Fintype.sum_prod_type' (fun (bb : Fin 2) (hw : Fin 4096) => v (ix3 bb c hw)))
  refine Finset.sum_nbij' (fun i => ((i 0 : Fin 2), (i 2 : Fin 4096))) (fun p => ix3 p.1 c p.2) ?_ ?_ ?_ ?_ ?_
  · intro i _; exact Finset.mem_univ _
  · intro p _; exact Finset.mem_filter.2 ⟨Finset.mem_univ _, (drop02_eq_iff h _ c).2 rfl⟩
  · intro i hi
    have hc := (drop02_eq_iff h i c).1 (Finset.mem_filter.1 hi).2
    funext a
    match a with
    | ⟨0, _⟩ => rfl
    | ⟨1, _⟩ => exact Fin.ext hc.symm
    | ⟨2, _⟩ => rfl
  · intro p _; rfl
  · intro i hi
    have hc := (drop02_eq_iff h i c).1 (Finset.mem_filter.1 hi).2
    refine congrArg v ?_
    funext a
    match a with
    | ⟨0, _⟩ => rfl
    | ⟨1, _⟩ => exact Fin.ext hc
    | ⟨2, _⟩ => rfl

/-- The two-axis lane reduction of the statistics kernel, read at a channel. -/
theorem multiReduction02_apply (v : FVec Ideal S2x256x4096 .f32) (c : Fin 256) :
    multiReduction .add [0, 2] S256 v 0x00000000#32 reduces_S2x256x4096_S256 (.inl rfl) rfl (ix1 c)
      = ∑ bb : Fin 2, ∑ hw : Fin 4096, v (ix3 bb c hw) :=
  reduceAdd02_apply reduces_S2x256x4096_S256 v c

/-! ## Five rows laid one under another -/

/-- A concatenation of five one-row pieces along the rows, read at row `k`, is the `k`-th piece at its one row. -/
theorem concat5_apply {α : Type} (r0 r1 r2 r3 r4 : S1x256.Idx → α)
    (h : Shape.Concatenates [S1x256, S1x256, S1x256, S1x256, S1x256] S5x256 0) (k : Fin 5) (c : Fin 256) :
    concatenate S5x256 0 [⟨S1x256, r0⟩, ⟨S1x256, r1⟩, ⟨S1x256, r2⟩, ⟨S1x256, r3⟩, ⟨S1x256, r4⟩] h (ix2 k c)
      = (match k with | ⟨0, _⟩ => r0 | ⟨1, _⟩ => r1 | ⟨2, _⟩ => r2 | ⟨3, _⟩ => r3 | ⟨_+4, _⟩ => r4) (ix2 (0 : Fin 1) c) := by
  have hi : ∀ (j0 : Fin 5) (b : Fin S1x256.rank), b.cast (rfl : S1x256.rank = S5x256.rank) ≠ (0 : Fin S5x256.rank) →
      ((ix2 (0 : Fin 1) c : S1x256.Idx) b).val = ((ix2 j0 c : S5x256.Idx) (b.cast rfl)).val := by
    intro j0 b hb
    match b with
    | ⟨0, _⟩ => exact absurd rfl hb
    | ⟨1, _⟩ => rfl
  match k with
  | ⟨0, _⟩ =>
    exact concatenate_apply_piece (0 : Fin S5x256.rank) [⟨S1x256, r0⟩, ⟨S1x256, r1⟩, ⟨S1x256, r2⟩, ⟨S1x256, r3⟩, ⟨S1x256, r4⟩] h _ 0 (by simp) S1x256 r0 rfl rfl 0 rfl
      (ix2 (0 : Fin 1) c) (hi _) rfl
  | ⟨1, _⟩ =>
    exact concatenate_apply_piece (0 : Fin S5x256.rank) [⟨S1x256, r0⟩, ⟨S1x256, r1⟩, ⟨S1x256, r2⟩, ⟨S1x256, r3⟩, ⟨S1x256, r4⟩] h _ 1 (by simp) S1x256 r1 rfl rfl 1 rfl
      (ix2 (0 : Fin 1) c) (hi _) rfl
  | ⟨2, _⟩ =>
    exact concatenate_apply_piece (0 : Fin S5x256.rank) [⟨S1x256, r0⟩, ⟨S1x256, r1⟩, ⟨S1x256, r2⟩, ⟨S1x256, r3⟩, ⟨S1x256, r4⟩] h _ 2 (by simp) S1x256 r2 rfl rfl 2 rfl
      (ix2 (0 : Fin 1) c) (hi _) rfl
  | ⟨3, _⟩ =>
    exact concatenate_apply_piece (0 : Fin S5x256.rank) [⟨S1x256, r0⟩, ⟨S1x256, r1⟩, ⟨S1x256, r2⟩, ⟨S1x256, r3⟩, ⟨S1x256, r4⟩] h _ 3 (by simp) S1x256 r3 rfl rfl 3 rfl
      (ix2 (0 : Fin 1) c) (hi _) rfl
  | ⟨4, _⟩ =>
    exact concatenate_apply_piece (0 : Fin S5x256.rank) [⟨S1x256, r0⟩, ⟨S1x256, r1⟩, ⟨S1x256, r2⟩, ⟨S1x256, r3⟩, ⟨S1x256, r4⟩] h _ 4 (by simp) S1x256 r4 rfl rfl 4 rfl
      (ix2 (0 : Fin 1) c) (hi _) rfl
  | ⟨n + 5, hn⟩ => exact absurd hn (by omega)

/-! ## The statistics kernel's payloads -/

/-- The first visit's payload is the zero block. -/
theorem pay0_1_apply (k : Fin 5) (c : Fin 256) : k0_pay1 (F := Ideal) (ix3 (0 : Fin 1) k c) = 0 := by
  unfold k0_pay1
  refine (shapeCast_ab_1ab_apply _ _ (0 : Fin 1) k c).trans ?_
  show Ideal.ofBits .f32 0x00000000#32 = 0
  exact Ideal.ofBits_zero_f32

/-- Every visit's payload adds, to the accumulator's row `k` at channel `c`, the sum over the batch and the lanes of the
    `k`-th statistic. -/
theorem pay0_2_apply (x0 x1 : Vec Ideal S2x256x4096 .f32) (acc : Vec Ideal S1x5x256 .f32) (k : Fin 5) (c : Fin 256) :
    k0_pay2 (F := Ideal) x0 x1 acc (ix3 (0 : Fin 1) k c)
      = acc (ix3 (0 : Fin 1) k c) + ∑ bb : Fin 2, ∑ hw : Fin 4096, stat k (x0 (ix3 bb c hw)) (x1 (ix3 bb c hw)) := by
  unfold k0_pay2
  rw [shapeCast_self x0 shapeCasts_S2x256x4096_S2x256x4096, shapeCast_self x1 shapeCasts_S2x256x4096_S2x256x4096]
  refine (shapeCast_ab_1ab_apply _ _ (0 : Fin 1) k c).trans ?_
  refine (addf_apply _ _ _).trans ?_
  refine congrArg₂ (· + ·) (shapeCast_1ab_ab_apply _ _ k c) ?_
  refine (concat5_apply _ _ _ _ _ _ k c).trans ?_
  match k with
  | ⟨0, _⟩ => exact (shapeCast_a_1a_apply _ _ (0 : Fin 1) c).trans (multiReduction02_apply _ c)
  | ⟨1, _⟩ => exact (shapeCast_a_1a_apply _ _ (0 : Fin 1) c).trans (multiReduction02_apply _ c)
  | ⟨2, _⟩ => exact (shapeCast_a_1a_apply _ _ (0 : Fin 1) c).trans (multiReduction02_apply _ c)
  | ⟨3, _⟩ => exact (shapeCast_a_1a_apply _ _ (0 : Fin 1) c).trans (multiReduction02_apply _ c)
  | ⟨4, _⟩ => exact (shapeCast_a_1a_apply _ _ (0 : Fin 1) c).trans (multiReduction02_apply _ c)
  | ⟨n + 5, hn⟩ => exact absurd hn (by omega)

/-! ## Two layout operations of the transform kernel -/

/-- An `[a, b]` array cast to `[1, 1, a, b]` reads, at `(u, u', i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- An `[a, 1]` column broadcast over `b` lanes reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The transform kernel's payloads -/

/-- The first output block is the first transformed part, with two unit axes in front. -/
theorem pay1_1_apply (v30 : FVec Ideal S256x4096 .f32) (c : Fin 256) (hw : Fin 4096) :
    k1_pay1 (F := Ideal) v30 (ix4 (0 : Fin 1) (0 : Fin 1) c hw) = v30 (ix2 c hw) := by
  unfold k1_pay1
  exact shapeCast_ab_11ab_apply _ _ (0 : Fin 1) (0 : Fin 1) c hw

/-- A shape cast of a column to its own shape is the column. -/
theorem pay1_3_eq (v : Vec Ideal S256x1 .f32) : k1_pay3 (F := Ideal) v = v := by
  unfold k1_pay3
  exact shapeCast_self v _

theorem pay1_4_eq (v : Vec Ideal S256x1 .f32) : k1_pay4 (F := Ideal) v = v := by
  unfold k1_pay4
  exact shapeCast_self v _

theorem pay1_5_eq (v : Vec Ideal S256x1 .f32) : k1_pay5 (F := Ideal) v = v := by
  unfold k1_pay5
  exact shapeCast_self v _

/-- The centred first part: the block's element less the channel's mean. -/
theorem pay1_6_apply (v0 : Vec Ideal S1x256x4096 .f32) (v4 : Vec Ideal S256x1 .f32) (c : Fin 256) (hw : Fin 4096) :
    k1_pay6 (F := Ideal) v0 v4 (ix2 c hw) = v0 (ix3 (0 : Fin 1) c hw) - v4 (ix2 c (0 : Fin 1)) := by
  unfold k1_pay6
  rw [shapeCast_self v4 shapeCasts_S256x1_S256x1]
  refine (subf_apply _ _ _).trans ?_
  exact congrArg₂ (· - ·) (shapeCast_1ab_ab_apply _ _ c hw) (broadcastTo_a1_ab_apply _ _ c hw)

/-- The centred second part likewise. -/
theorem pay1_7_apply (v2 : Vec Ideal S1x256x4096 .f32) (v6 : Vec Ideal S256x1 .f32) (c : Fin 256) (hw : Fin 4096) :
    k1_pay7 (F := Ideal) v2 v6 (ix2 c hw) = v2 (ix3 (0 : Fin 1) c hw) - v6 (ix2 c (0 : Fin 1)) := by
  unfold k1_pay7
  rw [shapeCast_self v6 shapeCasts_S256x1_S256x1]
  refine (subf_apply _ _ _).trans ?_
  exact congrArg₂ (· - ·) (shapeCast_1ab_ab_apply _ _ c hw) (broadcastTo_a1_ab_apply _ _ c hw)

/-- The first transformed part: the two centred parts mixed by the channel's first row of coefficients, plus its bias. -/
theorem pay1_8_apply (v0 v2 : Vec Ideal S1x256x4096 .f32) (v4 v6 v8 v10 v16 : Vec Ideal S256x1 .f32) (c : Fin 256)
    (hw : Fin 4096) :
    k1_pay8 (F := Ideal) v0 v2 v4 v6 v8 v10 v16 (ix2 c hw)
      = (v8 (ix2 c (0 : Fin 1)) * (v0 (ix3 (0 : Fin 1) c hw) - v4 (ix2 c (0 : Fin 1)))
          + v10 (ix2 c (0 : Fin 1)) * (v2 (ix3 (0 : Fin 1) c hw) - v6 (ix2 c (0 : Fin 1))))
        + v16 (ix2 c (0 : Fin 1)) := by
  unfold k1_pay8
  rw [shapeCast_self v8 shapeCasts_S256x1_S256x1, shapeCast_self v10 shapeCasts_S256x1_S256x1,
    shapeCast_self v16 shapeCasts_S256x1_S256x1]
  refine (addf_apply _ _ _).trans ?_
  refine congrArg₂ (· + ·) ?_ (broadcastTo_a1_ab_apply _ _ c hw)
  refine (addf_apply _ _ _).trans ?_
  refine congrArg₂ (· + ·) ?_ ?_
  · refine (mulf_apply _ _ _).trans ?_
    exact congrArg₂ (· * ·) (broadcastTo_a1_ab_apply _ _ c hw) (pay1_6_apply v0 v4 c hw)
  · refine (mulf_apply _ _ _).trans ?_
    exact congrArg₂ (· * ·) (broadcastTo_a1_ab_apply _ _ c hw) (pay1_7_apply v2 v6 c hw)

/-- The second output block: the centred parts mixed by the channel's second row of coefficients, plus its bias. -/
theorem pay1_2_apply (v13 v15 v19 : FVec Ideal S256x1 .f32) (v21 v23 : FVec Ideal S256x4096 .f32) (c : Fin 256)
    (hw : Fin 4096) :
    k1_pay2 (F := Ideal) v13 v15 v19 v21 v23 (ix4 (0 : Fin 1) (0 : Fin 1) c hw)
      = (v13 (ix2 c (0 : Fin 1)) * v21 (ix2 c hw) + v15 (ix2 c (0 : Fin 1)) * v23 (ix2 c hw))
        + v19 (ix2 c (0 : Fin 1)) := by
  unfold k1_pay2
  refine (shapeCast_ab_11ab_apply _ _ (0 : Fin 1) (0 : Fin 1) c hw).trans ?_
  refine (addf_apply _ _ _).trans ?_
  refine congrArg₂ (· + ·) ?_ (broadcastTo_a1_ab_apply _ _ c hw)
  refine (addf_apply _ _ _).trans ?_
  refine congrArg₂ (· + ·) ?_ ?_
  · refine (mulf_apply _ _ _).trans ?_
    exact congrArg (· * v21 (ix2 c hw)) (broadcastTo_a1_ab_apply _ _ c hw)
  · refine (mulf_apply _ _ _).trans ?_
    exact congrArg (· * v23 (ix2 c hw)) (broadcastTo_a1_ab_apply _ _ c hw)

end Cert.KernelIdeal.PayVal

end
-- ==== Proof.KI.Val0.lean ====
/- Region 0 (the statistics kernel) at the ideal instance: what its [2,5,256] result array holds after the region,
   at the buffer contents `V` the region is entered with. The input blocks read at an index, the running value
   of the accumulation by induction on the grid point (the first point of each row of the inner axis resets to zero,
   each later point adds its block's double sum to what the point before left), what the writing-back points write
   back, the cover, and the result array index by index. -/
import proofs.«121567_j27676769255584_2_alg».proof.Proof.KI.Body0
import proofs.«121567_j27676769255584_2_alg».proof.Proof.KI.Pay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Val0
-- the TensorCore's buffer contents when the region is entered
variable (V : (c : Dev nD) → (b : Ref sig .tc) → Buf (Elt Ideal) ((c : Thread nD τ).loc b))

/-! ## Rows of the input arrays -/

/-- The row of the input arrays that output row `p` reads at inner grid step `b`, inside-block row `bb`. -/
def row (p : Fin 2) (b : Fin 8) (bb : Fin 2) : Fin 32 :=
  ⟨2 * (8 * p.val + b.val) + bb.val, by have := p.isLt; have := b.isLt; have := bb.isLt; omega⟩

/-- The row of the input arrays that grid point `j` reads at inside-block row `bb`. -/
def rowN (j : ℕ) (bb : Fin 2) : Fin 32 := ⟨(2 * j + bb.val) % 32, Nat.mod_lt _ (by decide)⟩

/-! ## The printed index maps, decided over the grid -/

theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-! ## The input blocks, read at an index -/

/-- Point `t`'s block of input window 0 at (bb, ch, hw) is the array at row `2 t + bb`. -/
theorem iblk0_0_apply (c : Dev nD) (t : Fin cfg0.N) (bb : Fin 2) (ch : Fin 256) (hw : Fin 4096) (r : Fin 32)
    (hr : r.val = 2 * t.val + bb.val) :
    (iblk0 V c 0 t : Vec Ideal S2x256x4096 .f32) (ix3 bb ch hw) = V c main_v0 (ix3 r ch hw) := by
  obtain ⟨e0, e1, e2, -⟩ := idx_facts0 t
  unfold iblk0
  show V c main_v0 (((cfg0.win 0).blk t).view.emb (ix3 bb ch hw)) = V c main_v0 (ix3 r ch hw)
  refine congrArg (V c main_v0) ?_
  funext a; apply Fin.ext
  match a with
  | ⟨0, _⟩ => show win0_0.index t (0 : Fin 3) * 2 + 1 * bb.val = r.val; omega
  | ⟨1, _⟩ => show win0_0.index t (1 : Fin 3) * 256 + 1 * ch.val = ch.val; omega
  | ⟨2, _⟩ => show win0_0.index t (2 : Fin 3) * 4096 + 1 * hw.val = hw.val; omega

/-- Point `t`'s block of input window 1 at (bb, ch, hw) is the array at row `2 t + bb`. -/
theorem iblk0_1_apply (c : Dev nD) (t : Fin cfg0.N) (bb : Fin 2) (ch : Fin 256) (hw : Fin 4096) (r : Fin 32)
    (hr : r.val = 2 * t.val + bb.val) :
    (iblk0 V c 1 t : Vec Ideal S2x256x4096 .f32) (ix3 bb ch hw) = V c main_v1 (ix3 r ch hw) := by
  obtain ⟨-, -, -, e0, e1, e2, -⟩ := idx_facts0 t
  unfold iblk0
  show V c main_v1 (((cfg0.win 1).blk t).view.emb (ix3 bb ch hw)) = V c main_v1 (ix3 r ch hw)
  refine congrArg (V c main_v1) ?_
  funext a; apply Fin.ext
  match a with
  | ⟨0, _⟩ => show win0_1.index t (0 : Fin 3) * 2 + 1 * bb.val = r.val; omega
  | ⟨1, _⟩ => show win0_1.index t (1 : Fin 3) * 256 + 1 * ch.val = ch.val; omega
  | ⟨2, _⟩ => show win0_1.index t (2 : Fin 3) * 4096 + 1 * hw.val = hw.val; omega

/-! ## The running value of the accumulation -/

/-- What grid point `j` adds to statistic `k` of channel `ch`: the double sum over its block's two rows and the
    4096 positions. -/
def blockSum (c : Dev nD) (k : Fin 5) (ch : Fin 256) (j : ℕ) : EReal :=
  ∑ bb : Fin 2, ∑ hw : Fin 4096,
    PayVal.stat k (V c main_v0 (ix3 (rowN j bb) ch hw)) (V c main_v1 (ix3 (rowN j bb) ch hw))

/-- The double sum over the blocks the body loads at point `t` is that. -/
theorem blockSum_eq (c : Dev nD) (t : Fin cfg0.N) (k : Fin 5) (ch : Fin 256) :
    (∑ bb : Fin 2, ∑ hw : Fin 4096,
      PayVal.stat k ((iblk0 V c 0 t : Vec Ideal S2x256x4096 .f32) (ix3 bb ch hw)) ((iblk0 V c 1 t : Vec Ideal S2x256x4096 .f32) (ix3 bb ch hw)))
      = blockSum V c k ch t.val := by
  have hN : t.val < 16 := lt_of_lt_of_eq t.isLt (show cfg0.N = 16 from N_0)
  unfold blockSum
  refine Finset.sum_congr rfl fun bb _ => Finset.sum_congr rfl fun hw _ => ?_
  have hr : (rowN t.val bb).val = 2 * t.val + bb.val := Nat.mod_eq_of_lt (by have := bb.isLt; omega)
  exact congrArg₂ (PayVal.stat k) (iblk0_0_apply V c t bb ch hw _ hr) (iblk0_1_apply V c t bb ch hw _ hr)

/-- THE RUNNING VALUE: after point `n` the output's staging buffer holds, at statistic `k` of channel `ch`, the sum
    of what the points of `n`'s row of the inner axis up to `n` add — by induction on the point: the first point of a
    row resets to zero, each later point adds to what the point before left. -/
theorem running (c : Dev nD) (k : Fin 5) (ch : Fin 256) : ∀ (n : ℕ) (hn : n < cfg0.N),
    outsAt0 V c n hn (ix3 (0 : Fin 1) k ch) = ∑ j ∈ Finset.range (n % 8 + 1), blockSum V c k ch (n - n % 8 + j)
  | 0, hn => by
    refine (congrFun (outsAt0_first V c ⟨0, hn⟩ rfl) (ix3 (0 : Fin 1) k ch)).trans ?_
    refine (PayVal.pay0_2_apply (iblk0 V c 0 ⟨0, hn⟩) (iblk0 V c 1 ⟨0, hn⟩) (k0_pay1 (F := Ideal)) k ch).trans ?_
    rw [PayVal.pay0_1_apply, zero_add]
    refine (blockSum_eq V c ⟨0, hn⟩ k ch).trans ?_
    show _ = ∑ j ∈ Finset.range 1, blockSum V c k ch (0 + j)
    rw [Finset.sum_range_one]
  | n + 1, hn => by
    by_cases h0 : (n + 1) % 8 = 0
    · refine (congrFun (outsAt0_first V c ⟨n + 1, hn⟩ h0) (ix3 (0 : Fin 1) k ch)).trans ?_
      refine (PayVal.pay0_2_apply (iblk0 V c 0 ⟨n + 1, hn⟩) (iblk0 V c 1 ⟨n + 1, hn⟩) (k0_pay1 (F := Ideal)) k ch).trans ?_
      rw [PayVal.pay0_1_apply, zero_add]
      refine (blockSum_eq V c ⟨n + 1, hn⟩ k ch).trans ?_
      rw [h0]
      show _ = ∑ j ∈ Finset.range 1, blockSum V c k ch (n + 1 - 0 + j)
      rw [Finset.sum_range_one]
      rfl
    · refine (congrFun (outsAt0_next V c ⟨n + 1, hn⟩ h0) (ix3 (0 : Fin 1) k ch)).trans ?_
      refine (PayVal.pay0_2_apply (iblk0 V c 0 ⟨n + 1, hn⟩) (iblk0 V c 1 ⟨n + 1, hn⟩) (outsAt0 V c n (Nat.lt_of_succ_lt hn)) k ch).trans ?_
      rw [running c k ch n (Nat.lt_of_succ_lt hn)]
      refine (congrArg (_ + ·) (blockSum_eq V c ⟨n + 1, hn⟩ k ch)).trans ?_
      have hm : (n + 1) % 8 = n % 8 + 1 := by omega
      have hs : n + 1 - (n % 8 + 1) = n - n % 8 := by omega
      have hl : n - n % 8 + (n % 8 + 1) = n + 1 := by omega
      rw [hm, hs, Finset.sum_range_succ (fun j => blockSum V c k ch (n - n % 8 + j)) (n % 8 + 1), hl]

/-- At the last point of a row of the inner axis: the sum of what the row's eight points add. -/
theorem running_last (c : Dev nD) (t : Fin cfg0.N) (h7 : t.val % 8 = 7) (k : Fin 5) (ch : Fin 256) :
    outsAt0 V c t.val t.isLt (ix3 (0 : Fin 1) k ch) = ∑ b : Fin 8, blockSum V c k ch (t.val - 7 + b.val) := by
  rw [running V c k ch t.val t.isLt, h7]
  show ∑ j ∈ Finset.range 8, blockSum V c k ch (t.val - 7 + j) = _
  rw [Finset.sum_range]

/-! ## The result array -/

/-- Statistic `k` of channel `ch` in output row `p`: the sum over the row's eight grid steps, the two rows of each
    block and the 4096 positions. -/
def statsAt (c : Dev nD) (p : Fin 2) (k : Fin 5) (ch : Fin 256) : EReal :=
  ∑ b : Fin 8, ∑ bb : Fin 2, ∑ hw : Fin 4096,
    PayVal.stat k (V c main_v0 (ix3 (row p b bb) ch hw)) (V c main_v1 (ix3 (row p b bb) ch hw))

/-- What the result array ends holding. -/
def stats0 (c : Dev nD) : S2x5x256.Idx → EReal := fun i => statsAt V c (i 0) (i 1) (i 2)

/-- At the last point `t` of output row `p`'s grid row, the staging buffer holds row `p` of the result. -/
theorem flushed_point (c : Dev nD) (t : Fin cfg0.N) (h7 : t.val % 8 = 7) (p : Fin 2) (hp : p.val = t.val / 8)
    (k : Fin 5) (ch : Fin 256) :
    outsAt0 V c t.val t.isLt (ix3 (0 : Fin 1) k ch) = statsAt V c p k ch := by
  have hN : t.val < 16 := lt_of_lt_of_eq t.isLt (show cfg0.N = 16 from N_0)
  rw [running_last V c t h7 k ch]
  unfold statsAt blockSum
  refine Finset.sum_congr rfl fun b _ => Finset.sum_congr rfl fun bb _ => Finset.sum_congr rfl fun hw _ => ?_
  have er : rowN (t.val - 7 + b.val) bb = row p b bb := Fin.ext (by
    show (2 * (t.val - 7 + b.val) + bb.val) % 32 = 2 * (8 * p.val + b.val) + bb.val
    have := b.isLt; have := bb.isLt; omega)
  rw [er]

/-- WHAT A WRITING-BACK POINT WRITES BACK is its block of `stats0`. -/
theorem flushed0_2_eq (c : Dev nD) (t : Fin cfg0.N) (hf : (cfg0.win 2).flush t = true) :
    (dat0 V c).flushed 2 t = ((cfg0.win 2).blk t).view.read (Elt Ideal) (stats0 V c) := by
  have h7 : t.val % 8 = 7 := (flush0_2 t).mp hf
  have hN : t.val < 16 := lt_of_lt_of_eq t.isLt (show cfg0.N = 16 from N_0)
  obtain ⟨-, -, -, -, -, -, e0, e1, e2⟩ := idx_facts0 t
  show (cfg0.win 2).cut (grid0.coords t) ((dat0 V c).after 2 t) = _
  rw [after0_2]
  refine funext fun (j : S1x5x256.Idx) => ?_
  show outsAt0 V c t.val t.isLt j = stats0 V c (((cfg0.win 2).blk t).view.emb j)
  have hj : j = ix3 (0 : Fin 1) (j 1) (j 2) :=
    (eq_ix3 j).trans (congrArg (fun z : Fin 1 => ix3 z (j 1) (j 2)) (Subsingleton.elim _ _))
  have he : ((cfg0.win 2).blk t).view.emb j = ix3 (⟨t.val / 8, by omega⟩ : Fin 2) (j 1) (j 2) := by
    funext a; apply Fin.ext
    match a with
    | ⟨0, _⟩ => show win0_2.index t (0 : Fin 3) * 1 + 1 * (j 0).val = t.val / 8; have : (j 0).val < 1 := (j 0).isLt; omega
    | ⟨1, _⟩ => show win0_2.index t (1 : Fin 3) * 5 + 1 * (j 1).val = (j 1).val; omega
    | ⟨2, _⟩ => show win0_2.index t (2 : Fin 3) * 256 + 1 * (j 2).val = (j 2).val; omega
  rw [he]
  refine (congrArg (outsAt0 V c t.val t.isLt) hj).trans ?_
  exact flushed_point V c t h7 ⟨t.val / 8, by omega⟩ rfl (j 1) (j 2)

/-- An index of the result array is in point `t`'s block iff each coordinate is in the block's range on its axis. -/
theorem mem_blk0_2 (t : Fin cfg0.N) (i : S2x5x256.Idx) :
    i ∈ ((cfg0.win 2).blk t).view.set ↔ ∀ a : Fin 3, win0_2.index t a * S1x5x256.size a ≤ (i a).val ∧ (i a).val < win0_2.index t a * S1x5x256.size a + S1x5x256.size a := by
  show i ∈ ((View.whole main_v2).slice (win0_2.rect t)).set ↔ _
  rw [View.set_slice_whole, Rect.mem_set_unit]
  exact Iff.rfl

/-- Every index of the result array is in the block of a writing-back point: row `p` in that of point `8 p + 7`. -/
theorem cover0_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 5 := (i 1).isLt
  have h2 : (i 2 : Nat) < 256 := (i 2).isLt
  have hN : cfg0.N = 16 := N_0
  obtain ⟨t, ht⟩ : ∃ t : Fin cfg0.N, t.val = 8 * (i 0 : Nat) + 7 := ⟨⟨8 * (i 0 : Nat) + 7, by omega⟩, rfl⟩
  obtain ⟨-, -, -, -, -, -, e0, e1, e2⟩ := idx_facts0 t
  refine ⟨t, (flush0_2 t).mpr (by omega), ?_⟩
  rw [mem_blk0_2]
  intro a
  match a with
  | ⟨0, _⟩ => show win0_2.index t (0 : Fin 3) * 1 ≤ (i 0 : Nat) ∧ (i 0 : Nat) < win0_2.index t (0 : Fin 3) * 1 + 1; omega
  | ⟨1, _⟩ => show win0_2.index t (1 : Fin 3) * 5 ≤ (i 1 : Nat) ∧ (i 1 : Nat) < win0_2.index t (1 : Fin 3) * 5 + 5; omega
  | ⟨2, _⟩ => show win0_2.index t (2 : Fin 3) * 256 ≤ (i 2 : Nat) ∧ (i 2 : Nat) < win0_2.index t (2 : Fin 3) * 256 + 256; omega

/-- THE RESULT ARRAY after the region: the five per-channel statistics, each the sum over the row's eight grid
    steps, the two rows of each block and the 4096 positions. -/
theorem final0_2 (c : Dev nD) (p : Fin 2) (k : Fin 5) (ch : Fin 256) :
    (dat0 (F := Ideal) V c).arrAt 2 cfg0.N (ix3 p k ch)
      = ∑ b : Fin 8, ∑ bb : Fin 2, ∑ hw : Fin 4096,
          PayVal.stat k (V c main_v0 (ix3 (row p b bb) ch hw)) (V c main_v1 (ix3 (row p b bb) ch hw)) :=
  congrFun ((dat0 V c).arrAt_eq_of_cover 2 (stats0 V c) (flushed0_2_eq V c) (cover0_2 c)) (ix3 p k ch)

end Val0

end Cert.KernelIdeal.Hand

end
-- ==== Proof.KI.Val1.lean ====
/- REGION 1's VALUE at the ideal instance: what the transform kernel's output array holds after the run, element by
   element — each store's payload read at an index of the output block, each input block read where the output's
   rectangle says, the point's block as the restriction of ONE whole-array function, and the cover of the array by
   the points' blocks. -/
import proofs.«121567_j27676769255584_2_alg».proof.Proof.KI.Body1
import Idealize.ShloMosaic.Lib.Pipeline.Value
import Idealize.ShloMosaic.Lib.ValueIdx
import proofs.«121567_j27676769255584_2_alg».proof.Proof.KI.Pay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.KernelIdeal.PayVal

/-! ## The loads, at an index -/

/-- A load of column k of the coefficient table reads, at row ch, the table at (ch, k). -/
theorem ld_col_apply (x2 : Vec Ideal S256x8 .f32) (k : Nat) (hk : k < 8)
    (inb : ∀ a, (![0, k] : Fin 2 → Nat) a + S256x1.size a ≤ S256x8.size a) (ch : Fin 256) :
    View.ld x2 (Rect.unit (s := S256x8) ![0, k] S256x1.size inb) (ix2 ch (0 : Fin 1)) = x2 (ix2 ch (⟨k, hk⟩ : Fin 8)) := by
  show x2 _ = x2 _
  congr 1
  funext a; apply Fin.ext
  match a with
  | ⟨0, _⟩ => show 0 + 1 * ch.val = ch.val; omega
  | ⟨1, _⟩ => show k + 1 * 0 = k; omega

/-- A load of a whole activation block reads the block. -/
theorem ld_whole_apply (x : Vec Ideal S1x256x4096 .f32) (y : S1x256x4096.Idx) : View.ld x rX y = x y := by
  show x _ = x _
  congr 1
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-! ## The two stores' canon, at an index -/

/-- At row 0 of the output block the canon of the two stores is the FIRST store's payload (the last store's
    rectangle starts at row 1). -/
theorem canon2_row0 (p1 p0 : Vec Ideal S1x1x256x4096 .f32) (ch : Fin 256) (hw : Fin 4096) :
    View.canon ([⟨rO1, p1⟩, ⟨rO0, p0⟩] : List (View.Piece (Elt Ideal) S2x1x256x4096 .f32)) (ix4 (0 : Fin 2) (0 : Fin 1) ch hw)
      = p0 (ix4 (0 : Fin 1) (0 : Fin 1) ch hw) := by
  have hnm : ix4 (0 : Fin 2) (0 : Fin 1) ch hw ∉ (rO1 : Rect S2x1x256x4096).set := by
    rw [Rect.mem_set_unit]; intro hmem
    have h0 : (1 : Nat) ≤ 0 := (hmem 0).1
    omega
  have he : ix4 (0 : Fin 2) (0 : Fin 1) ch hw = (rO0 : Rect S2x1x256x4096).emb (ix4 (0 : Fin 1) (0 : Fin 1) ch hw) := by
    funext a; apply Fin.ext
    match a with
    | ⟨0, _⟩ => show 0 = 0 + 1 * 0; omega
    | ⟨1, _⟩ => show 0 = 0 + 1 * 0; omega
    | ⟨2, _⟩ => show ch.val = 0 + 1 * ch.val; omega
    | ⟨3, _⟩ => show hw.val = 0 + 1 * hw.val; omega
  refine (View.canon_cons_of_not_mem (⟨rO1, p1⟩ : View.Piece (Elt Ideal) S2x1x256x4096 .f32) [⟨rO0, p0⟩] hnm).trans ?_
  rw [he]
  exact View.canon_cons_emb rO0 p0 [] (ix4 (0 : Fin 1) (0 : Fin 1) ch hw)

/-- At row 1 it is the LAST store's payload. -/
theorem canon2_row1 (p1 p0 : Vec Ideal S1x1x256x4096 .f32) (ch : Fin 256) (hw : Fin 4096) :
    View.canon ([⟨rO1, p1⟩, ⟨rO0, p0⟩] : List (View.Piece (Elt Ideal) S2x1x256x4096 .f32)) (ix4 (1 : Fin 2) (0 : Fin 1) ch hw)
      = p1 (ix4 (0 : Fin 1) (0 : Fin 1) ch hw) := by
  have he : ix4 (1 : Fin 2) (0 : Fin 1) ch hw = (rO1 : Rect S2x1x256x4096).emb (ix4 (0 : Fin 1) (0 : Fin 1) ch hw) := by
    funext a; apply Fin.ext
    match a with
    | ⟨0, _⟩ => show 1 = 1 + 1 * 0; omega
    | ⟨1, _⟩ => show 0 = 0 + 1 * 0; omega
    | ⟨2, _⟩ => show ch.val = 0 + 1 * ch.val; omega
    | ⟨3, _⟩ => show hw.val = 0 + 1 * hw.val; omega
  rw [he]
  exact View.canon_cons_emb rO1 p1 [⟨rO0, p0⟩] (ix4 (0 : Fin 1) (0 : Fin 1) ch hw)

/-! ## What the body leaves in the output block, at an index -/

/-- Row 0 of the output block: the first store's payload. -/
theorem out1_3_row0 (x0 x1 : Vec Ideal S1x256x4096 .f32) (x2 : Vec Ideal S256x8 .f32) (ch : Fin 256) (hw : Fin 4096) :
    out1_3 x0 x1 x2 (ix4 (0 : Fin 2) (0 : Fin 1) ch hw)
      = (x2 (ix2 ch (⟨2, by omega⟩ : Fin 8)) * (x0 (ix3 (0 : Fin 1) ch hw) - x2 (ix2 ch (⟨0, by omega⟩ : Fin 8)))
          + x2 (ix2 ch (⟨3, by omega⟩ : Fin 8)) * (x1 (ix3 (0 : Fin 1) ch hw) - x2 (ix2 ch (⟨1, by omega⟩ : Fin 8))))
        + x2 (ix2 ch (⟨6, by omega⟩ : Fin 8)) := by
  unfold out1_3
  rw [canon2_row0, pay1_1_apply, pay1_8_apply]
  rw [ld_whole_apply, ld_whole_apply, ld_col_apply x2 0 (by omega), ld_col_apply x2 1 (by omega),
    ld_col_apply x2 2 (by omega), ld_col_apply x2 3 (by omega), ld_col_apply x2 6 (by omega)]

/-- Row 1 of the output block: the second store's payload. -/
theorem out1_3_row1 (x0 x1 : Vec Ideal S1x256x4096 .f32) (x2 : Vec Ideal S256x8 .f32) (ch : Fin 256) (hw : Fin 4096) :
    out1_3 x0 x1 x2 (ix4 (1 : Fin 2) (0 : Fin 1) ch hw)
      = (x2 (ix2 ch (⟨4, by omega⟩ : Fin 8)) * (x0 (ix3 (0 : Fin 1) ch hw) - x2 (ix2 ch (⟨0, by omega⟩ : Fin 8)))
          + x2 (ix2 ch (⟨5, by omega⟩ : Fin 8)) * (x1 (ix3 (0 : Fin 1) ch hw) - x2 (ix2 ch (⟨1, by omega⟩ : Fin 8))))
        + x2 (ix2 ch (⟨7, by omega⟩ : Fin 8)) := by
  unfold out1_3
  rw [canon2_row1, pay1_2_apply, pay1_3_eq, pay1_4_eq, pay1_5_eq, pay1_6_apply, pay1_7_apply]
  rw [ld_whole_apply, ld_whole_apply, ld_col_apply x2 0 (by omega), ld_col_apply x2 1 (by omega),
    ld_col_apply x2 4 (by omega), ld_col_apply x2 5 (by omega), ld_col_apply x2 7 (by omega)]

/-! ## The windows' block indices at every point of the grid -/

/-- The activation windows' block index at point t is (t, 0, 0); -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
/-- the coefficient table's is (0, 0); -/
theorem idx1_2 : ∀ t : Fin cfg1.N, win1_2.index t (0 : Fin 2) = 0 ∧ win1_2.index t (1 : Fin 2) = 0 :=
  (by decide +kernel : ∀ t : Fin grid1.N, _)
/-- the output's is (0, t, 0, 0). -/
theorem idx1_3 : ∀ t : Fin cfg1.N, win1_3.index t (0 : Fin 4) = 0 ∧ win1_3.index t (1 : Fin 4) = t.val
    ∧ win1_3.index t (2 : Fin 4) = 0 ∧ win1_3.index t (3 : Fin 4) = 0 :=
  (by decide +kernel : ∀ t : Fin grid1.N, _)

section Region1Value
variable (V : (c : Dev nD) → (b : Ref sig .tc) → Buf (Elt Ideal) ((c : Thread nD τ).loc b))

/-! ## The arrays the body reads, as the region finds them -/

/-- The two activation arrays and the coefficient table at region entry, as functions of their literal index types. -/
abbrev act0 (c : Dev nD) : S32x256x4096.Idx → EReal := V c main_v0
abbrev act1 (c : Dev nD) : S32x256x4096.Idx → EReal := V c main_v1
abbrev coef (c : Dev nD) : S256x8.Idx → EReal := V c main_v84

/-! ## Each input block, read where the output's rectangle says -/

/-- The first activation window's block at point t is slab t of its array. -/
theorem iblk1_0_apply (c : Dev nD) (t : Fin cfg1.N) (x : S1x256x4096.Idx) (k : S32x256x4096.Idx)
    (hk0 : (k 0).val = t.val + (x 0).val) (hk1 : (k 1).val = (x 1).val) (hk2 : (k 2).val = (x 2).val) :
    (iblk1 V c 0 t : Vec Ideal S1x256x4096 .f32) x = act0 V c k := by
  obtain ⟨e0, e1, e2⟩ := idx1_0 t
  unfold iblk1
  rw [View.read_apply]
  show V c main_v0 _ = V c main_v0 _
  congr 1
  funext a; apply Fin.ext
  match a with
  | ⟨0, _⟩ => show win1_0.index t (0 : Fin 3) * 1 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 4096 + 1 * (x 2).val = (k 2).val; rw [e2, hk2]; omega

/-- The second activation window's block at point t is slab t of its array. -/
theorem iblk1_1_apply (c : Dev nD) (t : Fin cfg1.N) (x : S1x256x4096.Idx) (k : S32x256x4096.Idx)
    (hk0 : (k 0).val = t.val + (x 0).val) (hk1 : (k 1).val = (x 1).val) (hk2 : (k 2).val = (x 2).val) :
    (iblk1 V c 1 t : Vec Ideal S1x256x4096 .f32) x = act1 V c k := by
  obtain ⟨e0, e1, e2⟩ := idx1_1 t
  unfold iblk1
  rw [View.read_apply]
  show V c main_v1 _ = V c main_v1 _
  congr 1
  funext a; apply Fin.ext
  match a with
  | ⟨0, _⟩ => show win1_1.index t (0 : Fin 3) * 1 + 1 * (x 0).val = (k 0).val; rw [e0, hk0]; omega
  | ⟨1, _⟩ => show win1_1.index t (1 : Fin 3) * 256 + 1 * (x 1).val = (k 1).val; rw [e1, hk1]; omega
  | ⟨2, _⟩ => show win1_1.index t (2 : Fin 3) * 4096 + 1 * (x 2).val = (k 2).val; rw [e2, hk2]; omega

/-- The coefficient window's block at every point is the whole table. -/
theorem iblk1_2_apply (c : Dev nD) (t : Fin cfg1.N) (x : S256x8.Idx) :
    (iblk1 V c 2 t : Vec Ideal S256x8 .f32) x = coef V c x := by
  obtain ⟨e0, e1⟩ := idx1_2 t
  unfold iblk1
  rw [View.read_apply]
  show V c main_v84 _ = V c main_v84 _
  congr 1
  funext a; apply Fin.ext
  match a with
  | ⟨0, _⟩ => show win1_2.index t (0 : Fin 2) * 256 + 1 * (x 0).val = (x 0).val; rw [e0]; omega
  | ⟨1, _⟩ => show win1_2.index t (1 : Fin 2) * 8 + 1 * (x 1).val = (x 1).val; rw [e1]; omega

/-! ## The whole-array function -/

/-- What the output array ends holding at (h, n, ch, hw): the affine transform of the two activations at
    (n, ch, hw), centred by columns 0 and 1 of the coefficient table at row ch, mixed by columns 2 and 3 (h = 0) or
    4 and 5 (h = 1), and shifted by column 6 (h = 0) or 7 (h = 1). -/
def g1 (c : Dev nD) (h : Fin 2) (n : Fin 32) (ch : Fin 256) (hw : Fin 4096) : EReal :=
  (coef V c (ix2 ch (⟨2 + 2 * h.val, by have := h.isLt; omega⟩ : Fin 8))
        * (act0 V c (ix3 n ch hw) - coef V c (ix2 ch (⟨0, by omega⟩ : Fin 8)))
      + coef V c (ix2 ch (⟨3 + 2 * h.val, by have := h.isLt; omega⟩ : Fin 8))
        * (act1 V c (ix3 n ch hw) - coef V c (ix2 ch (⟨1, by omega⟩ : Fin 8))))
    + coef V c (ix2 ch (⟨6 + h.val, by have := h.isLt; omega⟩ : Fin 8))

/-- The same as one function of the output array's index. -/
def G1 (c : Dev nD) : S2x32x256x4096.Idx → EReal := fun i => g1 V c (i 0) (i 1) (i 2) (i 3)

/-! ## What point t writes back -/

/-- The output block the body leaves at point t, at (h, 0, ch, hw), is the whole-array function at (h, t, ch, hw). -/
theorem block1_3_apply (c : Dev nD) (t : Fin cfg1.N) (ht : t.val < 32) (h : Fin 2) (ch : Fin 256) (hw : Fin 4096) :
    out1_3 (iblk1 V c 0 t) (iblk1 V c 1 t) (iblk1 V c 2 t) (ix4 h (0 : Fin 1) ch hw) = g1 V c h ⟨t.val, ht⟩ ch hw := by
  have h0 : ((ix3 (⟨t.val, ht⟩ : Fin 32) ch hw : S32x256x4096.Idx) 0).val
      = t.val + ((ix3 (0 : Fin 1) ch hw : S1x256x4096.Idx) 0).val := by
    show t.val = t.val + 0; omega
  unfold g1
  match h with
  | ⟨0, _⟩ =>
    refine (out1_3_row0 (iblk1 V c 0 t) (iblk1 V c 1 t) (iblk1 V c 2 t) ch hw).trans ?_
    rw [iblk1_0_apply V c t (ix3 (0 : Fin 1) ch hw) (ix3 (⟨t.val, ht⟩ : Fin 32) ch hw) h0 rfl rfl,
      iblk1_1_apply V c t (ix3 (0 : Fin 1) ch hw) (ix3 (⟨t.val, ht⟩ : Fin 32) ch hw) h0 rfl rfl]
    simp only [iblk1_2_apply V c t]
  | ⟨1, _⟩ =>
    refine (out1_3_row1 (iblk1 V c 0 t) (iblk1 V c 1 t) (iblk1 V c 2 t) ch hw).trans ?_
    rw [iblk1_0_apply V c t (ix3 (0 : Fin 1) ch hw) (ix3 (⟨t.val, ht⟩ : Fin 32) ch hw) h0 rfl rfl,
      iblk1_1_apply V c t (ix3 (0 : Fin 1) ch hw) (ix3 (⟨t.val, ht⟩ : Fin 32) ch hw) h0 rfl rfl]
    simp only [iblk1_2_apply V c t]

/-- WHAT POINT t WRITES BACK is block t of G1 of the arrays as the region finds them. -/
theorem flushed1_3_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  obtain ⟨e0, e1, e2, e3⟩ := idx1_3 t
  have ht : t.val < 32 := lt_of_lt_of_eq t.isLt N_1
  refine funext fun (j : S2x1x256x4096.Idx) => ?_
  show out1_3 (iblk1 V c 0 t) (iblk1 V c 1 t) (iblk1 V c 2 t) j = G1 V c (((cfg1.win 3).blk t).view.emb j)
  obtain ⟨h, u, ch, hw, rfl⟩ : ∃ (h : Fin 2) (u : Fin 1) (ch : Fin 256) (hw : Fin 4096), j = ix4 h u ch hw :=
    ⟨j 0, j 1, j 2, j 3, eq_ix4 j⟩
  obtain rfl : u = 0 := Subsingleton.elim _ _
  have hemb : ((cfg1.win 3).blk t).view.emb (ix4 h (0 : Fin 1) ch hw) = (ix4 h (⟨t.val, ht⟩ : Fin 32) ch hw : S2x32x256x4096.Idx) := by
    funext a; apply Fin.ext
    match a with
    | ⟨0, _⟩ => show win1_3.index t (0 : Fin 4) * 2 + 1 * h.val = h.val; rw [e0]; omega
    | ⟨1, _⟩ => show win1_3.index t (1 : Fin 4) * 1 + 1 * 0 = t.val; rw [e1]; omega
    | ⟨2, _⟩ => show win1_3.index t (2 : Fin 4) * 256 + 1 * ch.val = ch.val; rw [e2]; omega
    | ⟨3, _⟩ => show win1_3.index t (3 : Fin 4) * 4096 + 1 * hw.val = hw.val; rw [e3]; omega
  rw [hemb]
  exact block1_3_apply V c t ht h ch hw

/-! ## The cover, and the array after the run -/

/-- An index of the output array is in point t's block iff each coordinate is in the block's range on its axis. -/
theorem mem_blk1_3 (t : Fin cfg1.N) (i : S2x32x256x4096.Idx) :
    i ∈ ((cfg1.win 3).blk t).view.set ↔ ∀ a : Fin 4, win1_3.index t a * S2x1x256x4096.size a ≤ (i a).val
      ∧ (i a).val < win1_3.index t a * S2x1x256x4096.size a + S2x1x256x4096.size a := by
  show i ∈ ((View.whole main_v85).slice (win1_3.rect t)).set ↔ _
  rw [View.set_slice_whole, Rect.mem_set_unit]
  exact Iff.rfl

/-- Every index of the output array is in SOME point's block: (h, n, ch, hw) is in point n's. -/
theorem covered1_3 (i : S2x32x256x4096.Idx) :
    ∃ t : Fin cfg1.N, (cfg1.win 3).flush t = true ∧ i ∈ ((cfg1.win 3).blk t).view.set := by
  have h0 : (i 0).val < 2 := (i 0).isLt
  have h1 : (i 1).val < 32 := (i 1).isLt
  have h2 : (i 2).val < 256 := (i 2).isLt
  have h3 : (i 3).val < 4096 := (i 3).isLt
  obtain ⟨t, htv⟩ : ∃ t : Fin cfg1.N, t.val = (i 1).val := ⟨⟨(i 1).val, lt_of_lt_of_eq h1 N_1.symm⟩, rfl⟩
  obtain ⟨e0, e1, e2, e3⟩ := idx1_3 t
  refine ⟨t, flush1_3 t, ?_⟩
  rw [mem_blk1_3]
  intro a
  match a with
  | ⟨0, _⟩ => show win1_3.index t (0 : Fin 4) * 2 ≤ (i 0).val ∧ (i 0).val < win1_3.index t (0 : Fin 4) * 2 + 2; rw [e0]; omega
  | ⟨1, _⟩ => show win1_3.index t (1 : Fin 4) * 1 ≤ (i 1).val ∧ (i 1).val < win1_3.index t (1 : Fin 4) * 1 + 1; rw [e1]; omega
  | ⟨2, _⟩ => show win1_3.index t (2 : Fin 4) * 256 ≤ (i 2).val ∧ (i 2).val < win1_3.index t (2 : Fin 4) * 256 + 256; rw [e2]; omega
  | ⟨3, _⟩ => show win1_3.index t (3 : Fin 4) * 4096 ≤ (i 3).val ∧ (i 3).val < win1_3.index t (3 : Fin 4) * 4096 + 4096; rw [e3]; omega

/-- THE OUTPUT ARRAY after the run is G1 of the arrays as the region finds them. -/
theorem arrAt1_3 (c : Dev nD) : (dat1 (F := Ideal) V c).arrAt 3 cfg1.N = G1 V c :=
  (dat1 (F := Ideal) V c).arrAt_eq_of_cover 3 (G1 V c) (fun t _ => flushed1_3_eq V c t) covered1_3

/-- Element by element. -/
theorem final1_3 (c : Dev nD) (h : Fin 2) (n : Fin 32) (ch : Fin 256) (hw : Fin 4096) :
    ((dat1 (F := Ideal) V c).arrAt 3 cfg1.N : S2x32x256x4096.Idx → EReal) (ix4 h n ch hw)
      = (coef V c (ix2 ch (⟨2 + 2 * h.val, by have := h.isLt; omega⟩ : Fin 8))
            * (act0 V c (ix3 n ch hw) - coef V c (ix2 ch (⟨0, by omega⟩ : Fin 8)))
          + coef V c (ix2 ch (⟨3 + 2 * h.val, by have := h.isLt; omega⟩ : Fin 8))
            * (act1 V c (ix3 n ch hw) - coef V c (ix2 ch (⟨1, by omega⟩ : Fin 8))))
        + coef V c (ix2 ch (⟨6 + h.val, by have := h.isLt; omega⟩ : Fin 8)) := by
  rw [arrAt1_3]
  rfl

/-- The two rows apart, the columns literal. -/
theorem final1_3_row0 (c : Dev nD) (n : Fin 32) (ch : Fin 256) (hw : Fin 4096) :
    ((dat1 (F := Ideal) V c).arrAt 3 cfg1.N : S2x32x256x4096.Idx → EReal) (ix4 (0 : Fin 2) n ch hw)
      = (coef V c (ix2 ch (2 : Fin 8)) * (act0 V c (ix3 n ch hw) - coef V c (ix2 ch (0 : Fin 8)))
          + coef V c (ix2 ch (3 : Fin 8)) * (act1 V c (ix3 n ch hw) - coef V c (ix2 ch (1 : Fin 8))))
        + coef V c (ix2 ch (6 : Fin 8)) :=
  final1_3 V c 0 n ch hw
theorem final1_3_row1 (c : Dev nD) (n : Fin 32) (ch : Fin 256) (hw : Fin 4096) :
    ((dat1 (F := Ideal) V c).arrAt 3 cfg1.N : S2x32x256x4096.Idx → EReal) (ix4 (1 : Fin 2) n ch hw)
      = (coef V c (ix2 ch (4 : Fin 8)) * (act0 V c (ix3 n ch hw) - coef V c (ix2 ch (0 : Fin 8)))
          + coef V c (ix2 ch (5 : Fin 8)) * (act1 V c (ix3 n ch hw) - coef V c (ix2 ch (1 : Fin 8))))
        + coef V c (ix2 ch (7 : Fin 8)) :=
  final1_3 V c 1 n ch hw

end Region1Value

end Cert.KernelIdeal.Hand

end
-- ==== Proof.BnMath.lean ====
/-
  The per-channel mathematics of complex batch normalisation, over the extended reals, free of any program.

  For one channel, the positions of the batch and the image form a finite type `ι`; `xr xi : ι → EReal` are the real and
  imaginary parts there.  Two ways of computing one output element are compared:

  * `kerOut`: the covariance entries come from RAW moments (the sums of `xr`, `xi`, `xr²`, `xi²`, `xr·xi`, divided by the
    count, minus products of the means), the whitening matrix is folded with the affine weights into two coefficients, and
    the element is `coefficient · (x − mean) + coefficient · (y − mean) + bias`;
  * `refOut`: the covariance entries come from CENTRED moments (sums of products of `xr − mean`, `xi − mean`), the element is
    whitened first and the affine weights applied afterwards.

  On finite inputs the two agree: `E[ab] − E[a]E[b] = E[(a − E a)(b − E b)]`; by the Cauchy–Schwarz inequality the
  determinant `(var_r + ε)(var_i + ε) − cov²` is at least `ε² > 0`, so the square roots are of positive reals, the
  reciprocal is of a non-zero real, every whitening entry is a real number, and the last step is distributivity in `ℝ`.
  The square root and the quotient are parameters `sqrtE`, `divE` known only on the reals (where they are the usual ones).
-/
import Mathlib

noncomputable section

namespace Cert.Bn

variable (sqrtE : EReal → EReal) (divE : EReal → EReal → EReal)

/-- `√det` of the regularised covariance `[[Vrr, Vri], [Vri, Vii]]`. -/
def sOf (Vrr Vii Vri : EReal) : EReal := sqrtE (Vrr * Vii - Vri * Vri)
/-- `1 / (s · t)` with `t = √(trace + 2 s)`. -/
def invOf (one two Vrr Vii Vri : EReal) : EReal :=
  divE one (sOf sqrtE Vrr Vii Vri * sqrtE ((Vrr + Vii) + two * sOf sqrtE Vrr Vii Vri))
/-- The entries of the inverse square root of the covariance. -/
def rrrOf (one two Vrr Vii Vri : EReal) : EReal := (Vii + sOf sqrtE Vrr Vii Vri) * invOf sqrtE divE one two Vrr Vii Vri
def riiOf (one two Vrr Vii Vri : EReal) : EReal := (Vrr + sOf sqrtE Vrr Vii Vri) * invOf sqrtE divE one two Vrr Vii Vri
def rriOf (one two Vrr Vii Vri : EReal) : EReal := (-Vri) * invOf sqrtE divE one two Vrr Vii Vri

/-- One output element from the raw moments `Sr Si Srr Sii Sri` (sums over the channel), the weights `wa wb` of the output
    row, its bias, and the element's own parts `x y`. -/
def kerOut (n ε one two Sr Si Srr Sii Sri wa wb bias x y : EReal) : EReal :=
  let μr := divE Sr n
  let μi := divE Si n
  let Vrr := (divE Srr n - μr * μr) + ε
  let Vii := (divE Sii n - μi * μi) + ε
  let Vri := divE Sri n - μr * μi
  ((wa * rrrOf sqrtE divE one two Vrr Vii Vri + wb * rriOf sqrtE divE one two Vrr Vii Vri) * (x - μr)
    + (wa * rriOf sqrtE divE one two Vrr Vii Vri + wb * riiOf sqrtE divE one two Vrr Vii Vri) * (y - μi)) + bias

/-- The same element from the centred moments, whitened and then mixed by the weights. -/
def refOut {ι : Type} [Fintype ι] (n ε one two : EReal) (xr xi : ι → EReal) (wa wb bias x y : EReal) : EReal :=
  let μr := divE (∑ i, xr i) n
  let μi := divE (∑ i, xi i) n
  let Vrr := divE (∑ i, (xr i - μr) * (xr i - μr)) n + ε
  let Vii := divE (∑ i, (xi i - μi) * (xi i - μi)) n + ε
  let Vri := divE (∑ i, (xr i - μr) * (xi i - μi)) n
  (wa * (rrrOf sqrtE divE one two Vrr Vii Vri * (x - μr) + rriOf sqrtE divE one two Vrr Vii Vri * (y - μi))
    + wb * (rriOf sqrtE divE one two Vrr Vii Vri * (x - μr) + riiOf sqrtE divE one two Vrr Vii Vri * (y - μi))) + bias

/-- A finite sum of coerced reals is the coercion of the real sum. -/
theorem coe_sum' {κ : Type} (s : Finset κ) (f : κ → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- Expansion of a sum of products of shifted terms. -/
theorem sum_centred {κ : Type} [Fintype κ] (a b : κ → ℝ) (A B : ℝ) :
    ∑ i, (a i - A) * (b i - B)
      = (∑ i, a i * b i) - A * (∑ i, b i) - (∑ i, a i) * B + (Fintype.card κ : ℝ) * (A * B) := by
  have h : ∀ i, (a i - A) * (b i - B) = a i * b i - A * b i - a i * B + A * B := fun i => by ring
  simp only [h, Finset.sum_add_distrib, Finset.sum_sub_distrib, ← Finset.mul_sum, ← Finset.sum_mul,
    Finset.sum_const, Finset.card_univ, nsmul_eq_mul]
  ring

/-- `E[ab] − E[a]E[b] = E[(a − E a)(b − E b)]`. -/
theorem raw_eq_centred {κ : Type} [Fintype κ] (a b : κ → ℝ) (hN : (Fintype.card κ : ℝ) ≠ 0) :
    (∑ i, a i * b i) / (Fintype.card κ : ℝ)
        - (∑ i, a i) / (Fintype.card κ : ℝ) * ((∑ i, b i) / (Fintype.card κ : ℝ))
      = (∑ i, (a i - (∑ i, a i) / (Fintype.card κ : ℝ)) * (b i - (∑ i, b i) / (Fintype.card κ : ℝ)))
          / (Fintype.card κ : ℝ) := by
  rw [sum_centred]
  field_simp
  ring

/-- By the Cauchy–Schwarz inequality the regularised determinant is at least `e² > 0`. -/
theorem det_pos {κ : Type} [Fintype κ] (f g : κ → ℝ) (N e : ℝ) (hN : 0 < N) (he : 0 < e) :
    0 < ((∑ i, f i * f i) / N + e) * ((∑ i, g i * g i) / N + e)
          - (∑ i, f i * g i) / N * ((∑ i, f i * g i) / N) := by
  have cs := Finset.sum_mul_sq_le_sq_mul_sq Finset.univ f g
  simp only [pow_two] at cs
  have hF : 0 ≤ ∑ i, f i * f i := Finset.sum_nonneg (fun i _ => mul_self_nonneg _)
  have hG : 0 ≤ ∑ i, g i * g i := Finset.sum_nonneg (fun i _ => mul_self_nonneg _)
  generalize (∑ i, f i * f i) = F at *
  generalize (∑ i, g i * g i) = G at *
  generalize (∑ i, f i * g i) = C at *
  have hsplit : (F / N + e) * (G / N + e) - C / N * (C / N)
      = (F * G - C * C) / (N * N) + e * (F / N + G / N) + e * e := by
    field_simp
    ring
  rw [hsplit]
  have h1 : 0 ≤ (F * G - C * C) / (N * N) := div_nonneg (sub_nonneg.2 cs) (by positivity)
  have h2 : 0 ≤ e * (F / N + G / N) := by positivity
  have h3 : 0 < e * e := by positivity
  linarith

/-- The determinant's square root at real entries is the real square root. -/
theorem sOf_coe (hsqrt : ∀ a : ℝ, 0 ≤ a → sqrtE (a : EReal) = ((Real.sqrt a : ℝ) : EReal))
    (Vrr Vii Vri : ℝ) (h : 0 ≤ Vrr * Vii - Vri * Vri) :
    sOf sqrtE (Vrr : EReal) (Vii : EReal) (Vri : EReal)
      = ((Real.sqrt (Vrr * Vii - Vri * Vri) : ℝ) : EReal) := by
  unfold sOf
  rw [← EReal.coe_mul, ← EReal.coe_mul, ← EReal.coe_sub, hsqrt _ h]

/-- The reciprocal `1 / (s · t)` at real entries with positive determinant and diagonal is a real number. -/
theorem invOf_coe (hdiv : ∀ a b : ℝ, b ≠ 0 → divE (a : EReal) (b : EReal) = ((a / b : ℝ) : EReal))
    (hsqrt : ∀ a : ℝ, 0 ≤ a → sqrtE (a : EReal) = ((Real.sqrt a : ℝ) : EReal))
    (Vrr Vii Vri : ℝ) (hdet : 0 < Vrr * Vii - Vri * Vri) (hr : 0 < Vrr) (hi : 0 < Vii) :
    invOf sqrtE divE ((1 : ℝ) : EReal) ((2 : ℝ) : EReal) (Vrr : EReal) (Vii : EReal) (Vri : EReal)
      = ((1 / (Real.sqrt (Vrr * Vii - Vri * Vri)
            * Real.sqrt ((Vrr + Vii) + 2 * Real.sqrt (Vrr * Vii - Vri * Vri))) : ℝ) : EReal) := by
  have hs : 0 < Real.sqrt (Vrr * Vii - Vri * Vri) := Real.sqrt_pos.2 hdet
  have ht0 : 0 < (Vrr + Vii) + 2 * Real.sqrt (Vrr * Vii - Vri * Vri) := by positivity
  have ht : 0 < Real.sqrt ((Vrr + Vii) + 2 * Real.sqrt (Vrr * Vii - Vri * Vri)) := Real.sqrt_pos.2 ht0
  unfold invOf
  rw [sOf_coe sqrtE hsqrt Vrr Vii Vri hdet.le, ← EReal.coe_add, ← EReal.coe_mul, ← EReal.coe_add,
    hsqrt _ ht0.le, ← EReal.coe_mul, hdiv _ _ (mul_pos hs ht).ne']

/-- With real covariance entries of positive determinant and positive diagonal, folding the weights into the
    whitening matrix first or applying them afterwards gives the same element. -/
theorem whiten_eq (hdiv : ∀ a b : ℝ, b ≠ 0 → divE (a : EReal) (b : EReal) = ((a / b : ℝ) : EReal))
    (hsqrt : ∀ a : ℝ, 0 ≤ a → sqrtE (a : EReal) = ((Real.sqrt a : ℝ) : EReal))
    (Vrr Vii Vri : ℝ) (hdet : 0 < Vrr * Vii - Vri * Vri) (hr : 0 < Vrr) (hi : 0 < Vii)
    (wa wb dx dy : ℝ) (bias : EReal) :
    (((wa : EReal) * rrrOf sqrtE divE ((1 : ℝ) : EReal) ((2 : ℝ) : EReal) (Vrr : EReal) (Vii : EReal) (Vri : EReal)
          + (wb : EReal) * rriOf sqrtE divE ((1 : ℝ) : EReal) ((2 : ℝ) : EReal) (Vrr : EReal) (Vii : EReal) (Vri : EReal))
          * (dx : EReal)
        + ((wa : EReal) * rriOf sqrtE divE ((1 : ℝ) : EReal) ((2 : ℝ) : EReal) (Vrr : EReal) (Vii : EReal) (Vri : EReal)
          + (wb : EReal) * riiOf sqrtE divE ((1 : ℝ) : EReal) ((2 : ℝ) : EReal) (Vrr : EReal) (Vii : EReal) (Vri : EReal))
          * (dy : EReal)) + bias
      = ((wa : EReal) * (rrrOf sqrtE divE ((1 : ℝ) : EReal) ((2 : ℝ) : EReal) (Vrr : EReal) (Vii : EReal) (Vri : EReal)
              * (dx : EReal)
            + rriOf sqrtE divE ((1 : ℝ) : EReal) ((2 : ℝ) : EReal) (Vrr : EReal) (Vii : EReal) (Vri : EReal)
              * (dy : EReal))
        + (wb : EReal) * (rriOf sqrtE divE ((1 : ℝ) : EReal) ((2 : ℝ) : EReal) (Vrr : EReal) (Vii : EReal) (Vri : EReal)
              * (dx : EReal)
            + riiOf sqrtE divE ((1 : ℝ) : EReal) ((2 : ℝ) : EReal) (Vrr : EReal) (Vii : EReal) (Vri : EReal)
              * (dy : EReal))) + bias := by
  have hs := sOf_coe sqrtE hsqrt Vrr Vii Vri hdet.le
  have hinv := invOf_coe sqrtE divE hdiv hsqrt Vrr Vii Vri hdet hr hi
  have hrrr : rrrOf sqrtE divE ((1 : ℝ) : EReal) ((2 : ℝ) : EReal) (Vrr : EReal) (Vii : EReal) (Vri : EReal)
      = (((Vii + Real.sqrt (Vrr * Vii - Vri * Vri)) * (1 / (Real.sqrt (Vrr * Vii - Vri * Vri)
            * Real.sqrt ((Vrr + Vii) + 2 * Real.sqrt (Vrr * Vii - Vri * Vri)))) : ℝ) : EReal) := by
    unfold rrrOf
    rw [hs, hinv, ← EReal.coe_add, ← EReal.coe_mul]
  have hrii : riiOf sqrtE divE ((1 : ℝ) : EReal) ((2 : ℝ) : EReal) (Vrr : EReal) (Vii : EReal) (Vri : EReal)
      = (((Vrr + Real.sqrt (Vrr * Vii - Vri * Vri)) * (1 / (Real.sqrt (Vrr * Vii - Vri * Vri)
            * Real.sqrt ((Vrr + Vii) + 2 * Real.sqrt (Vrr * Vii - Vri * Vri)))) : ℝ) : EReal) := by
    unfold riiOf
    rw [hs, hinv, ← EReal.coe_add, ← EReal.coe_mul]
  have hrri : rriOf sqrtE divE ((1 : ℝ) : EReal) ((2 : ℝ) : EReal) (Vrr : EReal) (Vii : EReal) (Vri : EReal)
      = (((-Vri) * (1 / (Real.sqrt (Vrr * Vii - Vri * Vri)
            * Real.sqrt ((Vrr + Vii) + 2 * Real.sqrt (Vrr * Vii - Vri * Vri)))) : ℝ) : EReal) := by
    unfold rriOf
    rw [hinv, ← EReal.coe_neg, ← EReal.coe_mul]
  rw [hrrr, hrii, hrri]
  congr 1
  simp only [← EReal.coe_mul, ← EReal.coe_add]
  congr 1
  ring

/-- On finite data the two computations give the same element. -/
theorem kerOut_eq_refOut {ι : Type} [Fintype ι]
    (hdiv : ∀ a b : ℝ, b ≠ 0 → divE (a : EReal) (b : EReal) = ((a / b : ℝ) : EReal))
    (hsqrt : ∀ a : ℝ, 0 ≤ a → sqrtE (a : EReal) = ((Real.sqrt a : ℝ) : EReal))
    (n ε one two : EReal) (hcard : 0 < Fintype.card ι) (hn : n = ((Fintype.card ι : ℝ) : EReal))
    (hε : ∃ e : ℝ, 0 < e ∧ ε = (e : EReal)) (h1 : one = ((1 : ℝ) : EReal)) (h2 : two = ((2 : ℝ) : EReal))
    (xr xi : ι → EReal) (hxr : ∀ i, ∃ r : ℝ, xr i = (r : EReal)) (hxi : ∀ i, ∃ r : ℝ, xi i = (r : EReal))
    (wa wb bias x y : EReal) (hwa : ∃ r : ℝ, wa = (r : EReal)) (hwb : ∃ r : ℝ, wb = (r : EReal))
    (hx : ∃ r : ℝ, x = (r : EReal)) (hy : ∃ r : ℝ, y = (r : EReal)) :
    kerOut sqrtE divE n ε one two (∑ i, xr i) (∑ i, xi i) (∑ i, xr i * xr i) (∑ i, xi i * xi i) (∑ i, xr i * xi i) wa wb bias x y
      = refOut sqrtE divE n ε one two xr xi wa wb bias x y := by
  obtain ⟨e, he, rfl⟩ := hε
  subst h1 h2 hn
  choose a ha using hxr
  choose b hb using hxi
  obtain ⟨wa', rfl⟩ := hwa
  obtain ⟨wb', rfl⟩ := hwb
  obtain ⟨x', rfl⟩ := hx
  obtain ⟨y', rfl⟩ := hy
  have hxr' : xr = fun i => (a i : EReal) := funext ha
  have hxi' : xi = fun i => (b i : EReal) := funext hb
  subst hxr' hxi'
  have hN : (0 : ℝ) < (Fintype.card ι : ℝ) := by exact_mod_cast hcard
  have hN' : (Fintype.card ι : ℝ) ≠ 0 := hN.ne'
  have hdet := det_pos (fun i => a i - (∑ i, a i) / (Fintype.card ι : ℝ))
    (fun i => b i - (∑ i, b i) / (Fintype.card ι : ℝ)) _ e hN he
  beta_reduce at hdet
  have hr : 0 < (∑ i, (a i - (∑ i, a i) / (Fintype.card ι : ℝ)) * (a i - (∑ i, a i) / (Fintype.card ι : ℝ)))
      / (Fintype.card ι : ℝ) + e :=
    add_pos_of_nonneg_of_pos (div_nonneg (Finset.sum_nonneg fun i _ => mul_self_nonneg _) hN.le) he
  have hi : 0 < (∑ i, (b i - (∑ i, b i) / (Fintype.card ι : ℝ)) * (b i - (∑ i, b i) / (Fintype.card ι : ℝ)))
      / (Fintype.card ι : ℝ) + e :=
    add_pos_of_nonneg_of_pos (div_nonneg (Finset.sum_nonneg fun i _ => mul_self_nonneg _) hN.le) he
  unfold kerOut refOut
  simp only [← EReal.coe_mul, coe_sum', hdiv _ _ hN', ← EReal.coe_sub, ← EReal.coe_add]
  rw [raw_eq_centred a a hN', raw_eq_centred b b hN', raw_eq_centred a b hN']
  exact whiten_eq sqrtE divE hdiv hsqrt _ _ _ hdet hr hi wa' wb' _ _ bias

end Cert.Bn

end
-- ==== Proof.Spec.lean ====
/-
  The specification both programs meet: each output element of the complex batch normalisation as ONE function of the four
  argument arrays, element by element, in the two arrangements of `BnMath.lean` — `Gk` (raw moments, folded coefficients:
  what the two kernels and the host lines between them compute) and `Gr` (centred moments, whiten then mix: what the
  reference computes) — with the square root, the quotient and the four float literals read at the extended reals.
  The positions that one channel's statistics range over are `Pos = batch × row × column`.
-/
import Idealize.ShloMosaic.PureOps.Ideal
import Idealize.ShloMosaic.Lib.ValueIdx
import proofs.«121567_j27676769255584_2_alg».proof.Proof.BnMath

noncomputable section

namespace Cert.Bn

open Idealize.ShloMosaic Idealize.ShloMosaic.ValueIdx

/-- The positions of one channel: batch entry, image row, image column. -/
abbrev Pos := Fin 32 × Fin 64 × Fin 64

/-- The count 131072 = 32·64·64, the regulariser, and the literals one and two, as the programs spell them. -/
abbrev nI : EReal := Ideal.ofBits .f32 0x48000000#32
abbrev εI : EReal := Ideal.ofBits .f32 0x3727C5AC#32
abbrev oneI : EReal := Ideal.ofBits .f32 0x3F800000#32
abbrev twoI : EReal := Ideal.ofBits .f32 0x40000000#32

abbrev A4 := (⟨4, ![32, 256, 64, 64]⟩ : Shape).Idx → EReal
abbrev A3 := (⟨3, ![2, 2, 256]⟩ : Shape).Idx → EReal
abbrev A2 := (⟨2, ![2, 256]⟩ : Shape).Idx → EReal

/-- Channel `c` of an input array, as a function of the position. -/
def chan (a : A4) (c : Fin 256) : Pos → EReal := fun q => a (ix4 q.1 c q.2.1 q.2.2)

/-- Output element (h, n, c, y, x) in the reference's arrangement. -/
def Gr (a0 a1 : A4) (a2 : A3) (a3 : A2) (h : Fin 2) (n : Fin 32) (c : Fin 256) (y x : Fin 64) : EReal :=
  refOut Ideal.sqrt Ideal.div nI εI oneI twoI (chan a0 c) (chan a1 c)
    (a2 (ix3 h (0 : Fin 2) c)) (a2 (ix3 h (1 : Fin 2) c)) (a3 (ix2 h c)) (a0 (ix4 n c y x)) (a1 (ix4 n c y x))

/-- Output element (h, n, c, y, x) in the kernels' arrangement. -/
def Gk (a0 a1 : A4) (a2 : A3) (a3 : A2) (h : Fin 2) (n : Fin 32) (c : Fin 256) (y x : Fin 64) : EReal :=
  kerOut Ideal.sqrt Ideal.div nI εI oneI twoI
    (∑ q, chan a0 c q) (∑ q, chan a1 c q) (∑ q, chan a0 c q * chan a0 c q) (∑ q, chan a1 c q * chan a1 c q)
    (∑ q, chan a0 c q * chan a1 c q)
    (a2 (ix3 h (0 : Fin 2) c)) (a2 (ix3 h (1 : Fin 2) c)) (a3 (ix2 h c)) (a0 (ix4 n c y x)) (a1 (ix4 n c y x))

/-- The eight per-channel coefficients the host lines between the two kernels compute from the five raw moments
    `S 0 … S 4` (sums of `xr`, `xi`, `xr²`, `xi²`, `xr·xi`), the four weights and the two biases of the channel: the two
    means, the whitening matrix folded with the weights, the biases. -/
def coefK (S : Fin 5 → EReal) (w00 w01 w10 w11 b0 b1 : EReal) (j : Fin 8) : EReal :=
  let μr := Ideal.div (S 0) nI
  let μi := Ideal.div (S 1) nI
  let Vrr := (Ideal.div (S 2) nI - μr * μr) + εI
  let Vii := (Ideal.div (S 3) nI - μi * μi) + εI
  let Vri := Ideal.div (S 4) nI - μr * μi
  match j with
  | ⟨0, _⟩ => μr
  | ⟨1, _⟩ => μi
  | ⟨2, _⟩ => w00 * rrrOf Ideal.sqrt Ideal.div oneI twoI Vrr Vii Vri + w01 * rriOf Ideal.sqrt Ideal.div oneI twoI Vrr Vii Vri
  | ⟨3, _⟩ => w00 * rriOf Ideal.sqrt Ideal.div oneI twoI Vrr Vii Vri + w01 * riiOf Ideal.sqrt Ideal.div oneI twoI Vrr Vii Vri
  | ⟨4, _⟩ => w10 * rrrOf Ideal.sqrt Ideal.div oneI twoI Vrr Vii Vri + w11 * rriOf Ideal.sqrt Ideal.div oneI twoI Vrr Vii Vri
  | ⟨5, _⟩ => w10 * rriOf Ideal.sqrt Ideal.div oneI twoI Vrr Vii Vri + w11 * riiOf Ideal.sqrt Ideal.div oneI twoI Vrr Vii Vri
  | ⟨6, _⟩ => b0
  | ⟨_ + 7, _⟩ => b1

/-- An output element of row 0 from the coefficients: `c₂·(x − c₀) + c₃·(y − c₁) + c₆`. -/
theorem kerOut_row0 (S : Fin 5 → EReal) (w00 w01 w10 w11 b0 b1 x y : EReal) :
    kerOut Ideal.sqrt Ideal.div nI εI oneI twoI (S 0) (S 1) (S 2) (S 3) (S 4) w00 w01 b0 x y
      = (coefK S w00 w01 w10 w11 b0 b1 2 * (x - coefK S w00 w01 w10 w11 b0 b1 0)
          + coefK S w00 w01 w10 w11 b0 b1 3 * (y - coefK S w00 w01 w10 w11 b0 b1 1)) + coefK S w00 w01 w10 w11 b0 b1 6 := rfl

/-- An output element of row 1 from the coefficients: `c₄·(x − c₀) + c₅·(y − c₁) + c₇`. -/
theorem kerOut_row1 (S : Fin 5 → EReal) (w00 w01 w10 w11 b0 b1 x y : EReal) :
    kerOut Ideal.sqrt Ideal.div nI εI oneI twoI (S 0) (S 1) (S 2) (S 3) (S 4) w10 w11 b1 x y
      = (coefK S w00 w01 w10 w11 b0 b1 4 * (x - coefK S w00 w01 w10 w11 b0 b1 0)
          + coefK S w00 w01 w10 w11 b0 b1 5 * (y - coefK S w00 w01 w10 w11 b0 b1 1)) + coefK S w00 w01 w10 w11 b0 b1 7 := rfl

end Cert.Bn

end
-- ==== Proof.KI.GkCoef.lean ====
/-
  The kernels' arrangement of an output element, through the channel's table of eight coefficients: the five raw moments of
  a channel are the sums over its positions of the five statistics, the table is computed from them and from the channel's
  weights and biases, and an output element of either row is `c·(x − mean) + c'·(y − mean') + bias` with the row's
  entries of the table.
-/
import proofs.«121567_j27676769255584_2_alg».proof.Proof.Spec
import proofs.«121567_j27676769255584_2_alg».proof.Proof.KI.Pay

noncomputable section

namespace Cert.Bn

open Idealize.ShloMosaic Idealize.ShloMosaic.ValueIdx

/-- The five raw moments of channel `ch`. -/
def moments (a0 a1 : A4) (ch : Fin 256) (k : Fin 5) : EReal :=
  ∑ q : Pos, Cert.KernelIdeal.PayVal.stat k (chan a0 ch q) (chan a1 ch q)

/-- The channel's coefficient table from the argument arrays. -/
def coefOf (a0 a1 : A4) (a2 : A3) (a3 : A2) (ch : Fin 256) (j : Fin 8) : EReal :=
  coefK (moments a0 a1 ch) (a2 (ix3 (0 : Fin 2) (0 : Fin 2) ch)) (a2 (ix3 (0 : Fin 2) (1 : Fin 2) ch))
    (a2 (ix3 (1 : Fin 2) (0 : Fin 2) ch)) (a2 (ix3 (1 : Fin 2) (1 : Fin 2) ch)) (a3 (ix2 (0 : Fin 2) ch))
    (a3 (ix2 (1 : Fin 2) ch)) j

/-- An output element of row 0 from the channel's table. -/
theorem Gk_row0 (a0 a1 : A4) (a2 : A3) (a3 : A2) (n : Fin 32) (ch : Fin 256) (y x : Fin 64) :
    Gk a0 a1 a2 a3 (0 : Fin 2) n ch y x
      = (coefOf a0 a1 a2 a3 ch 2 * (a0 (ix4 n ch y x) - coefOf a0 a1 a2 a3 ch 0)
          + coefOf a0 a1 a2 a3 ch 3 * (a1 (ix4 n ch y x) - coefOf a0 a1 a2 a3 ch 1)) + coefOf a0 a1 a2 a3 ch 6 :=
  kerOut_row0 (moments a0 a1 ch) (a2 (ix3 (0 : Fin 2) (0 : Fin 2) ch)) (a2 (ix3 (0 : Fin 2) (1 : Fin 2) ch))
    (a2 (ix3 (1 : Fin 2) (0 : Fin 2) ch)) (a2 (ix3 (1 : Fin 2) (1 : Fin 2) ch)) (a3 (ix2 (0 : Fin 2) ch))
    (a3 (ix2 (1 : Fin 2) ch)) (a0 (ix4 n ch y x)) (a1 (ix4 n ch y x))

/-- An output element of row 1 from the channel's table. -/
theorem Gk_row1 (a0 a1 : A4) (a2 : A3) (a3 : A2) (n : Fin 32) (ch : Fin 256) (y x : Fin 64) :
    Gk a0 a1 a2 a3 (1 : Fin 2) n ch y x
      = (coefOf a0 a1 a2 a3 ch 4 * (a0 (ix4 n ch y x) - coefOf a0 a1 a2 a3 ch 0)
          + coefOf a0 a1 a2 a3 ch 5 * (a1 (ix4 n ch y x) - coefOf a0 a1 a2 a3 ch 1)) + coefOf a0 a1 a2 a3 ch 7 :=
  kerOut_row1 (moments a0 a1 ch) (a2 (ix3 (0 : Fin 2) (0 : Fin 2) ch)) (a2 (ix3 (0 : Fin 2) (1 : Fin 2) ch))
    (a2 (ix3 (1 : Fin 2) (0 : Fin 2) ch)) (a2 (ix3 (1 : Fin 2) (1 : Fin 2) ch)) (a3 (ix2 (0 : Fin 2) ch))
    (a3 (ix2 (1 : Fin 2) ch)) (a0 (ix4 n ch y x)) (a1 (ix4 n ch y x))

end Cert.Bn

end
-- ==== Proof.KI.Coef.lean ====
/-
  The host arithmetic between the two kernels, read at an index at the ideal instance: from the per-channel partial sums
  the statistics kernel leaves, the two means, the regularised covariance, its inverse square root folded with the
  weights, and the biases, stacked as the eight columns of one table.  Entry (channel, j) of that table is coefficient
  `j` of the channel as the specification spells it (`Cert.Bn.coefK`).
-/
import proofs.«121567_j27676769255584_2_alg».proof.Proof.Gen.KernelIdeal.Launch
import proofs.«121567_j27676769255584_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.CoefVal

open Idealize.ShloMosaic Idealize.ShloMosaic.TcCoe Idealize.ShloMosaic.ValueIdx Idealize.ShloMosaic.StableHlo
open Cert.KernelIdeal Cert.KernelIdeal.Gen

/-! ## The layout operations of the host lines, read at a channel -/

/-- Row `k` of a five-row table, as a vector, at a channel. -/
theorem row5_apply (x : S5x256.Idx → EReal) (k : Fin 5) (o : Nat) (ho : o = k.val)
    (hs : S5x256.Slices ![o, 0] S1x256) (hc : S1x256.ShapeCasts S256) (ch : Fin 256) :
    shapeCast S256 (extractStridedSlice S1x256 ![o, 0] x hs) hc (ix1 ch) = x (ix2 k ch) := by
  rw [shapeCast_1a_a_apply]
  exact slice2_axis0_apply o x hs (0 : Fin 1) ch k (by rw [ho]; rfl)

/-- Row `k` of a two-row table, as a vector, at a channel. -/
theorem row2_apply (x : S2x256.Idx → EReal) (k : Fin 2) (o : Nat) (ho : o = k.val)
    (hs : S2x256.Slices ![o, 0] S1x256) (hc : S1x256.ShapeCasts S256) (ch : Fin 256) :
    shapeCast S256 (extractStridedSlice S1x256 ![o, 0] x hs) hc (ix1 ch) = x (ix2 k ch) := by
  rw [shapeCast_1a_a_apply]
  exact slice2_axis0_apply o x hs (0 : Fin 1) ch k (by rw [ho]; rfl)

/-- Entry `(a, b)` of a two-by-two table of vectors, as a vector, at a channel. -/
theorem cell22_apply (x : S2x2x256.Idx → EReal) (a b : Fin 2) (oa ob : Nat) (ha : oa = a.val) (hb : ob = b.val)
    (hs : S2x2x256.Slices ![oa, ob, 0] S1x1x256) (hc : S1x1x256.ShapeCasts S256) (ch : Fin 256) :
    shapeCast S256 (extractStridedSlice S1x1x256 ![oa, ob, 0] x hs) hc (ix1 ch) = x (ix3 a b ch) := by
  refine (shapeCast_apply _ hc (ix1 ch) (ix3 (0 : Fin 1) (0 : Fin 1) ch) ?_).trans ?_
  · rw [Shape.rowMajor_val_three, Shape.rowMajor_val_one]
    show (0 * 1 + 0) * 256 + ch.val = ch.val
    omega
  · refine extractStridedSlice_apply _ x hs _ (ix3 a b ch) fun ax => ?_
    match ax with
    | ⟨0, _⟩ => exact ha.symm ▸ (Nat.add_zero _).symm
    | ⟨1, _⟩ => exact hb.symm ▸ (Nat.add_zero _).symm
    | ⟨2, _⟩ => exact (Nat.zero_add _).symm

/-- The sum of the partial tables over their first axis, from a constant, at a row and a channel. -/
theorem reduce_apply (x : S2x5x256.Idx → EReal) (b : BitVec 32) (h' : S2x5x256.ReducesTo [0] S5x256) (hu : 0 < S_.numel)
    (k : Fin 5) (ch : Fin 256) :
    Host.reduceAdd (F := Ideal) (φ := .f32) x (constant S_ .f32 b) h' hu (ix2 k ch)
      = Ideal.ofBits .f32 b + ∑ p : Fin 2, x (ix3 p k ch) := by
  have hR : S2x5x256.Reduces [0] S5x256 := by decide
  refine (Ideal.hostReduceAdd_single h' hR x _ (ix2 k ch)).trans ?_
  show Ideal.ofBits .f32 b + ∑ p : Fin 2, x (hR.lift (ix2 k ch) p) = _
  congr 1
  refine Finset.sum_congr rfl fun p _ => congrArg x ?_
  funext a
  apply Fin.ext
  match a with
  | ⟨0, _⟩ => rfl
  | ⟨1, _⟩ => rfl
  | ⟨2, _⟩ => rfl

/-- A vector as a one-column table, at a channel. -/
theorem col_apply (x : S256.Idx → EReal) (h : S256.BroadcastsInDim S256x1 ![0]) (ch : Fin 256) (z : Fin 1) :
    broadcastInDim S256x1 ![0] h x (ix2 ch z) = x (ix1 ch) := by
  refine broadcastInDim_apply _ h x _ (ix1 ch) fun a => ?_
  match a with
  | ⟨0, _⟩ => rfl

/-! ## The first stretch of host lines: moments, covariance, inverse square root -/

local notation "A₀" => StableHlo.after (main_part0_ops1 (F := Ideal))
local notation "𝕍" => FVec Ideal S256 FTy.f32

/-- A vector over the channels read at a channel. -/
abbrev at1 (x : 𝕍) (ch : Fin 256) : EReal := x (ix1 ch)

/-- A float literal as a vector over the channels. -/
abbrev splat (b : BitVec 32) : 𝕍 := broadcastInDim S256 ![] bcast_S_S256 (constant (F := Ideal) S_ .f32 b)

/-! The elementwise host operations at a channel are the extended reals' operations on the entries. -/
theorem sqrt_at (x : 𝕍) (ch : Fin 256) : at1 (Host.sqrt x) ch = Ideal.sqrt (at1 x ch) := rfl
theorem div_at (x y : 𝕍) (ch : Fin 256) : at1 (Host.divf x y) ch = Ideal.div (at1 x ch) (at1 y ch) := rfl
theorem neg_at (x : 𝕍) (ch : Fin 256) : at1 (Host.negf x) ch = -(at1 x ch) := rfl
theorem mul_at (x y : 𝕍) (ch : Fin 256) : at1 (mulf x y) ch = at1 x ch * at1 y ch := rfl
theorem add_at (x y : 𝕍) (ch : Fin 256) : at1 (addf x y) ch = at1 x ch + at1 y ch := rfl
theorem sub_at (x y : 𝕍) (ch : Fin 256) : at1 (subf x y) ch = at1 x ch - at1 y ch := rfl
theorem splat_at (b : BitVec 32) (ch : Fin 256) : at1 (splat b) ch = Ideal.ofBits .f32 b := rfl

/-- The five raw moments of a channel: the two partial sums added. -/
abbrev Sk (W : Valuation τ sig (Elt Ideal)) (ch : Fin 256) (k : Fin 5) : EReal :=
  Ideal.ofBits .f32 0x00000000#32 + (∑ p : Fin 2, W (Proc.devRef .tc main_v2) (ix3 p k ch) : EReal)

/-- Row `o` of the summed table, as the host lines cut it out. -/
abbrev rowOf (W : Valuation τ sig (Elt Ideal)) (o : Nat) (hs : S5x256.Slices ![o, 0] S1x256) : 𝕍 :=
  fun i => shapeCast S256 (extractStridedSlice S1x256 ![o, 0]
    (Host.reduceAdd (F := Ideal) (φ := .f32) (W (Proc.devRef .tc main_v2)) (constant S_ .f32 0x00000000#32)
      reducesTo_S2x5x256_S5x256_d0 h_S_) hs) shapeCasts_S1x256_S256 i

theorem rowOf_at (W : Valuation τ sig (Elt Ideal)) (k : Fin 5) (o : Nat) (ho : o = k.val) (hs : S5x256.Slices ![o, 0] S1x256)
    (ch : Fin 256) : rowOf W o hs (ix1 ch) = Sk W ch k :=
  (row5_apply _ k o ho hs _ ch).trans (reduce_apply _ _ _ _ k ch)

theorem v5_at (W : Valuation τ sig (Elt Ideal)) (ch : Fin 256) : at1 (A₀ W (Proc.devRef .tc main_v5)) ch = Sk W ch 0 := by
  have e : @Eq 𝕍 (A₀ W (Proc.devRef .tc main_v5)) (rowOf W 0 slices_S5x256_S1x256_0_0) := by after_results_simp <;> rfl
  exact (congrFun e (ix1 ch)).trans (rowOf_at W 0 0 rfl _ ch)

theorem v7_at (W : Valuation τ sig (Elt Ideal)) (ch : Fin 256) : at1 (A₀ W (Proc.devRef .tc main_v7)) ch = Sk W ch 1 := by
  have e : @Eq 𝕍 (A₀ W (Proc.devRef .tc main_v7)) (rowOf W 1 slices_S5x256_S1x256_1_0) := by after_results_simp <;> rfl
  exact (congrFun e (ix1 ch)).trans (rowOf_at W 1 1 rfl _ ch)

theorem v9_at (W : Valuation τ sig (Elt Ideal)) (ch : Fin 256) : at1 (A₀ W (Proc.devRef .tc main_v9)) ch = Sk W ch 2 := by
  have e : @Eq 𝕍 (A₀ W (Proc.devRef .tc main_v9)) (rowOf W 2 slices_S5x256_S1x256_2_0) := by after_results_simp <;> rfl
  exact (congrFun e (ix1 ch)).trans (rowOf_at W 2 2 rfl _ ch)

theorem v11_at (W : Valuation τ sig (Elt Ideal)) (ch : Fin 256) : at1 (A₀ W (Proc.devRef .tc main_v11)) ch = Sk W ch 3 := by
  have e : @Eq 𝕍 (A₀ W (Proc.devRef .tc main_v11)) (rowOf W 3 slices_S5x256_S1x256_3_0) := by after_results_simp <;> rfl
  exact (congrFun e (ix1 ch)).trans (rowOf_at W 3 3 rfl _ ch)

theorem v13_at (W : Valuation τ sig (Elt Ideal)) (ch : Fin 256) : at1 (A₀ W (Proc.devRef .tc main_v13)) ch = Sk W ch 4 := by
  have e : @Eq 𝕍 (A₀ W (Proc.devRef .tc main_v13)) (rowOf W 4 slices_S5x256_S1x256_4_0) := by after_results_simp <;> rfl
  exact (congrFun e (ix1 ch)).trans (rowOf_at W 4 4 rfl _ ch)

/-- The mean of the real parts … -/
abbrev μr (W : Valuation τ sig (Elt Ideal)) (ch : Fin 256) : EReal := Ideal.div (Sk W ch 0) Cert.Bn.nI
/-- … and of the imaginary parts. -/
abbrev μi (W : Valuation τ sig (Elt Ideal)) (ch : Fin 256) : EReal := Ideal.div (Sk W ch 1) Cert.Bn.nI
/-- The regularised covariance entries from the raw moments. -/
abbrev Vrr (W : Valuation τ sig (Elt Ideal)) (ch : Fin 256) : EReal :=
  (Ideal.div (Sk W ch 2) Cert.Bn.nI - μr W ch * μr W ch) + Cert.Bn.εI
abbrev Vii (W : Valuation τ sig (Elt Ideal)) (ch : Fin 256) : EReal :=
  (Ideal.div (Sk W ch 3) Cert.Bn.nI - μi W ch * μi W ch) + Cert.Bn.εI
abbrev Vri (W : Valuation τ sig (Elt Ideal)) (ch : Fin 256) : EReal :=
  Ideal.div (Sk W ch 4) Cert.Bn.nI - μr W ch * μi W ch

theorem v15_at (W : Valuation τ sig (Elt Ideal)) (ch : Fin 256) : at1 (A₀ W (Proc.devRef .tc main_v15)) ch = μr W ch := by
  have e : @Eq 𝕍 (A₀ W (Proc.devRef .tc main_v15)) (Host.divf (A₀ W (Proc.devRef .tc main_v5)) (splat 0x48000000#32)) := by after_results_simp <;> rfl
  refine (congrFun e (ix1 ch)).trans ?_
  show at1 (Host.divf (A₀ W (Proc.devRef .tc main_v5)) (splat 0x48000000#32)) ch = _
  simp only [sqrt_at, div_at, mul_at, add_at, sub_at, splat_at]
  rw [v5_at]
  first | done | exact rfl

theorem v17_at (W : Valuation τ sig (Elt Ideal)) (ch : Fin 256) : at1 (A₀ W (Proc.devRef .tc main_v17)) ch = μi W ch := by
  have e : @Eq 𝕍 (A₀ W (Proc.devRef .tc main_v17)) (Host.divf (A₀ W (Proc.devRef .tc main_v7)) (splat 0x48000000#32)) := by after_results_simp <;> rfl
  refine (congrFun e (ix1 ch)).trans ?_
  show at1 (Host.divf (A₀ W (Proc.devRef .tc main_v7)) (splat 0x48000000#32)) ch = _
  simp only [sqrt_at, div_at, mul_at, add_at, sub_at, splat_at]
  rw [v7_at]
  first | done | exact rfl

theorem v19_at (W : Valuation τ sig (Elt Ideal)) (ch : Fin 256) : at1 (A₀ W (Proc.devRef .tc main_v19)) ch = Ideal.div (Sk W ch 2) Cert.Bn.nI := by
  have e : @Eq 𝕍 (A₀ W (Proc.devRef .tc main_v19)) (Host.divf (A₀ W (Proc.devRef .tc main_v9)) (splat 0x48000000#32)) := by after_results_simp <;> rfl
  refine (congrFun e (ix1 ch)).trans ?_
  show at1 (Host.divf (A₀ W (Proc.devRef .tc main_v9)) (splat 0x48000000#32)) ch = _
  simp only [sqrt_at, div_at, mul_at, add_at, sub_at, splat_at]
  rw [v9_at]
  first | done | exact rfl

theorem v25_at (W : Valuation τ sig (Elt Ideal)) (ch : Fin 256) : at1 (A₀ W (Proc.devRef .tc main_v25)) ch = Ideal.div (Sk W ch 3) Cert.Bn.nI := by
  have e : @Eq 𝕍 (A₀ W (Proc.devRef .tc main_v25)) (Host.divf (A₀ W (Proc.devRef .tc main_v11)) (splat 0x48000000#32)) := by after_results_simp <;> rfl
  refine (congrFun e (ix1 ch)).trans ?_
  show at1 (Host.divf (A₀ W (Proc.devRef .tc main_v11)) (splat 0x48000000#32)) ch = _
  simp only [sqrt_at, div_at, mul_at, add_at, sub_at, splat_at]
  rw [v11_at]
  first | done | exact rfl

theorem v31_at (W : Valuation τ sig (Elt Ideal)) (ch : Fin 256) : at1 (A₀ W (Proc.devRef .tc main_v31)) ch = Ideal.div (Sk W ch 4) Cert.Bn.nI := by
  have e : @Eq 𝕍 (A₀ W (Proc.devRef .tc main_v31)) (Host.divf (A₀ W (Proc.devRef .tc main_v13)) (splat 0x48000000#32)) := by after_results_simp <;> rfl
  refine (congrFun e (ix1 ch)).trans ?_
  show at1 (Host.divf (A₀ W (Proc.devRef .tc main_v13)) (splat 0x48000000#32)) ch = _
  simp only [sqrt_at, div_at, mul_at, add_at, sub_at, splat_at]
  rw [v13_at]
  first | done | exact rfl

theorem v23_at (W : Valuation τ sig (Elt Ideal)) (ch : Fin 256) : at1 (A₀ W (Proc.devRef .tc main_v23)) ch = Vrr W ch := by
  have e : @Eq 𝕍 (A₀ W (Proc.devRef .tc main_v23)) (addf (subf (A₀ W (Proc.devRef .tc main_v19)) (mulf (A₀ W (Proc.devRef .tc main_v15)) (A₀ W (Proc.devRef .tc main_v15)))) (splat 0x3727C5AC#32)) := by after_results_simp <;> rfl
  refine (congrFun e (ix1 ch)).trans ?_
  show at1 (addf (subf (A₀ W (Proc.devRef .tc main_v19)) (mulf (A₀ W (Proc.devRef .tc main_v15)) (A₀ W (Proc.devRef .tc main_v15)))) (splat 0x3727C5AC#32)) ch = _
  simp only [sqrt_at, div_at, mul_at, add_at, sub_at, splat_at]
  rw [v19_at, v15_at]
  first | done | exact rfl

theorem v29_at (W : Valuation τ sig (Elt Ideal)) (ch : Fin 256) : at1 (A₀ W (Proc.devRef .tc main_v29)) ch = Vii W ch := by
  have e : @Eq 𝕍 (A₀ W (Proc.devRef .tc main_v29)) (addf (subf (A₀ W (Proc.devRef .tc main_v25)) (mulf (A₀ W (Proc.devRef .tc main_v17)) (A₀ W (Proc.devRef .tc main_v17)))) (splat 0x3727C5AC#32)) := by after_results_simp <;> rfl
  refine (congrFun e (ix1 ch)).trans ?_
  show at1 (addf (subf (A₀ W (Proc.devRef .tc main_v25)) (mulf (A₀ W (Proc.devRef .tc main_v17)) (A₀ W (Proc.devRef .tc main_v17)))) (splat 0x3727C5AC#32)) ch = _
  simp only [sqrt_at, div_at, mul_at, add_at, sub_at, splat_at]
  rw [v25_at, v17_at]
  first | done | exact rfl

theorem v33_at (W : Valuation τ sig (Elt Ideal)) (ch : Fin 256) : at1 (A₀ W (Proc.devRef .tc main_v33)) ch = Vri W ch := by
  have e : @Eq 𝕍 (A₀ W (Proc.devRef .tc main_v33)) (subf (A₀ W (Proc.devRef .tc main_v31)) (mulf (A₀ W (Proc.devRef .tc main_v15)) (A₀ W (Proc.devRef .tc main_v17)))) := by after_results_simp <;> rfl
  refine (congrFun e (ix1 ch)).trans ?_
  show at1 (subf (A₀ W (Proc.devRef .tc main_v31)) (mulf (A₀ W (Proc.devRef .tc main_v15)) (A₀ W (Proc.devRef .tc main_v17)))) ch = _
  simp only [sqrt_at, div_at, mul_at, add_at, sub_at, splat_at]
  rw [v31_at, v15_at, v17_at]
  first | done | exact rfl

theorem v37_at (W : Valuation τ sig (Elt Ideal)) (ch : Fin 256) : at1 (A₀ W (Proc.devRef .tc main_v37)) ch = Cert.Bn.sOf Ideal.sqrt (Vrr W ch) (Vii W ch) (Vri W ch) := by
  have e : @Eq 𝕍 (A₀ W (Proc.devRef .tc main_v37)) (Host.sqrt (subf (mulf (A₀ W (Proc.devRef .tc main_v23)) (A₀ W (Proc.devRef .tc main_v29))) (mulf (A₀ W (Proc.devRef .tc main_v33)) (A₀ W (Proc.devRef .tc main_v33))))) := by after_results_simp <;> rfl
  refine (congrFun e (ix1 ch)).trans ?_
  show at1 (Host.sqrt (subf (mulf (A₀ W (Proc.devRef .tc main_v23)) (A₀ W (Proc.devRef .tc main_v29))) (mulf (A₀ W (Proc.devRef .tc main_v33)) (A₀ W (Proc.devRef .tc main_v33))))) ch = _
  simp only [sqrt_at, div_at, mul_at, add_at, sub_at, splat_at]
  rw [v23_at, v29_at, v33_at]
  first | done | exact rfl

theorem v45_at (W : Valuation τ sig (Elt Ideal)) (ch : Fin 256) : at1 (A₀ W (Proc.devRef .tc main_v45)) ch = Cert.Bn.invOf Ideal.sqrt Ideal.div Cert.Bn.oneI Cert.Bn.twoI (Vrr W ch) (Vii W ch) (Vri W ch) := by
  have e : @Eq 𝕍 (A₀ W (Proc.devRef .tc main_v45)) (Host.divf (splat 0x3F800000#32) (mulf (A₀ W (Proc.devRef .tc main_v37)) (Host.sqrt (addf (addf (A₀ W (Proc.devRef .tc main_v23)) (A₀ W (Proc.devRef .tc main_v29))) (mulf (splat 0x40000000#32) (A₀ W (Proc.devRef .tc main_v37))))))) := by after_results_simp <;> rfl
  refine (congrFun e (ix1 ch)).trans ?_
  show at1 (Host.divf (splat 0x3F800000#32) (mulf (A₀ W (Proc.devRef .tc main_v37)) (Host.sqrt (addf (addf (A₀ W (Proc.devRef .tc main_v23)) (A₀ W (Proc.devRef .tc main_v29))) (mulf (splat 0x40000000#32) (A₀ W (Proc.devRef .tc main_v37))))))) ch = _
  simp only [sqrt_at, div_at, mul_at, add_at, sub_at, splat_at]
  rw [v37_at, v23_at, v29_at]
  first | done | exact rfl

theorem v47_at (W : Valuation τ sig (Elt Ideal)) (ch : Fin 256) : at1 (A₀ W (Proc.devRef .tc main_v47)) ch = Cert.Bn.rrrOf Ideal.sqrt Ideal.div Cert.Bn.oneI Cert.Bn.twoI (Vrr W ch) (Vii W ch) (Vri W ch) := by
  have e : @Eq 𝕍 (A₀ W (Proc.devRef .tc main_v47)) (mulf (addf (A₀ W (Proc.devRef .tc main_v29)) (A₀ W (Proc.devRef .tc main_v37))) (A₀ W (Proc.devRef .tc main_v45))) := by after_results_simp <;> rfl
  refine (congrFun e (ix1 ch)).trans ?_
  show at1 (mulf (addf (A₀ W (Proc.devRef .tc main_v29)) (A₀ W (Proc.devRef .tc main_v37))) (A₀ W (Proc.devRef .tc main_v45))) ch = _
  simp only [sqrt_at, div_at, mul_at, add_at, sub_at, splat_at]
  rw [v29_at, v37_at, v45_at]
  first | done | exact rfl

theorem v49_at (W : Valuation τ sig (Elt Ideal)) (ch : Fin 256) : at1 (A₀ W (Proc.devRef .tc main_v49)) ch = Cert.Bn.riiOf Ideal.sqrt Ideal.div Cert.Bn.oneI Cert.Bn.twoI (Vrr W ch) (Vii W ch) (Vri W ch) := by
  have e : @Eq 𝕍 (A₀ W (Proc.devRef .tc main_v49)) (mulf (addf (A₀ W (Proc.devRef .tc main_v23)) (A₀ W (Proc.devRef .tc main_v37))) (A₀ W (Proc.devRef .tc main_v45))) := by after_results_simp <;> rfl
  refine (congrFun e (ix1 ch)).trans ?_
  show at1 (mulf (addf (A₀ W (Proc.devRef .tc main_v23)) (A₀ W (Proc.devRef .tc main_v37))) (A₀ W (Proc.devRef .tc main_v45))) ch = _
  simp only [sqrt_at, div_at, mul_at, add_at, sub_at, splat_at]
  rw [v23_at, v37_at, v45_at]
  first | done | exact rfl

/-- The first stretch leaves the weights and the biases as they were. -/
theorem arg2_keep (W : Valuation τ sig (Elt Ideal)) :
    A₀ W (Proc.devRef .tc main_arg2) = W (Proc.devRef .tc main_arg2) := by after_results_simp
theorem arg3_keep (W : Valuation τ sig (Elt Ideal)) :
    A₀ W (Proc.devRef .tc main_arg3) = W (Proc.devRef .tc main_arg3) := by after_results_simp

/-! ## The second stretch of host lines: the folded coefficients and the table of eight columns -/

local notation "A₁" => StableHlo.after (main_part1_ops0 (F := Ideal))

/-- A concatenation of eight one-column tables along the columns, at (channel, j): column `j` at the channel. -/
theorem concat8_apply (u : Fin 8 → S256x1.Idx → EReal)
    (h : Shape.Concatenates (([⟨S256x1, u 0⟩, ⟨S256x1, u 1⟩, ⟨S256x1, u 2⟩, ⟨S256x1, u 3⟩, ⟨S256x1, u 4⟩, ⟨S256x1, u 5⟩,
      ⟨S256x1, u 6⟩, ⟨S256x1, u 7⟩] : List ((s : Shape) × (s.Idx → EReal))).map (·.1)) S256x8 1)
    (ch : Fin 256) (j : Fin 8) :
    concatenate S256x8 1 [⟨S256x1, u 0⟩, ⟨S256x1, u 1⟩, ⟨S256x1, u 2⟩, ⟨S256x1, u 3⟩, ⟨S256x1, u 4⟩, ⟨S256x1, u 5⟩,
      ⟨S256x1, u 6⟩, ⟨S256x1, u 7⟩] h (ix2 ch j) = u j (ix2 ch (0 : Fin 1)) := by
  have hi : ∀ b : Fin S256x1.rank, b.cast (rfl : S256x1.rank = S256x8.rank) ≠ (1 : Fin S256x8.rank) →
      ((ix2 ch (0 : Fin 1) : S256x1.Idx) b).val = ((ix2 ch j : S256x8.Idx) (b.cast rfl)).val := fun b hb => by
    match b with
    | ⟨0, _⟩ => rfl
    | ⟨1, _⟩ => exact absurd rfl hb
  match j with
  | ⟨0, _⟩ => exact concatenate_apply_piece 1 _ h _ 0 (by simp) S256x1 (u 0) rfl rfl 0 rfl _ hi rfl
  | ⟨1, _⟩ => exact concatenate_apply_piece 1 _ h _ 1 (by simp) S256x1 (u 1) rfl rfl 1 rfl _ hi rfl
  | ⟨2, _⟩ => exact concatenate_apply_piece 1 _ h _ 2 (by simp) S256x1 (u 2) rfl rfl 2 rfl _ hi rfl
  | ⟨3, _⟩ => exact concatenate_apply_piece 1 _ h _ 3 (by simp) S256x1 (u 3) rfl rfl 3 rfl _ hi rfl
  | ⟨4, _⟩ => exact concatenate_apply_piece 1 _ h _ 4 (by simp) S256x1 (u 4) rfl rfl 4 rfl _ hi rfl
  | ⟨5, _⟩ => exact concatenate_apply_piece 1 _ h _ 5 (by simp) S256x1 (u 5) rfl rfl 5 rfl _ hi rfl
  | ⟨6, _⟩ => exact concatenate_apply_piece 1 _ h _ 6 (by simp) S256x1 (u 6) rfl rfl 6 rfl _ hi rfl
  | ⟨7, _⟩ => exact concatenate_apply_piece 1 _ h _ 7 (by simp) S256x1 (u 7) rfl rfl 7 rfl _ hi rfl

/-- What an operation of eight literal operands leaves in its result: its function at each operand's own contents. -/
theorem nary8_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal))
    (hxs hy) (F : Valuation τ sig (Elt Ideal)) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl
theorem nary8_result' {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal))
    (hxs hy) (F : Valuation τ sig (Elt Ideal)) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) :=
  nary8_result f hxs hy F

/-- Weight `(oa, ob)` as a vector over the channels, as the host lines cut it out. -/
abbrev wv (W : Valuation τ sig (Elt Ideal)) (oa ob : Nat) (hs : S2x2x256.Slices ![oa, ob, 0] S1x1x256) : 𝕍 :=
  fun i => shapeCast S256 (extractStridedSlice S1x1x256 ![oa, ob, 0] (W (Proc.devRef .tc main_arg2)) hs) shapeCasts_S1x1x256_S256 i
/-- Bias `o` as a vector over the channels. -/
abbrev bv (W : Valuation τ sig (Elt Ideal)) (o : Nat) (hs : S2x256.Slices ![o, 0] S1x256) : 𝕍 :=
  fun i => shapeCast S256 (extractStridedSlice S1x256 ![o, 0] (W (Proc.devRef .tc main_arg3)) hs) shapeCasts_S1x256_S256 i
/-- The off-diagonal whitening entry. -/
abbrev rriv (W : Valuation τ sig (Elt Ideal)) : 𝕍 :=
  mulf (Host.negf (W (Proc.devRef .tc main_v33) : 𝕍)) (W (Proc.devRef .tc main_v45) : 𝕍)

/-- The eight coefficient vectors, from the contents the second stretch starts at. -/
def cols (W : Valuation τ sig (Elt Ideal)) : Fin 8 → 𝕍
  | ⟨0, _⟩ => W (Proc.devRef .tc main_v15)
  | ⟨1, _⟩ => W (Proc.devRef .tc main_v17)
  | ⟨2, _⟩ => addf (mulf (wv W 0 0 slices_S2x2x256_S1x1x256_0_0_0) (W (Proc.devRef .tc main_v47) : 𝕍))
                (mulf (wv W 0 1 slices_S2x2x256_S1x1x256_0_1_0) (rriv W))
  | ⟨3, _⟩ => addf (mulf (wv W 0 0 slices_S2x2x256_S1x1x256_0_0_0) (rriv W))
                (mulf (wv W 0 1 slices_S2x2x256_S1x1x256_0_1_0) (W (Proc.devRef .tc main_v49) : 𝕍))
  | ⟨4, _⟩ => addf (mulf (wv W 1 0 slices_S2x2x256_S1x1x256_1_0_0) (W (Proc.devRef .tc main_v47) : 𝕍))
                (mulf (wv W 1 1 slices_S2x2x256_S1x1x256_1_1_0) (rriv W))
  | ⟨5, _⟩ => addf (mulf (wv W 1 0 slices_S2x2x256_S1x1x256_1_0_0) (rriv W))
                (mulf (wv W 1 1 slices_S2x2x256_S1x1x256_1_1_0) (W (Proc.devRef .tc main_v49) : 𝕍))
  | ⟨6, _⟩ => bv W 0 slices_S2x256_S1x256_0_0
  | ⟨_ + 7, _⟩ => bv W 1 slices_S2x256_S1x256_1_0

/-- Column `k` of the table: coefficient vector `k` as a one-column table. -/
abbrev colT (W : Valuation τ sig (Elt Ideal)) (k : Fin 8) : S256x1.Idx → EReal :=
  broadcastInDim S256x1 ![0] bcast_S256_S256x1_0 (cols W k)

theorem v84_eq (W : Valuation τ sig (Elt Ideal)) :
    (A₁ W (Proc.devRef .tc main_v84) : S256x8.Idx → EReal)
      = concatenate S256x8 1 [⟨S256x1, colT W 0⟩, ⟨S256x1, colT W 1⟩, ⟨S256x1, colT W 2⟩, ⟨S256x1, colT W 3⟩,
          ⟨S256x1, colT W 4⟩, ⟨S256x1, colT W 5⟩, ⟨S256x1, colT W 6⟩, ⟨S256x1, colT W 7⟩]
          concatenates_S256x1_S256x1_S256x1_S256x1_S256x1_S256x1_S256x1_S256x1_S256x8_d1 := by
  simp (disch := decide) only [after_cons, after_nil, nary8_result', unary_result', binary_result', reshape_result',
    unary_result_ne', binary_result_ne', reshape_result_ne', nary_result_ne'] <;> rfl

theorem v84_at (W : Valuation τ sig (Elt Ideal)) (ch : Fin 256) (j : Fin 8) :
    (A₁ W (Proc.devRef .tc main_v84) : S256x8.Idx → EReal) (ix2 ch j) = cols W j (ix1 ch) :=
  (congrFun (v84_eq W) (ix2 ch j)).trans
    ((concat8_apply (colT W) _ ch j).trans (col_apply (cols W j) _ ch 0))

/-! ## The two stretches together -/

theorem wv_at (W : Valuation τ sig (Elt Ideal)) (a b : Fin 2) (oa ob : Nat) (ha : oa = a.val) (hb : ob = b.val)
    (hs : S2x2x256.Slices ![oa, ob, 0] S1x1x256) (ch : Fin 256) :
    at1 (wv (A₀ W) oa ob hs) ch = (W (Proc.devRef .tc main_arg2) : S2x2x256.Idx → EReal) (ix3 a b ch) :=
  (cell22_apply (A₀ W (Proc.devRef .tc main_arg2)) a b oa ob ha hb hs _ ch).trans (congrFun (arg2_keep W) (ix3 a b ch))

theorem bv_at (W : Valuation τ sig (Elt Ideal)) (k : Fin 2) (o : Nat) (ho : o = k.val) (hs : S2x256.Slices ![o, 0] S1x256) (ch : Fin 256) :
    at1 (bv (A₀ W) o hs) ch = (W (Proc.devRef .tc main_arg3) : S2x256.Idx → EReal) (ix2 k ch) :=
  (row2_apply (A₀ W (Proc.devRef .tc main_arg3)) k o ho hs _ ch).trans (congrFun (arg3_keep W) (ix2 k ch))

theorem rriv_at (W : Valuation τ sig (Elt Ideal)) (ch : Fin 256) :
    at1 (rriv (A₀ W)) ch = Cert.Bn.rriOf Ideal.sqrt Ideal.div Cert.Bn.oneI Cert.Bn.twoI (Vrr W ch) (Vii W ch) (Vri W ch) := by
  show at1 (mulf (Host.negf (A₀ W (Proc.devRef .tc main_v33))) (A₀ W (Proc.devRef .tc main_v45))) ch = _
  simp only [mul_at, neg_at]
  rw [v33_at, v45_at]
  first | done | exact rfl

/-- Entry (channel, j) of the table the host lines build is coefficient `j` of the channel. -/
theorem coef_apply (W : Valuation τ sig (Elt Ideal)) (ch : Fin 256) (j : Fin 8) :
    StableHlo.after (main_part1_ops0 (F := Ideal)) (StableHlo.after (main_part0_ops1 (F := Ideal)) W)
        (Proc.devRef .tc main_v84) (ix2 ch j)
      = Cert.Bn.coefK
          (fun k => Ideal.ofBits .f32 0x00000000#32 + (∑ p : Fin 2, W (Proc.devRef .tc main_v2) (ix3 p k ch) : EReal))
          (W (Proc.devRef .tc main_arg2) (ix3 (0 : Fin 2) (0 : Fin 2) ch))
          (W (Proc.devRef .tc main_arg2) (ix3 (0 : Fin 2) (1 : Fin 2) ch))
          (W (Proc.devRef .tc main_arg2) (ix3 (1 : Fin 2) (0 : Fin 2) ch))
          (W (Proc.devRef .tc main_arg2) (ix3 (1 : Fin 2) (1 : Fin 2) ch))
          (W (Proc.devRef .tc main_arg3) (ix2 (0 : Fin 2) ch)) (W (Proc.devRef .tc main_arg3) (ix2 (1 : Fin 2) ch)) j := by
  refine (v84_at (A₀ W) ch j).trans ?_
  match j with
  | ⟨0, _⟩ => exact v15_at W ch
  | ⟨1, _⟩ => exact v17_at W ch
  | ⟨2, _⟩ =>
    show at1 (addf (mulf (wv (A₀ W) 0 0 slices_S2x2x256_S1x1x256_0_0_0) (A₀ W (Proc.devRef .tc main_v47)))
      (mulf (wv (A₀ W) 0 1 slices_S2x2x256_S1x1x256_0_1_0) (rriv (A₀ W)))) ch = _
    simp only [add_at, mul_at, neg_at]
    rw [wv_at W 0 0 0 0 rfl rfl, wv_at W 0 1 0 1 rfl rfl, v47_at, v33_at, v45_at]
    first | done | exact rfl
  | ⟨3, _⟩ =>
    show at1 (addf (mulf (wv (A₀ W) 0 0 slices_S2x2x256_S1x1x256_0_0_0) (rriv (A₀ W)))
      (mulf (wv (A₀ W) 0 1 slices_S2x2x256_S1x1x256_0_1_0) (A₀ W (Proc.devRef .tc main_v49)))) ch = _
    simp only [add_at, mul_at, neg_at]
    rw [wv_at W 0 0 0 0 rfl rfl, wv_at W 0 1 0 1 rfl rfl, v33_at, v45_at, v49_at]
    first | done | exact rfl
  | ⟨4, _⟩ =>
    show at1 (addf (mulf (wv (A₀ W) 1 0 slices_S2x2x256_S1x1x256_1_0_0) (A₀ W (Proc.devRef .tc main_v47)))
      (mulf (wv (A₀ W) 1 1 slices_S2x2x256_S1x1x256_1_1_0) (rriv (A₀ W)))) ch = _
    simp only [add_at, mul_at, neg_at]
    rw [wv_at W 1 0 1 0 rfl rfl, wv_at W 1 1 1 1 rfl rfl, v47_at, v33_at, v45_at]
    first | done | exact rfl
  | ⟨5, _⟩ =>
    show at1 (addf (mulf (wv (A₀ W) 1 0 slices_S2x2x256_S1x1x256_1_0_0) (rriv (A₀ W)))
      (mulf (wv (A₀ W) 1 1 slices_S2x2x256_S1x1x256_1_1_0) (A₀ W (Proc.devRef .tc main_v49)))) ch = _
    simp only [add_at, mul_at, neg_at]
    rw [wv_at W 1 0 1 0 rfl rfl, wv_at W 1 1 1 1 rfl rfl, v33_at, v45_at, v49_at]
    first | done | exact rfl
  | ⟨6, _⟩ => exact bv_at W 0 0 rfl _ ch
  | ⟨_ + 7, _⟩ => exact bv_at W 1 1 rfl _ ch

end Cert.KernelIdeal.CoefVal
end
-- ==== Proof.Reindex.lean ====
/-
  Re-indexing the sum over a channel's positions.  A position is a batch entry and a pixel.  The batch entry is written in
  mixed radix — the half of the batch, the step within the half, the entry of the pair handled in one step —, and the pixel
  as `row · 64 + column`.  Both writings are bijections, so the fourfold sum over (half, step, entry, flat pixel) is the sum
  over all (batch entry, row, column).
-/
import Mathlib

namespace Cert.Bn

/-- The batch entry of half `p`, step `b`, entry `bb` of the pair. -/
def row (p : Fin 2) (b : Fin 8) (bb : Fin 2) : Fin 32 := ⟨2 * (8 * p.val + b.val) + bb.val, by omega⟩
/-- The row of a flat pixel. -/
def hwY (hw : Fin 4096) : Fin 64 := ⟨hw.val / 64, by omega⟩
/-- The column of a flat pixel. -/
def hwX (hw : Fin 4096) : Fin 64 := ⟨hw.val % 64, by omega⟩

/-- The mixed-radix writing of a batch entry is a bijection. -/
def rowEquiv : Fin 2 × Fin 8 × Fin 2 ≃ Fin 32 where
  toFun t := row t.1 t.2.1 t.2.2
  invFun q := (⟨q.val / 16, by omega⟩, ⟨q.val / 2 % 8, by omega⟩, ⟨q.val % 2, by omega⟩)
  left_inv t := by
    obtain ⟨p, b, bb⟩ := t
    refine Prod.ext (Fin.ext ?_) (Prod.ext (Fin.ext ?_) (Fin.ext ?_))
    · show (2 * (8 * p.val + b.val) + bb.val) / 16 = p.val
      omega
    · show (2 * (8 * p.val + b.val) + bb.val) / 2 % 8 = b.val
      omega
    · show (2 * (8 * p.val + b.val) + bb.val) % 2 = bb.val
      omega
  right_inv q := by
    refine Fin.ext ?_
    show 2 * (8 * (q.val / 16) + q.val / 2 % 8) + q.val % 2 = q.val
    omega

/-- A flat pixel is its row and column. -/
def hwEquiv : Fin 4096 ≃ Fin 64 × Fin 64 where
  toFun hw := (hwY hw, hwX hw)
  invFun t := ⟨t.1.val * 64 + t.2.val, by omega⟩
  left_inv hw := by
    refine Fin.ext ?_
    show hw.val / 64 * 64 + hw.val % 64 = hw.val
    omega
  right_inv t := by
    obtain ⟨y, x⟩ := t
    refine Prod.ext (Fin.ext ?_) (Fin.ext ?_)
    · show (y.val * 64 + x.val) / 64 = y.val
      omega
    · show (y.val * 64 + x.val) % 64 = x.val
      omega

/-- The sum over (half, step, entry, flat pixel) is the sum over all (batch entry, row, column). -/
theorem sum_pos {M : Type*} [AddCommMonoid M] (f : Fin 32 → Fin 64 → Fin 64 → M) :
    ∑ p : Fin 2, ∑ b : Fin 8, ∑ bb : Fin 2, ∑ hw : Fin 4096, f (row p b bb) (hwY hw) (hwX hw)
      = ∑ q : Fin 32 × Fin 64 × Fin 64, f q.1 q.2.1 q.2.2 := by
  symm
  calc ∑ q : Fin 32 × Fin 64 × Fin 64, f q.1 q.2.1 q.2.2
      = ∑ r : Fin 32, ∑ yx : Fin 64 × Fin 64, f r yx.1 yx.2 := Fintype.sum_prod_type _
    _ = ∑ t : Fin 2 × Fin 8 × Fin 2, ∑ yx : Fin 64 × Fin 64, f (rowEquiv t) yx.1 yx.2 :=
        (Equiv.sum_comp rowEquiv (fun r => ∑ yx : Fin 64 × Fin 64, f r yx.1 yx.2)).symm
    _ = ∑ p : Fin 2, ∑ b : Fin 8, ∑ bb : Fin 2, ∑ yx : Fin 64 × Fin 64, f (row p b bb) yx.1 yx.2 := by
        rw [Fintype.sum_prod_type]
        refine Finset.sum_congr rfl fun p _ => ?_
        rw [Fintype.sum_prod_type]
        rfl
    _ = ∑ p : Fin 2, ∑ b : Fin 8, ∑ bb : Fin 2, ∑ hw : Fin 4096, f (row p b bb) (hwY hw) (hwX hw) := by
        refine Finset.sum_congr rfl fun p _ => Finset.sum_congr rfl fun b _ => Finset.sum_congr rfl fun bb _ => ?_
        exact (Equiv.sum_comp hwEquiv (fun yx : Fin 64 × Fin 64 => f (row p b bb) yx.1 yx.2)).symm

end Cert.Bn
-- ==== Proof.KI.KVal.lean ====
/-
  What the kernels' program returns, element by element, at the ideal instance. The contents of the result buffer after the
  closing reshape are followed back through the run's boundaries: the transform kernel's output array (each element
  `c₂·(x − c₀) + c₃·(y − c₁) + c₆`, or `c₄·… + c₅·… + c₇` for the second row, of its channel's row of the coefficient
  table), the table as the host lines compute it from the statistics kernel's partial sums, those partial sums as block
  sums of the inputs with their image axes merged, and the merged inputs as re-indexings of the argument arrays. Batch
  entry `n` is entry `bb` of the pair fetched at step `b` of half `p`, `n = 2 (8 p + b) + bb`, and pixel `hw` is row
  `hw / 64`, column `hw % 64`: summing over (p, b, bb, hw) is summing over all positions of the channel. The result is the
  specification's `Gk` of the four argument arrays.
-/
import proofs.«121567_j27676769255584_2_alg».proof.Proof.KI.Run
import proofs.«121567_j27676769255584_2_alg».proof.Proof.KI.Val0
import proofs.«121567_j27676769255584_2_alg».proof.Proof.KI.Val1
import proofs.«121567_j27676769255584_2_alg».proof.Proof.KI.GkCoef
import proofs.«121567_j27676769255584_2_alg».proof.Proof.KI.Coef
import proofs.«121567_j27676769255584_2_alg».proof.Proof.Spec
import proofs.«121567_j27676769255584_2_alg».proof.Proof.Reindex
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The inputs as the kernels find them: the argument arrays, their two image axes merged -/

/-- The first reshape's result when the statistics kernel is entered. -/
theorem W1_v0 (c : Dev nD) : (W1 m ρ c (Proc.devRef .tc main_v0) : S32x256x4096.Idx → EReal)
    = shapeCast S32x256x4096 (m ((c : Thread nD τ).loc main_arg0)) shapeCasts_S32x256x64x64_S32x256x4096 := by
  show StableHlo.after main_part0_ops0 (W0 m ρ c) (Proc.devRef .tc main_v0) = _
  after_results; rfl
theorem W1_v1 (c : Dev nD) : (W1 m ρ c (Proc.devRef .tc main_v1) : S32x256x4096.Idx → EReal)
    = shapeCast S32x256x4096 (m ((c : Thread nD τ).loc main_arg1)) shapeCasts_S32x256x64x64_S32x256x4096 := by
  show StableHlo.after main_part0_ops0 (W0 m ρ c) (Proc.devRef .tc main_v1) = _
  after_results; rfl

/-- Merging the image axes: position `hw` of the merged axis is row `hw / 64`, column `hw % 64`. -/
theorem merge_apply (a : S32x256x64x64.Idx → EReal) (n : Fin 32) (ch : Fin 256) (hw : Fin 4096) :
    shapeCast S32x256x4096 a shapeCasts_S32x256x64x64_S32x256x4096 (ix3 n ch hw) = a (ix4 n ch (Cert.Bn.hwY hw) (Cert.Bn.hwX hw)) := by
  refine shapeCast_apply _ _ _ _ ?_
  rw [Shape.rowMajor_val_four, Shape.rowMajor_val_three]
  show ((n.val * 256 + ch.val) * 64 + hw.val / 64) * 64 + hw.val % 64 = (n.val * 256 + ch.val) * 4096 + hw.val
  omega

/-- Neither the statistics kernel nor the host lines write the merged inputs. -/
theorem W4_v0 (c : Dev nD) : W4 m ρ c (Proc.devRef .tc main_v0) = W1 m ρ c (Proc.devRef .tc main_v0) :=
  calc W4 m ρ c (Proc.devRef .tc main_v0)
    _ = W3 m ρ c (Proc.devRef .tc main_v0) := StableHlo.after_of_forall_not_mem (b := Proc.devRef .tc main_v0) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_v0) := (W2_arr m ρ c 0).trans (((dat0 (V1 m ρ) c).arrAt_in 0 rfl _).trans (A_eq0 (V1 m ρ) c 0))
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := StableHlo.after_of_forall_not_mem (b := Proc.devRef .tc main_v1) _ _ (List.forall_iff_forall_mem.mp (by
          simp only [main_part1_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [main_part0_ops1, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W1 m ρ c (Proc.devRef .tc main_v1) := (W2_arr m ρ c 1).trans (((dat0 (V1 m ρ) c).arrAt_in 1 rfl _).trans (A_eq0 (V1 m ρ) c 1))
/-- The weights and the biases are as launched when the host lines read them. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg2) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [main_part0_ops0, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg3) := rfl

/-! ## The closing reshape -/

theorem W6_v86 (c : Dev nD) : (W6 m ρ c (Proc.devRef .tc main_v86) : S2x32x256x64x64.Idx → EReal)
    = shapeCast S2x32x256x64x64 (W5 m ρ c (Proc.devRef .tc main_v85)) shapeCasts_S2x32x256x4096_S2x32x256x64x64 := by
  show StableHlo.after main_part1_ops1 (W5 m ρ c) (Proc.devRef .tc main_v86) = _
  after_results; rfl

/-- Splitting the merged axis again: element (y, x) of the image is position `64 y + x`. -/
theorem split_apply (a : S2x32x256x4096.Idx → EReal) (h : Fin 2) (n : Fin 32) (ch : Fin 256) (y x : Fin 64) :
    shapeCast S2x32x256x64x64 a shapeCasts_S2x32x256x4096_S2x32x256x64x64 (ix5 h n ch y x)
      = a (ix4 h n ch (⟨64 * y.val + x.val, by omega⟩ : Fin 4096)) := by
  refine shapeCast_apply _ _ _ _ ?_
  rw [Shape.rowMajor_val_four, Shape.rowMajor_val_five]
  show ((h.val * 32 + n.val) * 256 + ch.val) * 4096 + (64 * y.val + x.val) = (((h.val * 32 + n.val) * 256 + ch.val) * 64 + y.val) * 64 + x.val
  omega

/-! ## The argument arrays as launched -/

abbrev ar0 (c : Dev nD) : Cert.Bn.A4 := m ((c : Thread nD τ).loc main_arg0)
abbrev ar1 (c : Dev nD) : Cert.Bn.A4 := m ((c : Thread nD τ).loc main_arg1)
abbrev ar2 (c : Dev nD) : Cert.Bn.A3 := m ((c : Thread nD τ).loc main_arg2)
abbrev ar3 (c : Dev nD) : Cert.Bn.A2 := m ((c : Thread nD τ).loc main_arg3)

/-- What the statistics kernel reads at (n, ch, hw) is the argument at (n, ch, hw / 64, hw % 64). -/
theorem V1_v0_apply (c : Dev nD) (n : Fin 32) (ch : Fin 256) (hw : Fin 4096) :
    V1 m ρ c main_v0 (ix3 n ch hw) = ar0 m c (ix4 n ch (Cert.Bn.hwY hw) (Cert.Bn.hwX hw)) := by
  show (W1 m ρ c (Proc.devRef .tc main_v0) : S32x256x4096.Idx → EReal) (ix3 n ch hw) = _
  rw [W1_v0]; exact merge_apply _ n ch hw
theorem V1_v1_apply (c : Dev nD) (n : Fin 32) (ch : Fin 256) (hw : Fin 4096) :
    V1 m ρ c main_v1 (ix3 n ch hw) = ar1 m c (ix4 n ch (Cert.Bn.hwY hw) (Cert.Bn.hwX hw)) := by
  show (W1 m ρ c (Proc.devRef .tc main_v1) : S32x256x4096.Idx → EReal) (ix3 n ch hw) = _
  rw [W1_v1]; exact merge_apply _ n ch hw

/-- What the transform kernel reads at (n, ch, 64 y + x) is the argument at (n, ch, y, x). -/
theorem V4_v0_apply (c : Dev nD) (n : Fin 32) (ch : Fin 256) (y x : Fin 64) :
    act0 (V4 m ρ) c (ix3 n ch (⟨64 * y.val + x.val, by omega⟩ : Fin 4096)) = ar0 m c (ix4 n ch y x) := by
  show (W4 m ρ c (Proc.devRef .tc main_v0) : S32x256x4096.Idx → EReal) (ix3 n ch _) = _
  rw [W4_v0, W1_v0, merge_apply]
  have hy : Cert.Bn.hwY (⟨64 * y.val + x.val, by omega⟩ : Fin 4096) = y := Fin.ext (by show (64 * y.val + x.val) / 64 = y.val; omega)
  have hx : Cert.Bn.hwX (⟨64 * y.val + x.val, by omega⟩ : Fin 4096) = x := Fin.ext (by show (64 * y.val + x.val) % 64 = x.val; omega)
  rw [hy, hx]
theorem V4_v1_apply (c : Dev nD) (n : Fin 32) (ch : Fin 256) (y x : Fin 64) :
    act1 (V4 m ρ) c (ix3 n ch (⟨64 * y.val + x.val, by omega⟩ : Fin 4096)) = ar1 m c (ix4 n ch y x) := by
  show (W4 m ρ c (Proc.devRef .tc main_v1) : S32x256x4096.Idx → EReal) (ix3 n ch _) = _
  rw [W4_v1, W1_v1, merge_apply]
  have hy : Cert.Bn.hwY (⟨64 * y.val + x.val, by omega⟩ : Fin 4096) = y := Fin.ext (by show (64 * y.val + x.val) / 64 = y.val; omega)
  have hx : Cert.Bn.hwX (⟨64 * y.val + x.val, by omega⟩ : Fin 4096) = x := Fin.ext (by show (64 * y.val + x.val) % 64 = x.val; omega)
  rw [hy, hx]

/-! ## The statistics: the two halves' partial sums add up to the channel's raw moments -/

/-- The statistics kernel's result array at its exit: per half of the batch, five rows of per-channel sums. -/
abbrev parts (c : Dev nD) : S2x5x256.Idx → EReal := W2 m ρ c (Proc.devRef .tc main_v2)

theorem parts_sum (c : Dev nD) (ch : Fin 256) (k : Fin 5) :
    Ideal.ofBits .f32 0x00000000#32 + ∑ p : Fin 2, parts m ρ c (ix3 p k ch)
      = Cert.Bn.moments (ar0 m c) (ar1 m c) ch k := by
  rw [Ideal.ofBits_zero_f32, zero_add]
  refine Eq.trans ?_ ((Cert.Bn.sum_pos (fun n y x => PayVal.stat k (ar0 m c (ix4 n ch y x)) (ar1 m c (ix4 n ch y x)))).trans rfl)
  refine Finset.sum_congr rfl fun p _ => ?_
  have e : parts m ρ c = (dat0 (V1 m ρ) c).arrAt 2 cfg0.N := W2_arr m ρ c 2
  refine ((congrFun e (ix3 p k ch)).trans (final0_2 (V1 m ρ) c p k ch)).trans ?_
  refine Finset.sum_congr rfl fun b _ => Finset.sum_congr rfl fun bb _ => Finset.sum_congr rfl fun hw _ => ?_
  rw [V1_v0_apply, V1_v1_apply]
  rfl

/-! ## The coefficient table the transform kernel is handed -/

theorem coef_eq (c : Dev nD) (ch : Fin 256) (j : Fin 8) :
    coef (V4 m ρ) c (ix2 ch j) = Cert.Bn.coefOf (ar0 m c) (ar1 m c) (ar2 m c) (ar3 m c) ch j := by
  refine (CoefVal.coef_apply (W2 m ρ c) ch j).trans ?_
  have hS : ∀ k : Fin 5, (Ideal.ofBits .f32 0x00000000#32 + (∑ p : Fin 2, W2 m ρ c (Proc.devRef .tc main_v2) (ix3 p k ch) : EReal))
      = Cert.Bn.moments (ar0 m c) (ar1 m c) ch k := fun k => parts_sum m ρ c ch k
  simp only [hS, W2_arg2, W2_arg3]
  rfl

/-! ## The result -/

/-- Element (h, n, ch, y, x) of what the program returns. -/
theorem out_eq (c : Dev nD) (h : Fin 2) (n : Fin 32) (ch : Fin 256) (y x : Fin 64) :
    (W6 m ρ c (Proc.devRef .tc main_v86) : S2x32x256x64x64.Idx → EReal) (ix5 h n ch y x)
      = Cert.Bn.Gk (ar0 m c) (ar1 m c) (ar2 m c) (ar3 m c) h n ch y x := by
  rw [W6_v86, split_apply]
  have e : W5 m ρ c (Proc.devRef .tc main_v85) = (dat1 (V4 m ρ) c).arrAt 3 cfg1.N := W5_arr m ρ c 3
  rw [e]
  rcases (show h = (0 : Fin 2) ∨ h = (1 : Fin 2) from by
      rcases h with ⟨v, hv⟩
      rcases v with _ | _ | v
      · exact Or.inl rfl
      · exact Or.inr rfl
      · exact absurd hv (by omega)) with rfl | rfl
  · refine (final1_3_row0 (V4 m ρ) c n ch _).trans ?_
    rw [Cert.Bn.Gk_row0, coef_eq, coef_eq, coef_eq, coef_eq, coef_eq, V4_v0_apply, V4_v1_apply]
  · refine (final1_3_row1 (V4 m ρ) c n ch _).trans ?_
    rw [Cert.Bn.Gk_row1, coef_eq, coef_eq, coef_eq, coef_eq, coef_eq, V4_v0_apply, V4_v1_apply]

/-- The result buffer as one function of the argument arrays. -/
theorem result_eq (c : Dev nD) : (W6 m ρ c (Proc.devRef .tc main_v86) : S2x32x256x64x64.Idx → EReal)
    = fun j => Cert.Bn.Gk (ar0 m c) (ar1 m c) (ar2 m c) (ar3 m c) (j 0) (j 1) (j 2) (j 3) (j 4) := by
  funext j
  obtain ⟨h, n, ch, y, x, rfl⟩ : ∃ (h : Fin 2) (n : Fin 32) (ch : Fin 256) (y x : Fin 64), j = ix5 h n ch y x :=
    ⟨j 0, j 1, j 2, j 3, j 4, eq_ix5 j⟩
  exact out_eq m ρ c h n ch y x

/-- The kernels' program runs to the end with the result at `Gk` of the argument arrays, which are unchanged. -/
theorem run_Gk : θ_run (defs (F := Ideal)) (onTc (τ := τ) (main (F := Ideal))) ⟨m, fun _ => 0, ρ⟩ (fun r => ∀ c : Dev nD,
      r.2.mem ((c.tc : Thread nD τ).loc main_v86)
        = (fun j : S2x32x256x64x64.Idx => Cert.Bn.Gk (m ((c.tc : Thread nD τ).loc main_arg0)) (m ((c.tc : Thread nD τ).loc main_arg1))
            (m ((c.tc : Thread nD τ).loc main_arg2)) (m ((c.tc : Thread nD τ).loc main_arg3)) (j 0) (j 1) (j 2) (j 3) (j 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v86 (by decide))).trans (result_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_main (F := Ideal) m ρ)

end Cert.KernelIdeal.Hand

end
-- ==== Proof.RefVal.lean ====
/-
  The value of the reference program at the ideal instance: every execution ends with the result array holding, at each
  index (h, n, c, y, x), the specification's element `Cert.Bn.Gr` of the four argument arrays.

  The reference computes per channel c the means of the two input arrays over the positions (batch, row, column) by a
  reduction over the axes 0, 2, 3 and a division by the count; the centred arrays; the three centred second moments the
  same way (the two variances with the regulariser added); the square root of the determinant, the reciprocal
  1 / (s · √(trace + 2 s)), the three entries of the inverse square root of the covariance; the whitened pair; and for each
  output half h the affine map with the weights a2[h, 0, c], a2[h, 1, c] and the bias a3[h, c], the two halves stacked
  along a new leading axis. Each named intermediate of the run is read at an index by coordinates, bottom-up; the one
  re-indexing is that the indices of the 32x256x64x64 array that the reduction sends to channel c are in bijection with
  the positions.
-/
import proofs.«121567_j27676769255584_2_alg».proof.Proof.Gen.ReferenceIdeal.Run
import proofs.«121567_j27676769255584_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo
open Idealize.ShloMosaic.ValueIdx
open scoped BigOperators

/-! ## The reduction over batch, rows and columns, read at a channel -/
/-- The sum over the indices of the 32x256x64x64 array that the reduction over the axes 0, 2, 3 sends to channel c
    is the sum over the positions (batch, row, column) of the element at (batch, c, row, column). -/
theorem sum_filter_drop (f : S32x256x64x64.Idx → EReal) (c : Fin 256) :
    ∑ i ∈ Finset.univ.filter (fun i => reducesTo_S32x256x64x64_S256_d0_2_3.drop i = ix1 c), f i
      = ∑ q : Cert.Bn.Pos, f (ix4 q.1 c q.2.1 q.2.2) := by
  refine Finset.sum_nbij' (fun i => ((i 0 : Fin 32), (i 2 : Fin 64), (i 3 : Fin 64)))
    (fun q => ix4 q.1 c q.2.1 q.2.2) ?_ ?_ ?_ ?_ ?_
  · intro i _; exact Finset.mem_univ _
  · intro q _
    rw [Finset.mem_filter]
    refine ⟨Finset.mem_univ _, ?_⟩
    funext b
    match b with
    | ⟨0, _⟩ => rfl
  · intro i hi
    rw [Finset.mem_filter] at hi
    have h1 : (i 1 : Fin 256) = c := by
      have := congrFun hi.2 (0 : Fin 1)
      exact this
    funext a
    match a with
    | ⟨0, _⟩ => rfl
    | ⟨1, _⟩ => exact h1.symm
    | ⟨2, _⟩ => rfl
    | ⟨3, _⟩ => rfl
  · intro q _; rfl
  · intro i hi
    rw [Finset.mem_filter] at hi
    have h1 : (i 1 : Fin 256) = c := by
      have := congrFun hi.2 (0 : Fin 1)
      exact this
    congr 1
    funext a
    match a with
    | ⟨0, _⟩ => rfl
    | ⟨1, _⟩ => exact h1
    | ⟨2, _⟩ => rfl
    | ⟨3, _⟩ => rfl

/-- The reduction over the axes 0, 2, 3 from the zero literal, read at channel c. -/
theorem reduce_apply (a : FVec Ideal S32x256x64x64 .f32) (c : Fin 256) :
    Host.reduceAdd a (constant S_ .f32 0x00000000#32) reducesTo_S32x256x64x64_S256_d0_2_3 h_S_ (ix1 c)
      = ∑ q : Cert.Bn.Pos, a (ix4 q.1 c q.2.1 q.2.2) := by
  show Ideal.hostReduceAdd _ a (Ideal.ofBits .f32 0x00000000#32) (ix1 c) = _
  unfold Ideal.hostReduceAdd
  rw [Ideal.ofBits_zero_f32, zero_add]
  exact sum_filter_drop a c

/-- A scalar literal broadcast to the 256 channels reads the literal. -/
theorem lit_apply (b : BitVec 32) (c : Fin 256) :
    broadcastInDim S256 ![] bcast_S_S256 (constant (F := Ideal) S_ .f32 b) (ix1 c) = Ideal.ofBits .f32 b := rfl

/-- The channel mean: the sum over the positions divided by the count. -/
theorem mean_apply (a : FVec Ideal S32x256x64x64 .f32) (c : Fin 256) :
    Host.divf (Host.reduceAdd a (constant S_ .f32 0x00000000#32) reducesTo_S32x256x64x64_S256_d0_2_3 h_S_)
        (broadcastInDim S256 ![] bcast_S_S256 (constant S_ .f32 0x48000000#32)) (ix1 c)
      = Ideal.div (∑ q : Cert.Bn.Pos, Cert.Bn.chan a c q) Cert.Bn.nI := by
  show Ideal.div (Host.reduceAdd a (constant S_ .f32 0x00000000#32) reducesTo_S32x256x64x64_S256_d0_2_3 h_S_ (ix1 c)) _ = _
  rw [reduce_apply]
  rfl

/-- A per-channel vector broadcast over batch, rows and columns reads its channel's element. -/
theorem bcast_chan_apply {α : Type} (v : S256.Idx → α) (n : Fin 32) (c : Fin 256) (y x : Fin 64) :
    broadcastInDim S32x256x64x64 ![0, 1, 2, 3] bcast_S1x256x1x1_S32x256x64x64_0_1_2_3
        (broadcastInDim S1x256x1x1 ![1] bcast_S256_S1x256x1x1_1 v) (ix4 n c y x) = v (ix1 c) := by
  refine (broadcastInDim_apply _ _ _ (ix4 n c y x) (ix4 (0 : Fin 1) c (0 : Fin 1) (0 : Fin 1)) ?_).trans ?_
  · intro a
    match a with
    | ⟨0, _⟩ => rfl
    | ⟨1, _⟩ => rfl
    | ⟨2, _⟩ => rfl
    | ⟨3, _⟩ => rfl
  · refine broadcastInDim_apply _ _ _ _ (ix1 c) ?_
    intro a
    match a with
    | ⟨0, _⟩ => rfl

/-! ## The per-channel statistics, as the specification spells them -/

/-- The mean of channel c of an input array. -/
def mu (a : Cert.Bn.A4) (c : Fin 256) : EReal := Ideal.div (∑ q : Cert.Bn.Pos, Cert.Bn.chan a c q) Cert.Bn.nI

/-- The centred second moment of channel c of two input arrays. -/
def cov (a b : Cert.Bn.A4) (c : Fin 256) : EReal :=
  Ideal.div (∑ q : Cert.Bn.Pos, (Cert.Bn.chan a c q - mu a c) * (Cert.Bn.chan b c q - mu b c)) Cert.Bn.nI

/-- The four argument arrays of a valuation. -/
abbrev arg0 (V0 : Valuation τ sig (Elt Ideal)) : Cert.Bn.A4 := V0 (Proc.devRef .tc main_arg0)
abbrev arg1 (V0 : Valuation τ sig (Elt Ideal)) : Cert.Bn.A4 := V0 (Proc.devRef .tc main_arg1)
abbrev arg2 (V0 : Valuation τ sig (Elt Ideal)) : Cert.Bn.A3 := V0 (Proc.devRef .tc main_arg2)
abbrev arg3 (V0 : Valuation τ sig (Elt Ideal)) : Cert.Bn.A2 := V0 (Proc.devRef .tc main_arg3)

/-- The regularised covariance entries of channel c. -/
abbrev Vrr (V0 : Valuation τ sig (Elt Ideal)) (c : Fin 256) : EReal := cov (arg0 V0) (arg0 V0) c + Cert.Bn.εI
abbrev Vii (V0 : Valuation τ sig (Elt Ideal)) (c : Fin 256) : EReal := cov (arg1 V0) (arg1 V0) c + Cert.Bn.εI
abbrev Vri (V0 : Valuation τ sig (Elt Ideal)) (c : Fin 256) : EReal := cov (arg0 V0) (arg1 V0) c

variable (V0 : Valuation τ sig (Elt Ideal))

/-- The host's square root at an index is the ideal instance's square root of the element. -/
theorem hostSqrt_apply {s : Shape} {φ : FTy} (v : FVec Ideal s φ) (i : s.Idx) : Host.sqrt v i = Ideal.sqrt (v i) := rfl

/-- The host's negation at an index is the negation of the element. -/
theorem hostNegf_apply {s : Shape} {φ : FTy} (v : FVec Ideal s φ) (i : s.Idx) : Host.negf v i = -(v i) := rfl

/-! ## The named intermediates, read at an index -/

/-- The first input centred. -/
theorem v8_apply (n : Fin 32) (c : Fin 256) (y x : Fin 64) :
    res_main_v8 V0 (ix4 n c y x) = arg0 V0 (ix4 n c y x) - mu (arg0 V0) c := by
  unfold res_main_v8
  rw [subf_apply, bcast_chan_apply, mean_apply]
  rfl

/-- The second input centred. -/
theorem v11_apply (n : Fin 32) (c : Fin 256) (y x : Fin 64) :
    res_main_v11 V0 (ix4 n c y x) = arg1 V0 (ix4 n c y x) - mu (arg1 V0) c := by
  unfold res_main_v11
  rw [subf_apply, bcast_chan_apply, mean_apply]
  rfl

/-- A centred second moment: the reduction of a product of two centred arrays, divided by the count. -/
theorem moment_apply (u v : FVec Ideal S32x256x64x64 .f32) (a b : Cert.Bn.A4) (c : Fin 256)
    (hu : ∀ n y x, u (ix4 n c y x) = a (ix4 n c y x) - mu a c) (hv : ∀ n y x, v (ix4 n c y x) = b (ix4 n c y x) - mu b c) :
    Host.divf (Host.reduceAdd (mulf u v) (constant S_ .f32 0x00000000#32) reducesTo_S32x256x64x64_S256_d0_2_3 h_S_)
        (broadcastInDim S256 ![] bcast_S_S256 (constant S_ .f32 0x48000000#32)) (ix1 c)
      = cov a b c := by
  show Ideal.div (Host.reduceAdd (mulf u v) (constant S_ .f32 0x00000000#32) reducesTo_S32x256x64x64_S256_d0_2_3 h_S_ (ix1 c)) _ = _
  rw [reduce_apply]
  unfold cov
  refine congrArg (fun s => Ideal.div s Cert.Bn.nI) (Finset.sum_congr rfl fun q _ => ?_)
  rw [mulf_apply, hu, hv]
  rfl

/-- The regularised variance of the first input. -/
theorem v17_apply (c : Fin 256) : res_main_v17 V0 (ix1 c) = Vrr V0 c := by
  unfold res_main_v17
  rw [addf_apply, moment_apply _ _ (arg0 V0) (arg0 V0) c (fun n y x => v8_apply V0 n c y x) (fun n y x => v8_apply V0 n c y x)]
  rfl

/-- The regularised variance of the second input. -/
theorem v23_apply (c : Fin 256) : res_main_v23 V0 (ix1 c) = Vii V0 c := by
  unfold res_main_v23
  rw [addf_apply, moment_apply _ _ (arg1 V0) (arg1 V0) c (fun n y x => v11_apply V0 n c y x) (fun n y x => v11_apply V0 n c y x)]
  rfl

/-- The covariance of the two inputs. -/
theorem v27_apply (c : Fin 256) : res_main_v27 V0 (ix1 c) = Vri V0 c := by
  unfold res_main_v27
  exact moment_apply _ _ (arg0 V0) (arg1 V0) c (fun n y x => v8_apply V0 n c y x) (fun n y x => v11_apply V0 n c y x)

/-- The square root of the determinant. -/
theorem v31_apply (c : Fin 256) :
    res_main_v31 V0 (ix1 c) = Cert.Bn.sOf Ideal.sqrt (Vrr V0 c) (Vii V0 c) (Vri V0 c) := by
  unfold res_main_v31
  rw [hostSqrt_apply, subf_apply, mulf_apply, mulf_apply, v17_apply, v23_apply, v27_apply]
  rfl

/-- The reciprocal 1 / (s · √(trace + 2 s)). -/
theorem v39_apply (c : Fin 256) :
    res_main_v39 V0 (ix1 c)
      = Cert.Bn.invOf Ideal.sqrt Ideal.div Cert.Bn.oneI Cert.Bn.twoI (Vrr V0 c) (Vii V0 c) (Vri V0 c) := by
  unfold res_main_v39
  rw [hostDivf_apply, lit_apply, mulf_apply, hostSqrt_apply, addf_apply, addf_apply, mulf_apply, lit_apply, v31_apply,
    v17_apply, v23_apply]
  rfl

/-- The off-diagonal entry of the inverse square root. -/
theorem v45_apply (c : Fin 256) :
    res_main_v45 V0 (ix1 c)
      = Cert.Bn.rriOf Ideal.sqrt Ideal.div Cert.Bn.oneI Cert.Bn.twoI (Vrr V0 c) (Vii V0 c) (Vri V0 c) := by
  unfold res_main_v45
  rw [mulf_apply, hostNegf_apply, v27_apply, v39_apply]
  rfl

/-- The first whitened component. -/
theorem v52_apply (n : Fin 32) (c : Fin 256) (y x : Fin 64) :
    res_main_v52 V0 (ix4 n c y x)
      = Cert.Bn.rrrOf Ideal.sqrt Ideal.div Cert.Bn.oneI Cert.Bn.twoI (Vrr V0 c) (Vii V0 c) (Vri V0 c)
            * (arg0 V0 (ix4 n c y x) - mu (arg0 V0) c)
          + Cert.Bn.rriOf Ideal.sqrt Ideal.div Cert.Bn.oneI Cert.Bn.twoI (Vrr V0 c) (Vii V0 c) (Vri V0 c)
            * (arg1 V0 (ix4 n c y x) - mu (arg1 V0) c) := by
  unfold res_main_v52
  rw [addf_apply, mulf_apply, mulf_apply, bcast_chan_apply, bcast_chan_apply, v8_apply, v11_apply, v45_apply,
    mulf_apply, addf_apply, v23_apply, v31_apply, v39_apply]
  rfl

/-- The second whitened component. -/
theorem v59_apply (n : Fin 32) (c : Fin 256) (y x : Fin 64) :
    res_main_v59 V0 (ix4 n c y x)
      = Cert.Bn.rriOf Ideal.sqrt Ideal.div Cert.Bn.oneI Cert.Bn.twoI (Vrr V0 c) (Vii V0 c) (Vri V0 c)
            * (arg0 V0 (ix4 n c y x) - mu (arg0 V0) c)
          + Cert.Bn.riiOf Ideal.sqrt Ideal.div Cert.Bn.oneI Cert.Bn.twoI (Vrr V0 c) (Vii V0 c) (Vri V0 c)
            * (arg1 V0 (ix4 n c y x) - mu (arg1 V0) c) := by
  unfold res_main_v59
  rw [addf_apply, mulf_apply, mulf_apply, bcast_chan_apply, bcast_chan_apply, v8_apply, v11_apply, v45_apply,
    mulf_apply, addf_apply, v17_apply, v31_apply, v39_apply]
  rfl

/-! ## The affine weights and the bias, read at a channel -/

/-- A row of the weights: the slice at (h, k, ·) flattened, read at channel c. -/
theorem w_apply (a2 : Cert.Bn.A3) (h k : Fin 2) (hs : S2x2x256.Slices ![h.val, k.val, 0] S1x1x256) (c : Fin 256) :
    shapeCast S256 (extractStridedSlice S1x1x256 ![h.val, k.val, 0] a2 hs) shapeCasts_S1x1x256_S256 (ix1 c)
      = a2 (ix3 h k c) := by
  refine (shapeCast_apply _ _ (ix1 c) (ix3 (0 : Fin 1) (0 : Fin 1) c) ?_).trans ?_
  · rw [Shape.rowMajor_val_three, Shape.rowMajor_val_one]
    show (0 * 1 + 0) * 256 + c.val = c.val
    omega
  · refine extractStridedSlice_apply _ _ _ _ (ix3 h k c) ?_
    intro a
    match a with
    | ⟨0, _⟩ => rfl
    | ⟨1, _⟩ => rfl
    | ⟨2, _⟩ => show c.val = 0 + c.val; omega

/-- A row of the bias: the slice at (h, ·) flattened, read at channel c. -/
theorem b_apply (a3 : Cert.Bn.A2) (h : Fin 2) (hs : S2x256.Slices ![h.val, 0] S1x256) (c : Fin 256) :
    shapeCast S256 (extractStridedSlice S1x256 ![h.val, 0] a3 hs) shapeCasts_S1x256_S256 (ix1 c) = a3 (ix2 h c) := by
  refine (shapeCast_apply _ _ (ix1 c) (ix2 (0 : Fin 1) c) ?_).trans ?_
  · rw [Shape.rowMajor_val_two, Shape.rowMajor_val_one]
    show 0 * 256 + c.val = c.val
    omega
  · refine extractStridedSlice_apply _ _ _ _ (ix2 h c) ?_
    intro a
    match a with
    | ⟨0, _⟩ => rfl
    | ⟨1, _⟩ => show c.val = 0 + c.val; omega

/-! ## One output half, and the specification's element in the same form -/

/-- One output half before stacking, at (n, c, y, x): the two weights applied to the whitened pair, plus the bias. -/
theorem half_apply (w0 w1 b : FVec Ideal S256 .f32) (n : Fin 32) (c : Fin 256) (y x : Fin 64) :
    addf (addf
          (mulf (broadcastInDim S32x256x64x64 ![0, 1, 2, 3] bcast_S1x256x1x1_S32x256x64x64_0_1_2_3
            (broadcastInDim S1x256x1x1 ![1] bcast_S256_S1x256x1x1_1 w0)) (res_main_v52 V0))
          (mulf (broadcastInDim S32x256x64x64 ![0, 1, 2, 3] bcast_S1x256x1x1_S32x256x64x64_0_1_2_3
            (broadcastInDim S1x256x1x1 ![1] bcast_S256_S1x256x1x1_1 w1)) (res_main_v59 V0)))
        (broadcastInDim S32x256x64x64 ![0, 1, 2, 3] bcast_S1x256x1x1_S32x256x64x64_0_1_2_3
          (broadcastInDim S1x256x1x1 ![1] bcast_S256_S1x256x1x1_1 b)) (ix4 n c y x)
      = (w0 (ix1 c) * (res_main_v52 V0 (ix4 n c y x) : EReal) + w1 (ix1 c) * (res_main_v59 V0 (ix4 n c y x) : EReal))
          + b (ix1 c) := by
  rw [addf_apply, addf_apply, mulf_apply, mulf_apply, bcast_chan_apply, bcast_chan_apply, bcast_chan_apply]

/-- The specification's element, with the whitened pair spelt as the run's two named intermediates. -/
theorem Gr_eq (h : Fin 2) (n : Fin 32) (c : Fin 256) (y x : Fin 64) :
    Cert.Bn.Gr (arg0 V0) (arg1 V0) (arg2 V0) (arg3 V0) h n c y x
      = (arg2 V0 (ix3 h (0 : Fin 2) c) * (res_main_v52 V0 (ix4 n c y x) : EReal)
          + arg2 V0 (ix3 h (1 : Fin 2) c) * (res_main_v59 V0 (ix4 n c y x) : EReal)) + arg3 V0 (ix2 h c) := by
  rw [v52_apply, v59_apply]
  rfl

/-- The new leading axis: the stacked piece at (0, n, c, y, x) is the array at (n, c, y, x). -/
theorem lead_apply {α : Type} (u : S32x256x64x64.Idx → α) (n : Fin 32) (c : Fin 256) (y x : Fin 64) :
    broadcastInDim S1x32x256x64x64 ![1, 2, 3, 4] bcast_S32x256x64x64_S1x32x256x64x64_1_2_3_4 u (ix5 (0 : Fin 1) n c y x)
      = u (ix4 n c y x) := by
  refine broadcastInDim_apply _ _ _ _ (ix4 n c y x) ?_
  intro a
  match a with
  | ⟨0, _⟩ => rfl
  | ⟨1, _⟩ => rfl
  | ⟨2, _⟩ => rfl
  | ⟨3, _⟩ => rfl

/-! ## The result -/

set_option maxRecDepth 8192 in
/-- The run's composed term is the specification's function of the four argument arrays. -/
theorem result_eq :
    concatenate S2x32x256x64x64 0 [⟨S1x32x256x64x64, (broadcastInDim S1x32x256x64x64 ![1, 2, 3, 4] bcast_S32x256x64x64_S1x32x256x64x64_1_2_3_4 (addf (addf (mulf (broadcastInDim S32x256x64x64 ![0, 1, 2, 3] bcast_S1x256x1x1_S32x256x64x64_0_1_2_3 (broadcastInDim S1x256x1x1 ![1] bcast_S256_S1x256x1x1_1 (shapeCast _ (extractStridedSlice S1x1x256 ![0, 0, 0] (V0 (Proc.devRef .tc main_arg2)) slices_S2x2x256_S1x1x256_0_0_0) shapeCasts_S1x1x256_S256))) (res_main_v52 V0)) (mulf (broadcastInDim S32x256x64x64 ![0, 1, 2, 3] bcast_S1x256x1x1_S32x256x64x64_0_1_2_3 (broadcastInDim S1x256x1x1 ![1] bcast_S256_S1x256x1x1_1 (shapeCast _ (extractStridedSlice S1x1x256 ![0, 1, 0] (V0 (Proc.devRef .tc main_arg2)) slices_S2x2x256_S1x1x256_0_1_0) shapeCasts_S1x1x256_S256))) (res_main_v59 V0))) (broadcastInDim S32x256x64x64 ![0, 1, 2, 3] bcast_S1x256x1x1_S32x256x64x64_0_1_2_3 (broadcastInDim S1x256x1x1 ![1] bcast_S256_S1x256x1x1_1 (shapeCast _ (extractStridedSlice S1x256 ![0, 0] (V0 (Proc.devRef .tc main_arg3)) slices_S2x256_S1x256_0_0) shapeCasts_S1x256_S256)))))⟩, ⟨S1x32x256x64x64, (broadcastInDim S1x32x256x64x64 ![1, 2, 3, 4] bcast_S32x256x64x64_S1x32x256x64x64_1_2_3_4 (addf (addf (mulf (broadcastInDim S32x256x64x64 ![0, 1, 2, 3] bcast_S1x256x1x1_S32x256x64x64_0_1_2_3 (broadcastInDim S1x256x1x1 ![1] bcast_S256_S1x256x1x1_1 (shapeCast _ (extractStridedSlice S1x1x256 ![1, 0, 0] (V0 (Proc.devRef .tc main_arg2)) slices_S2x2x256_S1x1x256_1_0_0) shapeCasts_S1x1x256_S256))) (res_main_v52 V0)) (mulf (broadcastInDim S32x256x64x64 ![0, 1, 2, 3] bcast_S1x256x1x1_S32x256x64x64_0_1_2_3 (broadcastInDim S1x256x1x1 ![1] bcast_S256_S1x256x1x1_1 (shapeCast _ (extractStridedSlice S1x1x256 ![1, 1, 0] (V0 (Proc.devRef .tc main_arg2)) slices_S2x2x256_S1x1x256_1_1_0) shapeCasts_S1x1x256_S256))) (res_main_v59 V0))) (broadcastInDim S32x256x64x64 ![0, 1, 2, 3] bcast_S1x256x1x1_S32x256x64x64_0_1_2_3 (broadcastInDim S1x256x1x1 ![1] bcast_S256_S1x256x1x1_1 (shapeCast _ (extractStridedSlice S1x256 ![1, 0] (V0 (Proc.devRef .tc main_arg3)) slices_S2x256_S1x256_1_0) shapeCasts_S1x256_S256)))))⟩] concatenates_S1x32x256x64x64_S1x32x256x64x64_S2x32x256x64x64_d0
      = fun j : S2x32x256x64x64.Idx =>
          Cert.Bn.Gr (arg0 V0) (arg1 V0) (arg2 V0) (arg3 V0) (j 0) (j 1) (j 2) (j 3) (j 4) := by
  funext j
  obtain ⟨h, n, c, y, x, rfl⟩ : ∃ (h : Fin 2) (n : Fin 32) (c : Fin 256) (y x : Fin 64), j = ix5 h n c y x :=
    ⟨j 0, j 1, j 2, j 3, j 4, eq_ix5 j⟩
  show _ = Cert.Bn.Gr (arg0 V0) (arg1 V0) (arg2 V0) (arg3 V0) h n c y x
  rw [Gr_eq]
  have e00 : shapeCast S256 (extractStridedSlice S1x1x256 ![0, 0, 0] (arg2 V0) slices_S2x2x256_S1x1x256_0_0_0)
      shapeCasts_S1x1x256_S256 (ix1 c) = arg2 V0 (ix3 (0 : Fin 2) (0 : Fin 2) c) := w_apply (arg2 V0) 0 0 _ c
  have e01 : shapeCast S256 (extractStridedSlice S1x1x256 ![0, 1, 0] (arg2 V0) slices_S2x2x256_S1x1x256_0_1_0)
      shapeCasts_S1x1x256_S256 (ix1 c) = arg2 V0 (ix3 (0 : Fin 2) (1 : Fin 2) c) := w_apply (arg2 V0) 0 1 _ c
  have e10 : shapeCast S256 (extractStridedSlice S1x1x256 ![1, 0, 0] (arg2 V0) slices_S2x2x256_S1x1x256_1_0_0)
      shapeCasts_S1x1x256_S256 (ix1 c) = arg2 V0 (ix3 (1 : Fin 2) (0 : Fin 2) c) := w_apply (arg2 V0) 1 0 _ c
  have e11 : shapeCast S256 (extractStridedSlice S1x1x256 ![1, 1, 0] (arg2 V0) slices_S2x2x256_S1x1x256_1_1_0)
      shapeCasts_S1x1x256_S256 (ix1 c) = arg2 V0 (ix3 (1 : Fin 2) (1 : Fin 2) c) := w_apply (arg2 V0) 1 1 _ c
  have f0 : shapeCast S256 (extractStridedSlice S1x256 ![0, 0] (arg3 V0) slices_S2x256_S1x256_0_0)
      shapeCasts_S1x256_S256 (ix1 c) = arg3 V0 (ix2 (0 : Fin 2) c) := b_apply (arg3 V0) 0 _ c
  have f1 : shapeCast S256 (extractStridedSlice S1x256 ![1, 0] (arg3 V0) slices_S2x256_S1x256_1_0)
      shapeCasts_S1x256_S256 (ix1 c) = arg3 V0 (ix2 (1 : Fin 2) c) := b_apply (arg3 V0) 1 _ c
  match h with
  | ⟨0, _⟩ =>
    refine (concatenate_pair_apply_left (t := S2x32x256x64x64) (s₁ := S1x32x256x64x64) (s₂ := S1x32x256x64x64) 0 _ _
      concatenates_S1x32x256x64x64_S1x32x256x64x64_S2x32x256x64x64_d0 _ rfl (ix5 (0 : Fin 1) n c y x) ?_).trans ?_
    · intro b
      match b with
      | ⟨0, _⟩ => rfl
      | ⟨1, _⟩ => rfl
      | ⟨2, _⟩ => rfl
      | ⟨3, _⟩ => rfl
      | ⟨4, _⟩ => rfl
    refine (lead_apply _ n c y x).trans ?_
    refine (half_apply V0 _ _ _ n c y x).trans ?_
    rw [e00, e01, f0]
    rfl
  | ⟨1, _⟩ =>
    refine (concatenate_pair_apply_right (t := S2x32x256x64x64) (s₁ := S1x32x256x64x64) (s₂ := S1x32x256x64x64) 0 _ _
      concatenates_S1x32x256x64x64_S1x32x256x64x64_S2x32x256x64x64_d0 _ rfl rfl (ix5 (0 : Fin 1) n c y x) ?_ ?_).trans ?_
    · intro b
      match b with
      | ⟨0, _⟩ => exact fun hne => absurd rfl hne
      | ⟨1, _⟩ => exact fun _ => rfl
      | ⟨2, _⟩ => exact fun _ => rfl
      | ⟨3, _⟩ => exact fun _ => rfl
      | ⟨4, _⟩ => exact fun _ => rfl
    · rfl
    refine (lead_apply _ n c y x).trans ?_
    refine (half_apply V0 _ _ _ n c y x).trans ?_
    rw [e10, e11, f1]
    rfl

/-- Every execution of the reference ends with the result array at the specification's function of the four
    argument arrays, and the arguments unchanged. -/
theorem run_Gr (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
          = (fun j : S2x32x256x64x64.Idx =>
              Cert.Bn.Gr (m ((c.tc : Thread nD τ).loc main_arg0)) (m ((c.tc : Thread nD τ).loc main_arg1))
                (m ((c.tc : Thread nD τ).loc main_arg2)) (m ((c.tc : Thread nD τ).loc main_arg3))
                (j 0) (j 1) (j 2) (j 3) (j 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq (launchContents m c)), (h c).2⟩)
    (Value.run (F := Ideal) m ρ)

end Cert.ReferenceIdeal.RefValue

end
-- ==== Proof.SpecEq.lean ====
/-
  The two arrangements of the specification agree on finite arguments: with the square root and the quotient of the
  extended reals restricted to the reals (where they are the usual ones), the count literal read as 131072 = 32·64·64 (the
  number of positions of one channel), the regulariser as a positive real and the literals one and two as themselves,
  `Gk = Gr` is the per-channel identity `kerOut_eq_refOut` at the positions `Pos`.
-/
import proofs.«121567_j27676769255584_2_alg».proof.Proof.Spec

noncomputable section

namespace Cert.Bn

open Idealize.ShloMosaic Idealize.ShloMosaic.ValueIdx

/-- The quotient of two reals with non-zero divisor is the real quotient. -/
theorem div_real (a b : ℝ) (hb : b ≠ 0) : Ideal.div (a : EReal) (b : EReal) = ((a / b : ℝ) : EReal) := by
  rw [Ideal.div_coe hb, ← EReal.coe_mul, mul_one_div]

/-- The square root of a non-negative real is the real square root. -/
theorem sqrt_real (a : ℝ) (ha : 0 ≤ a) : Ideal.sqrt (a : EReal) = ((Real.sqrt a : ℝ) : EReal) := by
  rw [Ideal.sqrt_coe, if_neg (not_lt.2 ha)]

/-- One channel has 32·64·64 = 131072 positions. -/
theorem card_Pos : Fintype.card Pos = 131072 := by
  simp [Pos, Fintype.card_prod, Fintype.card_fin]

/-- The count literal denotes 2¹⁷ = 131072. -/
theorem nI_eq : nI = ((131072 : ℝ) : EReal) := by
  simp [nI, Ideal.ofBits, Ideal.ieee, -EReal.coe_mul]; norm_num

/-- The regulariser literal denotes the positive real 10995116 · 2⁻⁴⁰. -/
theorem εI_eq : εI = (((10995116 : ℝ) * (2 : ℝ) ^ (-40 : Int) : ℝ) : EReal) := by
  simp [εI, Ideal.ofBits, Ideal.ieee, -EReal.coe_mul]

theorem oneI_eq : oneI = ((1 : ℝ) : EReal) := by
  simp [oneI, Ideal.ofBits, Ideal.ieee, -EReal.coe_mul]; norm_num

theorem twoI_eq : twoI = ((2 : ℝ) : EReal) := by
  simp [twoI, Ideal.ofBits, Ideal.ieee, -EReal.coe_mul]; norm_num

/-- On finite arguments the kernels' arrangement and the reference's arrangement give the same output element. -/
theorem Gk_eq_Gr (a0 a1 : A4) (a2 : A3) (a3 : A2)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h : Fin 2) (n : Fin 32) (c : Fin 256) (y x : Fin 64) :
    Gk a0 a1 a2 a3 h n c y x = Gr a0 a1 a2 a3 h n c y x := by
  unfold Gk Gr
  exact kerOut_eq_refOut Ideal.sqrt Ideal.div div_real sqrt_real nI εI oneI twoI
    (by rw [card_Pos]; norm_num) (by rw [card_Pos, nI_eq]; norm_num)
    ⟨_, by positivity, εI_eq⟩ oneI_eq twoI_eq
    (chan a0 c) (chan a1 c) (fun q => h0 (ix4 q.1 c q.2.1 q.2.2)) (fun q => h1 (ix4 q.1 c q.2.1 q.2.2))
    _ _ _ _ _ (h2 _) (h2 _) (h0 _) (h1 _)

end Cert.Bn

end
-- ==== Proof.Finite.lean ====
/-
  The precondition read back: the predicate `finite_inputs` says of each of the four argument arrays that every entry x
  has |x| < +∞, all four conjoined.  Evaluated at the extended reals and equal to one, it gives that every entry of every
  array is a real number: a conjunction of bits is one only when each bit is, an "all" over an array is one only when
  every element is, and |x| = max x (−x) is +∞ at both infinities, so |x| < +∞ leaves only the reals.
-/
import proofs.«121567_j27676769255584_2_alg».proof.Defs
import proofs.«121567_j27676769255584_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The shape of rank zero has one index. -/
instance : Subsingleton S_.Idx := ⟨fun a b => funext fun d => d.elim0⟩

/-- The pattern the predicate compares against denotes +∞. -/
theorem inf_eq : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- Under the precondition every entry of the four argument arrays is a real number. -/
theorem finite_of_fn [Cert.Pre_finite_inputs.Facts]
    (a0 a1 : FVec Ideal S32x256x64x64 .f32) (a2 : FVec Ideal S2x2x256 .f32) (a3 : FVec Ideal S2x256 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have e := congrFun h ValueIdx.ix0
  unfold Cert.Pre_finite_inputs.fn Cert.Pre_finite_inputs.fn_part1 at e
  dsimp only at e
  obtain ⟨e012, e3⟩ := IntOp.andi_eq_one.1 e
  obtain ⟨e01, e2⟩ := IntOp.andi_eq_one.1 e012
  obtain ⟨e0, e1⟩ := IntOp.andi_eq_one.1 e01
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i)⟩

end Cert.Finite

end
-- ==== Proof.lean ====
/-
  Complex batch normalisation with batch statistics: a two-kernel program against its plain reference, equal over the
  extended reals on finite inputs.

  The program computes, per channel, the sums of `xr`, `xi`, `xr²`, `xi²`, `xr·xi` over batch and image in a first kernel
  (two halves of the batch, each accumulated block by block into its own row of partial sums), forms from them on the host
  the two means, the regularised 2×2 covariance `E[ab] − E[a]E[b]`, its inverse square root, and folds that with the affine
  weights into eight per-channel coefficients; a second kernel then writes `c₂·(xr − c₀) + c₃·(xi − c₁) + c₆` and the
  like for the imaginary row. The reference centres first, takes the covariance of the centred data, whitens, and applies
  the weights afterwards. On finite data the two agree: the raw-moment covariance IS the centred one; by Cauchy–Schwarz
  its regularised determinant is at least `ε² > 0`, so both square roots are of positive reals and the reciprocal is of a
  non-zero real, every whitening entry is a real number, and folding the weights into the matrix first is distributivity.

  The three frames are the two programs' runs with the results dropped; the idealisation rewrote nothing.
-/
import proofs.«121567_j27676769255584_2_alg».proof.Defs
import proofs.«121567_j27676769255584_2_alg».proof.Proof.Gen.Kernel
import proofs.«121567_j27676769255584_2_alg».proof.Proof.Gen.KernelIdeal
import proofs.«121567_j27676769255584_2_alg».proof.Proof.Gen.ReferenceIdeal
import proofs.«121567_j27676769255584_2_alg».proof.Proof.Gen.Pre_finite_inputs
import proofs.«121567_j27676769255584_2_alg».proof.Proof.K.Run
import proofs.«121567_j27676769255584_2_alg».proof.Proof.KI.KVal
import proofs.«121567_j27676769255584_2_alg».proof.Proof.RefVal
import proofs.«121567_j27676769255584_2_alg».proof.Proof.SpecEq
import proofs.«121567_j27676769255584_2_alg».proof.Proof.Finite
import Idealize.ShloMosaic.Adequacy
import Idealize.ShloMosaic.Init

noncomputable section

namespace Cert.Proof

open Idealize.ShloMosaic Idealize.SL.Sem

/-- The word-level program runs to the end, faults nowhere and leaves its four argument arrays as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.RefValue.run_Gr m ρ)

/-- The idealisation rewrote no operation. -/
theorem preserves : Cert.preserves_Kernel_KernelIdeal := trivial

/-- Both programs end with every output element at the same extended real: the kernels' at the raw-moment arrangement `Gk`
    of the argument arrays, the reference's at the centred arrangement `Gr` of arrays that agree with them, and the two
    arrangements coincide where every input is a real number — which the precondition says. -/
theorem algebraic : Cert.algebraic_KernelIdeal_ReferenceIdeal := by
  intro m ρ m' ρ' hpre hagree
  refine ⟨_, Cert.KernelIdeal.Hand.run_Gk m ρ, ?_⟩
  refine (θ_run Cert.ReferenceIdeal.defs _ _).mono (fun _ h c => ⟨(h c).1.trans ?_, (h c).2⟩)
    (Cert.ReferenceIdeal.RefValue.run_Gr m' ρ')
  rw [(hagree c).1, (hagree c).2.1, (hagree c).2.2.1, (hagree c).2.2.2]
  obtain ⟨f0, f1, f2, f3⟩ := Cert.Finite.finite_of_fn _ _ _ _ (hpre c)
  funext j
  exact (Cert.Bn.Gk_eq_Gr _ _ _ _ f0 f1 f2 f3 _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
